-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x4096x1024 .f32) (main_arg1 : FVec F S1024x1024 .f32) (main_arg2 : FVec F S1024x1024 .f32) (main_arg3 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x4096x1024 : Shape := ⟨3, ![4, 4096, 1024]⟩
abbrev S1024x1024 : Shape := ⟨2, ![1024, 1024]⟩
abbrev S16384x1024 : Shape := ⟨2, ![16384, 1024]⟩
abbrev S512x1024 : Shape := ⟨2, ![512, 1024]⟩
abbrev S1x1024x1024 : Shape := ⟨3, ![1, 1024, 1024]⟩
abbrev S1x512x1024 : Shape := ⟨3, ![1, 512, 1024]⟩
abbrev S1024x1 : Shape := ⟨2, ![1024, 1]⟩
abbrev S1024x512 : Shape := ⟨2, ![1024, 512]⟩
abbrev S1024 : Shape := ⟨1, ![1024]⟩

abbrev nBuf : Space → Nat
  | .hbm => 15
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S16384x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S16384x1024, .bf16⟩
  | .hbm, ⟨9, _⟩ => ⟨S16384x1024, .bf16⟩
  | .hbm, ⟨10, _⟩ => ⟨S16384x1024, .bf16⟩
  | .hbm, ⟨11, _⟩ => ⟨S4x4096x1024, .bf16⟩
  | .hbm, ⟨12, _⟩ => ⟨S4x4096x1024, .bf16⟩
  | .hbm, ⟨13, _⟩ => ⟨S4x4096x1024, .bf16⟩
  | .hbm, ⟨14, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x1024x1024, .f32⟩
  | .local _ .vmem, ⟨18, _⟩ => ⟨S1x1024x1024, .f32⟩
  | .local _ .vmem, ⟨19, _⟩ => ⟨S1024x1, .f32⟩
  | .local _ .vmem, ⟨20, _⟩ => ⟨S1024x1, .f32⟩
  | .local _ .vmem, ⟨21, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![4, 4, 8], ![false, false, false]⟩

def k1_cond3 (i : grid1.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_3 : BitVec 32 := 0#32
  let v11 : BitVec 1 := Scalar.cmpi .ne v10 c0_i32_3
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c2_i32 : BitVec 32 := 2#32
  let v1 : BitVec 32 := Scalar.muli v0 c2_i32
  let c1_i32_0 : BitVec 32 := 1#32
  let v2 : BitVec 32 := Scalar.subi v1 c1_i32_0
  let v3 : BitVec 32 := Scalar.minsi arg2 v2
  let c0_i32 : BitVec 32 := 0#32
  let c0_i32_1 : BitVec 32 := 0#32
  ![arg0.toNat, v3.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c2_i32 : BitVec 32 := 2#32
  let v1 : BitVec 32 := Scalar.muli v0 c2_i32
  let c1_i32_0 : BitVec 32 := 1#32
  let v2 : BitVec 32 := Scalar.subi v1 c1_i32_0
  let v3 : BitVec 32 := Scalar.minsi arg2 v2
  let c0_i32 : BitVec 32 := 0#32
  let c0_i32_1 : BitVec 32 := 0#32
  ![arg0.toNat, v3.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x4096x1024_S16384x1024 : S4x4096x1024.ShapeCasts S16384x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S16384x1024_S4x4096x1024 : S16384x1024.ShapeCasts S4x4096x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S512x1024_S1024x1024_S512x1024_1_0_0_1_n_n_wf : DotDims.WF S512x1024 S1024x1024 S512x1024 [1] [0] [0] [1] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .bf16 = 32 ∨ (Rect.block (s := S16384x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .bf16 = 32 ∨ (Rect.block (s := S16384x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .bf16 = 32 ∨ (Rect.block (s := S16384x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x1024.size a
  hwx1_0 : ∀ i : grid1.Coords, EltTy.bits .bf16 = 32 ∨ (Rect.block (s := S4x4096x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x4096x1024.size a
  hwx1_1 : ∀ i : grid1.Coords, EltTy.bits .bf16 = 32 ∨ (Rect.block (s := S4x4096x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x4096x1024.size a
  hwx1_2 : ∀ i : grid1.Coords, EltTy.bits .bf16 = 32 ∨ (Rect.block (s := S4x4096x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x4096x1024.size a
  hwx1_3 : ∀ i : grid1.Coords, EltTy.bits .f32 = 32 ∨ (Rect.block (s := S4x4096x1024) S1x1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x4096x4096 : Shape := ⟨3, ![4, 4096, 4096]⟩
abbrev S_ : Shape := ⟨0, ![]⟩
abbrev S4096x4096 : Shape := ⟨2, ![4096, 4096]⟩
abbrev S1x4096x4096 : Shape := ⟨3, ![1, 4096, 4096]⟩
abbrev S4x4096 : Shape := ⟨2, ![4, 4096]⟩
abbrev S4x4096x1 : Shape := ⟨3, ![4, 4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S4x4096x4096, .f32⟩
  | .hbm, ⟨8, _⟩ => ⟨S_, .i1⟩
  | .hbm, ⟨9, _⟩ => ⟨S4096x4096, .i1⟩
  | .hbm, ⟨10, _⟩ => ⟨S4096x4096, .i32⟩
  | .hbm, ⟨11, _⟩ => ⟨S_, .i32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .i1⟩
  | .hbm, ⟨17, _⟩ => ⟨S4096x4096, .i1⟩
  | .hbm, ⟨18, _⟩ => ⟨S4096x4096, .i1⟩
  | .hbm, ⟨19, _⟩ => ⟨S1x4096x4096, .i1⟩
  | .hbm, ⟨20, _⟩ => ⟨S_, .f32⟩
  | .hbm, ⟨21, _⟩ => ⟨S_, .f32⟩
  | .hbm, ⟨22, _⟩ => ⟨S4x4096x4096, .i1⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S_, .f32⟩
  | .hbm, ⟨27, _⟩ => ⟨S4x4096x4096, .f32⟩
  | .hbm, ⟨28, _⟩ => ⟨S4x4096x4096, .f32⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S4x4096, .f32⟩
  | .hbm, ⟨34, _⟩ => ⟨S4x4096x1, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S4x4096x4096, .f32⟩
  | .hbm, ⟨42, _⟩ => ⟨S4x4096x4096, .f32⟩
  | .hbm, ⟨43, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x1024_S4x4096x1024_2_0_01_1_n_n_wf : DotDims.WF S4x4096x1024 S1024x1024 S4x4096x1024 [2] [0] [0, 1] [1] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.K.Region0.lean ====
/-
  The first pipelined region of the kernel program: the fused projection.

  The grid has 32 points; point `t` works on rows `512 t … 512 t + 511` of the flattened input `x`
  (16384 rows of 1024 features). Seven windows: window 0 is the 512 × 1024 row block of `x` at the point,
  windows 1, 2, 3 are the three 1024 × 1024 weight matrices (the same block at every point), and windows
  4, 5, 6 are the 512 × 1024 row blocks of the three results `q`, `k`, `v`, written back at every point.

  At a point the body reads the row block `X` and the three weights and leaves, in each result block, one
  whole-block write: `(round X · W_q) · (1/32)` rounded, `round X · W_k` rounded, `round X · W_v`
  rounded (the roundings are to the 16-bit format; the products accumulate from zero). So what a result
  block holds after the body is a closed function of the row block and of ONE weight matrix, and an input
  block is left as it was found.

  Everything is stated at a parameter `V`: the contents of every buffer when the region is entered, and is
  generic in the number format `F`.
-/
import proofs.«105703_j60739427500253_2_alg».proof.Proof.Gen.Kernel.Launch
import proofs.«105703_j60739427500253_2_alg».proof.Proof.Gen.Kernel.Skeleton
import proofs.«105703_j60739427500253_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the contents of every buffer when the region is entered
variable (V : (c : Dev nD) → (b : Ref sig .tc) → Buf (Elt F) ((c : Thread nD τ).loc b))

/-! ## The windows' blocks -/

/-- Window `w`'s block at point `t`, read off its array as the region finds it: for window 0 the rows
    `512 t … 512 t + 511` of `x`, for windows 1, 2, 3 the whole weight matrix, for windows 4, 5, 6 the same
    rows of a result array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of `x` is in its window's current buffer at every point, for any proof data whose array is the
    entry contents and whose body leaves the block in place: a point that does not fetch has the block index of
    the point before it, whose block is then this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The first weight matrix is in its window's buffer at every point: it is fetched at the first point only, its
    block index never moves, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same of the second weight matrix. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The same of the third weight matrix. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 × 1024 block: the one rectangle through which the row block is read and each result block is
    read and written. -/
abbrev rX : Rect S512x1024 := Rect.unit (s := S512x1024) ![0, 0] S512x1024.size inb_S512x1024_S512x1024_0_0
/-- The whole 1024 × 1024 block: the rectangle through which each weight matrix is read. -/
abbrev rW : Rect S1024x1024 := Rect.unit (s := S1024x1024) ![0, 0] S1024x1024.size inb_S1024x1024_S1024x1024_0_0

/-! ## What the body leaves in each result window's buffer -/

/-- The `q` block after the body, from the row block `x0` and the first weight matrix `w`: its one whole-block
    write, whose payload is the scaled projection. -/
def out0_4 (x0 : Vec F S512x1024 .f32) (w : Vec F S1024x1024 .bf16) : Vec F S512x1024 .bf16 :=
  View.canon [⟨rX, k0_pay2 (View.ld x0 rX) (View.ld w rW)⟩]
/-- The `k` block after the body, from the row block and the second weight matrix. -/
def out0_5 (x0 : Vec F S512x1024 .f32) (w : Vec F S1024x1024 .bf16) : Vec F S512x1024 .bf16 :=
  View.canon [⟨rX, k0_pay3 (View.ld x0 rX) (View.ld w rW)⟩]
/-- The `v` block after the body, from the row block and the third weight matrix. -/
def out0_6 (x0 : Vec F S512x1024 .f32) (w : Vec F S1024x1024 .bf16) : Vec F S512x1024 .bf16 :=
  View.canon [⟨rX, k0_pay4 (View.ld x0 rX) (View.ld w rW)⟩]

/-- One write through the whole-block rectangle tiles a 512 × 1024 buffer, so it covers it. -/
theorem cover0 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 1000000 in
/-- The body on whole buffers — the four inputs' reading `x0`, `w1`, `w2`, `w3`, the three results' holding
    anything — runs to the continuation with the inputs' as they were and each result's holding its block
    `out0_4 x0 w1`, `out0_5 x0 w2`, `out0_6 x0 w3`. The body reads each result buffer once before writing it;
    the value read is not used, and the one whole-block write that follows covers the buffer, so what was there
    before does not show. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S512x1024 .bf16) (harg5 : arg5.IsWhole) (arg6 : Memref sig .tc .vmem S512x1024 .bf16) (harg6 : arg6.IsWhole)
    (arg7 : Memref sig .tc .vmem S512x1024 .bf16) (harg7 : arg7.IsWhole)
    (x0 : Vec F S512x1024 .f32) (w1 w2 w3 : Vec F S1024x1024 .bf16) (K : PUnit → sProp 𝕄) :
    iprop(owns (c : Thread nD τ) arg1 fullShare x0 ∗ owns (c : Thread nD τ) arg2 fullShare w1 ∗ owns (c : Thread nD τ) arg3 fullShare w2 ∗ owns (c : Thread nD τ) arg4 fullShare w3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare w1 ∗ owns (c : Thread nD τ) arg3 fullShare w2 ∗ owns (c : Thread nD τ) arg4 fullShare w3
            ∗ owns (c : Thread nD τ) arg5 fullShare (out0_4 x0 w1) ∗ owns (c : Thread nD τ) arg6 fullShare (out0_5 x0 w2) ∗ owns (c : Thread nD τ) arg7 fullShare (out0_6 x0 w3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The pipeline's proof data -/

/-- The proof data of the projection pipeline on core `c`: the arrays as the region finds them; after the body
    at point `t` each input's buffer holds its block and each result's holds its block as a function of the row
    block and of its own weight matrix; the invariant is the untouched rest of the core's memory; nothing is
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies at those blocks;
    the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline, at every point of the grid. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Flash.lean ====
/-
  The attention region's kernel — one query tile of 1024 rows against one key/value tile of 512 rows per grid
  point (batch, query tile, key tile) — seen from the pipeline: the three conditions its body branches on, as
  propositions over the grid coordinates; the staging and scratch memrefs it is called with; each input window's
  block at a point; and where the output window is idle.

  The body does three things, each under one condition: at the first key tile it resets the running maximum,
  the running denominator and the accumulator (`atFirstKey`); at a key tile that is not wholly after the query
  tile it folds that tile into the three (`keyLive`); at the last key tile it divides the accumulator by the
  denominator into the output block (`atLastKey`).
-/
import proofs.«105703_j60739427500253_2_alg».proof.Proof.Gen.Kernel.Launch
import proofs.«105703_j60739427500253_2_alg».proof.Proof.Gen.Kernel.Skeleton
import proofs.«105703_j60739427500253_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions -/

/-- The key-tile coordinate is 0: the running statistics are reset. -/
abbrev atFirstKey (i : grid1.Coords) : Prop :=
  (Scalar.cmpi .ne (Scalar.extui (Scalar.cmpi .eq (BitVec.ofNat 32 (i 2).val) 0#32)) 0#32) = 1#1

/-- The key tile starts no later than the query tile ends (key-tile coordinate ≤ 2·(query-tile coordinate + 1) − 1):
    the tile is folded into the running statistics. -/
abbrev keyLive (i : grid1.Coords) : Prop :=
  (Scalar.cmpi .ne (Scalar.extui (Scalar.cmpi .sle (BitVec.ofNat 32 (i 2).val)
    (Scalar.subi (Scalar.muli (Scalar.addi (BitVec.ofNat 32 (i 1).val) 1#32) 2#32) 1#32))) 0#32) = 1#1

/-- The key-tile coordinate is 7, the last: the output block is written. -/
abbrev atLastKey (i : grid1.Coords) : Prop := k1_cond3 i = 1#1

/-- The first key tile is always folded in and is never the last. -/
theorem first_live_notLast : ∀ t : Fin cfg1.N, atFirstKey (grid1.coords t) → keyLive (grid1.coords t) ∧ ¬atLastKey (grid1.coords t) :=
  (by decide +kernel : ∀ t : Fin grid1.N, atFirstKey (grid1.coords t) → keyLive (grid1.coords t) ∧ ¬atLastKey (grid1.coords t))

/-- The first point of the grid is at the first key tile. -/
theorem first_at_zero : ∀ t : Fin cfg1.N, t.val = 0 → atFirstKey (grid1.coords t) :=
  (by decide +kernel : ∀ t : Fin grid1.N, t.val = 0 → atFirstKey (grid1.coords t))

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last key tile the output window is idle and is not written back. -/
theorem idle1_3 : ∀ t : Fin cfg1.N, ¬atLastKey (grid1.coords t) → cfg1.idle 3 (grid1.coords t) = true := by decide +kernel
theorem noFlush1_3 : ∀ t : Fin cfg1.N, ¬atLastKey (grid1.coords t) → (cfg1.win 3).flush t = false := by decide +kernel
/-- At the last key tile it is live (and written back). -/
theorem live1_3 : ∀ t : Fin cfg1.N, atLastKey (grid1.coords t) → cfg1.idle 3 (grid1.coords t) = false := by decide +kernel

/-! ## The memrefs the body is called with -/

abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The running maximum, the running denominator and the accumulator: whole scoped buffers of the kernel's own. -/
abbrev scM : Memref sig .tc .vmem S1024x1 .f32 := Memref.whole cc1_scratch0
abbrev scL : Memref sig .tc .vmem S1024x1 .f32 := Memref.whole cc1_scratch1
abbrev scA : Memref sig .tc .vmem S1024x1024 .f32 := Memref.whole cc1_scratch2
/-- One staging buffer of the output window, through which its contents are stated. -/
abbrev VO3 : View sig .tc .vmem S1x1024x1024 .f32 := (Memref.whole cc1_stg3_0 : Memref sig .tc .vmem S1x1024x1024 .f32).view

/-- The region's invariant as the pipeline library states it for a kernel that keeps nothing — every scoped buffer no
    window stages at some contents, the generator register at some state — with the three scratch buffers taken out as
    owned memrefs. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

/-! ## The windows' blocks, at the contents `V` the region is entered with -/

section Blocks
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or
    the block index did not move since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.Kernel.Hand

end
-- ==== Proof.K.FlashRunFirst.lean ====
/-
  The attention kernel's body at the first key tile of a query tile: the three scratch buffers are reset (running
  maximum to minus infinity, running denominator and accumulator to zero) whatever they held, and the first key tile
  is folded into them; the output block is not touched.
-/
import proofs.«105703_j60739427500253_2_alg».proof.Proof.K.Flash

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each scratch buffer ends with at such a point (last store first), together with the body's triple that ends in them: the scratch buffers may hold anything on entry. -/
noncomputable def flashRun_first (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (hc1 : atFirstKey i) (hc2 : keyLive i) (hc3 : ¬atLastKey i)
    (x0 : Vec F S1x1024x1024 .bf16) (x1 x2 : Vec F S1x512x1024 .bf16) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.FlashRunFold.lean ====
/-
  The attention kernel's body at a grid point that is not at the first key tile, whose key tile is folded in, and that
  is not at the last key tile: the three scratch buffers are read at what the point before left and each is stored
  once, whole; the output block is not touched.
-/
import proofs.«105703_j60739427500253_2_alg».proof.Proof.K.Flash

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each scratch buffer ends with at such a point (last store first), together with the body's triple that ends in them: on whole memrefs, the three inputs at their contents, the output block at contents handed back
    untouched, the scratch buffers at the carried contents. -/
noncomputable def flashRun_fold (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (hc1 : ¬atFirstKey i) (hc2 : keyLive i) (hc3 : ¬atLastKey i)
    (x0 : Vec F S1x1024x1024 .bf16) (x1 x2 : Vec F S1x512x1024 .bf16) (xs0 xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.FlashRunSkip.lean ====
/-
  The attention kernel's body at a grid point whose key tile lies wholly after the query tile, away from the last key
  tile: it loads and stores nothing, and hands every buffer back as it found it.
-/
import proofs.«105703_j60739427500253_2_alg».proof.Proof.K.Flash

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At such a point the body runs to the continuation holding every buffer at the contents it was given. -/
theorem flashRun_skip (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (hc1 : ¬atFirstKey i) (hc2 : ¬keyLive i) (hc3 : ¬atLastKey i)
    (x0 : Vec F S1x1024x1024 .bf16) (x1 x2 : Vec F S1x512x1024 .bf16) (xs0 xs1 : Vec F S1024x1 .f32) (xs2 : Vec F S1024x1024 .f32) :
    ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__flash_kernel i arg3 harg3 arg4 harg4 arg5 harg5 arg6 harg6 arg7 harg7 arg8 harg8 arg9 harg9) K := by
    intro xi3 E K
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3
    obtain rfl := harg7.eq_unread hfs0; obtain rfl := harg8.eq_unread hfs1; obtain rfl := harg9.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.K.FlashRunFoldLast.lean ====
/-
  The attention kernel's body at the last key tile when that tile is folded in (the last query tile): the scratch
  buffers are updated from the carried contents, and then the accumulator divided by the denominator is stored, whole,
  into the output block.
-/
import proofs.«105703_j60739427500253_2_alg».proof.Proof.K.Flash

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the output block and each scratch buffer end with at such a point (last store first), together with the body's triple that ends in them. -/
noncomputable def flashRun_foldLast (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (hc1 : ¬atFirstKey i) (hc2 : keyLive i) (hc3 : atLastKey i)
    (x0 : Vec F S1x1024x1024 .bf16) (x1 x2 : Vec F S1x512x1024 .bf16) (xs0 xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.FlashRunLast.lean ====
/-
  The attention kernel's body at the last key tile when that tile lies wholly after the query tile: the scratch
  buffers are only read, and the accumulator divided by the denominator is stored, whole, into the output block.
-/
import proofs.«105703_j60739427500253_2_alg».proof.Proof.K.Flash

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the output block ends with at such a point, together with the body's triple that ends in them; the scratch
    buffers are handed back at the carried contents. -/
noncomputable def flashRun_last (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (hc1 : ¬atFirstKey i) (hc2 : ¬keyLive i) (hc3 : atLastKey i)
    (x0 : Vec F S1x1024x1024 .bf16) (x1 x2 : Vec F S1x512x1024 .bf16) (xs0 xs1 : Vec F S1024x1 .f32) (xs2 : Vec F S1024x1024 .f32) :
    { L3 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.K.FlashCover.lean ====
/-
  The attention kernel's stores, case by case, fill the buffers they go into: every store is of a whole buffer, so each list of pieces covers its buffer, and the buffer then reads as those pieces written over anything.
-/
import proofs.«105703_j60739427500253_2_alg».proof.Proof.K.FlashRunFirst
import proofs.«105703_j60739427500253_2_alg».proof.Proof.K.FlashRunFold
import proofs.«105703_j60739427500253_2_alg».proof.Proof.K.FlashRunSkip
import proofs.«105703_j60739427500253_2_alg».proof.Proof.K.FlashRunFoldLast
import proofs.«105703_j60739427500253_2_alg».proof.Proof.K.FlashRunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cover_first_M (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : atFirstKey i) (hc2 : keyLive i) (hc3 : ¬atLastKey i) (x0 : Vec F S1x1024x1024 .bf16) (x1 x2 : Vec F S1x512x1024 .bf16) (y : S1024x1.Idx) :
    ∃ pc ∈ (flashRun_first c i arg3 harg3 arg4 harg4 arg5 harg5 arg6 harg6 arg7 harg7 arg8 harg8 arg9 harg9 hc1 hc2 hc3 x0 x1 x2).1, y ∈ pc.1.set :=
  View.cover_of_tiledL (flashRun_first c i arg3 harg3 arg4 harg4 arg5 harg5 arg6 harg6 arg7 harg7 arg8 harg8 arg9 harg9 hc1 hc2 hc3 x0 x1 x2).1 S1024x1.size (by sl_kernel_rfl) y

theorem cover_first_L (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : atFirstKey i) (hc2 : keyLive i) (hc3 : ¬atLastKey i) (x0 : Vec F S1x1024x1024 .bf16) (x1 x2 : Vec F S1x512x1024 .bf16) (y : S1024x1.Idx) :
    ∃ pc ∈ (flashRun_first c i arg3 harg3 arg4 harg4 arg5 harg5 arg6 harg6 arg7 harg7 arg8 harg8 arg9 harg9 hc1 hc2 hc3 x0 x1 x2).2.1, y ∈ pc.1.set :=
  View.cover_of_tiledL (flashRun_first c i arg3 harg3 arg4 harg4 arg5 harg5 arg6 harg6 arg7 harg7 arg8 harg8 arg9 harg9 hc1 hc2 hc3 x0 x1 x2).2.1 S1024x1.size (by sl_kernel_rfl) y

theorem cover_first_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : atFirstKey i) (hc2 : keyLive i) (hc3 : ¬atLastKey i) (x0 : Vec F S1x1024x1024 .bf16) (x1 x2 : Vec F S1x512x1024 .bf16) (y : S1024x1024.Idx) :
    ∃ pc ∈ (flashRun_first c i arg3 harg3 arg4 harg4 arg5 harg5 arg6 harg6 arg7 harg7 arg8 harg8 arg9 harg9 hc1 hc2 hc3 x0 x1 x2).2.2.1, y ∈ pc.1.set :=
  View.cover_of_tiledL (flashRun_first c i arg3 harg3 arg4 harg4 arg5 harg5 arg6 harg6 arg7 harg7 arg8 harg8 arg9 harg9 hc1 hc2 hc3 x0 x1 x2).2.2.1 S1024x1024.size (by sl_kernel_rfl) y

theorem cover_fold_M (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬atFirstKey i) (hc2 : keyLive i) (hc3 : ¬atLastKey i) (x0 : Vec F S1x1024x1024 .bf16) (x1 x2 : Vec F S1x512x1024 .bf16) (xs0 xs1 : Vec F S1024x1 .f32) (xs2 : Vec F S1024x1024 .f32) (y : S1024x1.Idx) :
    ∃ pc ∈ (flashRun_fold c i arg3 harg3 arg4 harg4 arg5 harg5 arg6 harg6 arg7 harg7 arg8 harg8 arg9 harg9 hc1 hc2 hc3 x0 x1 x2 xs0 xs1 xs2).1, y ∈ pc.1.set :=
  View.cover_of_tiledL (flashRun_fold c i arg3 harg3 arg4 harg4 arg5 harg5 arg6 harg6 arg7 harg7 arg8 harg8 arg9 harg9 hc1 hc2 hc3 x0 x1 x2 xs0 xs1 xs2).1 S1024x1.size (by sl_kernel_rfl) y

theorem cover_fold_L (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬atFirstKey i) (hc2 : keyLive i) (hc3 : ¬atLastKey i) (x0 : Vec F S1x1024x1024 .bf16) (x1 x2 : Vec F S1x512x1024 .bf16) (xs0 xs1 : Vec F S1024x1 .f32) (xs2 : Vec F S1024x1024 .f32) (y : S1024x1.Idx) :
    ∃ pc ∈ (flashRun_fold c i arg3 harg3 arg4 harg4 arg5 harg5 arg6 harg6 arg7 harg7 arg8 harg8 arg9 harg9 hc1 hc2 hc3 x0 x1 x2 xs0 xs1 xs2).2.1, y ∈ pc.1.set :=
  View.cover_of_tiledL (flashRun_fold c i arg3 harg3 arg4 harg4 arg5 harg5 arg6 harg6 arg7 harg7 arg8 harg8 arg9 harg9 hc1 hc2 hc3 x0 x1 x2 xs0 xs1 xs2).2.1 S1024x1.size (by sl_kernel_rfl) y

theorem cover_fold_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬atFirstKey i) (hc2 : keyLive i) (hc3 : ¬atLastKey i) (x0 : Vec F S1x1024x1024 .bf16) (x1 x2 : Vec F S1x512x1024 .bf16) (xs0 xs1 : Vec F S1024x1 .f32) (xs2 : Vec F S1024x1024 .f32) (y : S1024x1024.Idx) :
    ∃ pc ∈ (flashRun_fold c i arg3 harg3 arg4 harg4 arg5 harg5 arg6 harg6 arg7 harg7 arg8 harg8 arg9 harg9 hc1 hc2 hc3 x0 x1 x2 xs0 xs1 xs2).2.2.1, y ∈ pc.1.set :=
  View.cover_of_tiledL (flashRun_fold c i arg3 harg3 arg4 harg4 arg5 harg5 arg6 harg6 arg7 harg7 arg8 harg8 arg9 harg9 hc1 hc2 hc3 x0 x1 x2 xs0 xs1 xs2).2.2.1 S1024x1024.size (by sl_kernel_rfl) y

theorem cover_foldLast_O (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬atFirstKey i) (hc2 : keyLive i) (hc3 : atLastKey i) (x0 : Vec F S1x1024x1024 .bf16) (x1 x2 : Vec F S1x512x1024 .bf16) (xs0 xs1 : Vec F S1024x1 .f32) (xs2 : Vec F S1024x1024 .f32) (y : S1x1024x1024.Idx) :
    ∃ pc ∈ (flashRun_foldLast c i arg3 harg3 arg4 harg4 arg5 harg5 arg6 harg6 arg7 harg7 arg8 harg8 arg9 harg9 hc1 hc2 hc3 x0 x1 x2 xs0 xs1 xs2).1, y ∈ pc.1.set :=
  View.cover_of_tiledL (flashRun_foldLast c i arg3 harg3 arg4 harg4 arg5 harg5 arg6 harg6 arg7 harg7 arg8 harg8 arg9 harg9 hc1 hc2 hc3 x0 x1 x2 xs0 xs1 xs2).1 S1x1024x1024.size (by sl_kernel_rfl) y

theorem cover_foldLast_M (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬atFirstKey i) (hc2 : keyLive i) (hc3 : atLastKey i) (x0 : Vec F S1x1024x1024 .bf16) (x1 x2 : Vec F S1x512x1024 .bf16) (xs0 xs1 : Vec F S1024x1 .f32) (xs2 : Vec F S1024x1024 .f32) (y : S1024x1.Idx) :
    ∃ pc ∈ (flashRun_foldLast c i arg3 harg3 arg4 harg4 arg5 harg5 arg6 harg6 arg7 harg7 arg8 harg8 arg9 harg9 hc1 hc2 hc3 x0 x1 x2 xs0 xs1 xs2).2.1, y ∈ pc.1.set :=
  View.cover_of_tiledL (flashRun_foldLast c i arg3 harg3 arg4 harg4 arg5 harg5 arg6 harg6 arg7 harg7 arg8 harg8 arg9 harg9 hc1 hc2 hc3 x0 x1 x2 xs0 xs1 xs2).2.1 S1024x1.size (by sl_kernel_rfl) y

theorem cover_foldLast_L (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬atFirstKey i) (hc2 : keyLive i) (hc3 : atLastKey i) (x0 : Vec F S1x1024x1024 .bf16) (x1 x2 : Vec F S1x512x1024 .bf16) (xs0 xs1 : Vec F S1024x1 .f32) (xs2 : Vec F S1024x1024 .f32) (y : S1024x1.Idx) :
    ∃ pc ∈ (flashRun_foldLast c i arg3 harg3 arg4 harg4 arg5 harg5 arg6 harg6 arg7 harg7 arg8 harg8 arg9 harg9 hc1 hc2 hc3 x0 x1 x2 xs0 xs1 xs2).2.2.1, y ∈ pc.1.set :=
  View.cover_of_tiledL (flashRun_foldLast c i arg3 harg3 arg4 harg4 arg5 harg5 arg6 harg6 arg7 harg7 arg8 harg8 arg9 harg9 hc1 hc2 hc3 x0 x1 x2 xs0 xs1 xs2).2.2.1 S1024x1.size (by sl_kernel_rfl) y

theorem cover_foldLast_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬atFirstKey i) (hc2 : keyLive i) (hc3 : atLastKey i) (x0 : Vec F S1x1024x1024 .bf16) (x1 x2 : Vec F S1x512x1024 .bf16) (xs0 xs1 : Vec F S1024x1 .f32) (xs2 : Vec F S1024x1024 .f32) (y : S1024x1024.Idx) :
    ∃ pc ∈ (flashRun_foldLast c i arg3 harg3 arg4 harg4 arg5 harg5 arg6 harg6 arg7 harg7 arg8 harg8 arg9 harg9 hc1 hc2 hc3 x0 x1 x2 xs0 xs1 xs2).2.2.2.1, y ∈ pc.1.set :=
  View.cover_of_tiledL (flashRun_foldLast c i arg3 harg3 arg4 harg4 arg5 harg5 arg6 harg6 arg7 harg7 arg8 harg8 arg9 harg9 hc1 hc2 hc3 x0 x1 x2 xs0 xs1 xs2).2.2.2.1 S1024x1024.size (by sl_kernel_rfl) y

theorem cover_last_O (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬atFirstKey i) (hc2 : ¬keyLive i) (hc3 : atLastKey i) (x0 : Vec F S1x1024x1024 .bf16) (x1 x2 : Vec F S1x512x1024 .bf16) (xs0 xs1 : Vec F S1024x1 .f32) (xs2 : Vec F S1024x1024 .f32) (y : S1x1024x1024.Idx) :
    ∃ pc ∈ (flashRun_last c i arg3 harg3 arg4 harg4 arg5 harg5 arg6 harg6 arg7 harg7 arg8 harg8 arg9 harg9 hc1 hc2 hc3 x0 x1 x2 xs0 xs1 xs2).1, y ∈ pc.1.set :=
  View.cover_of_tiledL (flashRun_last c i arg3 harg3 arg4 harg4 arg5 harg5 arg6 harg6 arg7 harg7 arg8 harg8 arg9 harg9 hc1 hc2 hc3 x0 x1 x2 xs0 xs1 xs2).1 S1x1024x1024.size (by sl_kernel_rfl) y

end Cert.Kernel.Hand

end
-- ==== Proof.K.FlashDat.lean ====
/-
  What the attention region's pipeline is told about its kernel: after every grid point, what the three scratch
  buffers hold (the running maximum, the running denominator, the accumulator) and, at the last key tile, what the
  output block holds — by recursion over the points, each point's contents the pieces its run stored read back, over
  what the point before left —; the invariant that carries the scratch buffers at those contents from one point to the
  next; and the body's obligation at every point, by cases on the body's three conditions.
-/
import proofs.«105703_j60739427500253_2_alg».proof.Proof.K.FlashCover

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scoped buffers the kernel does not use, and the generator register -/

/-- A buffer held whole at some contents. -/
abbrev exB (c : Dev nD) (b : Ref sig .tc) : sProp 𝕄 :=
  iprop(∃ f : Buf (Elt F) ((c : Thread nD τ).loc b), ((c : Thread nD τ).loc b) ↦{fullShare} f)

/-- The other region's eleven staging buffers, each at some contents, and the generator register at some state: what
    rides through the kernel's body untouched. -/
def rest11 (c : Dev nD) : sProp 𝕄 :=
  iprop((exB (F := F) c cc0_stg0_0 ∗ exB (F := F) c cc0_stg0_1 ∗ exB (F := F) c cc0_stg1_0 ∗ exB (F := F) c cc0_stg2_0 ∗ exB (F := F) c cc0_stg3_0 ∗ exB (F := F) c cc0_stg4_0 ∗ exB (F := F) c cc0_stg4_1 ∗ exB (F := F) c cc0_stg5_0 ∗ exB (F := F) c cc0_stg5_1 ∗ exB (F := F) c cc0_stg6_0 ∗ exB (F := F) c cc0_stg6_1) ∗ ∃ r, prngReg c r)

/-- The library's invariant for a kernel that keeps nothing, opened into that rest and the three scratch buffers. -/
theorem phiA_open (c : Dev nD) :
    (Pipeline.ΦA spec1 c : sProp 𝕄) ⊢ iprop(rest11 (F := F) c ∗ (∃ d, owns (c : Thread nD τ) scM fullShare d) ∗ (∃ d, owns (c : Thread nD τ) scL fullShare d) ∗ (∃ d, owns (c : Thread nD τ) scA fullShare d)) := by
  rw [PhiA1_eq]; unfold rest11
  iintro ⟨⟨R1, R2, R3, R4, R5, R6, R7, R8, R9, R10, R11, HS0, HS1, HS2⟩, Hg⟩
  isplitl [R1 R2 R3 R4 R5 R6 R7 R8 R9 R10 R11 Hg]
  · isplitl [R1 R2 R3 R4 R5 R6 R7 R8 R9 R10 R11]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      iexact R11
    iexact Hg
  isplitl [HS0]; · iexact HS0
  isplitl [HS1]; · iexact HS1
  iexact HS2

/-- And closed again. -/
theorem phiA_close (c : Dev nD) :
    iprop(rest11 (F := F) c ∗ (∃ d, owns (c : Thread nD τ) scM fullShare d) ∗ (∃ d, owns (c : Thread nD τ) scL fullShare d) ∗ (∃ d, owns (c : Thread nD τ) scA fullShare d)) ⊢ (Pipeline.ΦA spec1 c : sProp 𝕄) := by
  rw [PhiA1_eq]; unfold rest11
  iintro ⟨⟨⟨R1, R2, R3, R4, R5, R6, R7, R8, R9, R10, R11⟩, Hg⟩, HS0, HS1, HS2⟩
  isplitl [R1 R2 R3 R4 R5 R6 R7 R8 R9 R10 R11 HS0 HS1 HS2]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [HS0]; · iexact HS0
    isplitl [HS1]; · iexact HS1
    iexact HS2
  iexact Hg

section Data
variable (V : (c : Dev nD) → (b : Ref sig .tc) → Buf (Elt F) ((c : Thread nD τ).loc b))

/-! ## What each kind of point leaves -/

/-- The running maximum, the running denominator and the accumulator. -/
abbrev Stats (F : FTy → Type) [FloatOps F] : Type := Vec F S1024x1 .f32 × Vec F S1024x1 .f32 × Vec F S1024x1024 .f32

/-- At the first key tile: the reset statistics with the first tile folded in, whatever was held before. -/
def statsFirst (c : Dev nD) (t : Fin cfg1.N) (h1 : atFirstKey (grid1.coords t)) : Stats F :=
  (scM.view.read (Elt F) (scM.view.writes (Elt F) scM.view.junk (flashRun_first c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 (first_live_notLast t h1).1 (first_live_notLast t h1).2 (iblk1 V c 0 t) (iblk1 V c 1 t) (iblk1 V c 2 t)).1),
   scL.view.read (Elt F) (scL.view.writes (Elt F) scL.view.junk (flashRun_first c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 (first_live_notLast t h1).1 (first_live_notLast t h1).2 (iblk1 V c 0 t) (iblk1 V c 1 t) (iblk1 V c 2 t)).2.1),
   scA.view.read (Elt F) (scA.view.writes (Elt F) scA.view.junk (flashRun_first c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 (first_live_notLast t h1).1 (first_live_notLast t h1).2 (iblk1 V c 0 t) (iblk1 V c 1 t) (iblk1 V c 2 t)).2.2.1))

/-- At a later key tile that is folded in, away from the last: the carried statistics `s` with the tile folded in. -/
def statsFold (c : Dev nD) (t : Fin cfg1.N) (h1 : ¬atFirstKey (grid1.coords t)) (h2 : keyLive (grid1.coords t)) (h3 : ¬atLastKey (grid1.coords t)) (s : Stats F) : Stats F :=
  (scM.view.read (Elt F) (scM.view.writes (Elt F) scM.view.junk (flashRun_fold c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) s.1 s.2.1 s.2.2).1),
   scL.view.read (Elt F) (scL.view.writes (Elt F) scL.view.junk (flashRun_fold c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) s.1 s.2.1 s.2.2).2.1),
   scA.view.read (Elt F) (scA.view.writes (Elt F) scA.view.junk (flashRun_fold c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) s.1 s.2.1 s.2.2).2.2.1))

/-- At the last key tile when it is folded in: the same, -/
def statsFoldLast (c : Dev nD) (t : Fin cfg1.N) (h1 : ¬atFirstKey (grid1.coords t)) (h2 : keyLive (grid1.coords t)) (h3 : atLastKey (grid1.coords t)) (s : Stats F) : Stats F :=
  (scM.view.read (Elt F) (scM.view.writes (Elt F) scM.view.junk (flashRun_foldLast c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) s.1 s.2.1 s.2.2).2.1),
   scL.view.read (Elt F) (scL.view.writes (Elt F) scL.view.junk (flashRun_foldLast c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) s.1 s.2.1 s.2.2).2.2.1),
   scA.view.read (Elt F) (scA.view.writes (Elt F) scA.view.junk (flashRun_foldLast c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) s.1 s.2.1 s.2.2).2.2.2.1))

/-- and the output block then written: the new accumulator over the new denominator. -/
def outFoldLast (c : Dev nD) (t : Fin cfg1.N) (h1 : ¬atFirstKey (grid1.coords t)) (h2 : keyLive (grid1.coords t)) (h3 : atLastKey (grid1.coords t)) (s : Stats F) : Vec F S1x1024x1024 .f32 :=
  VO3.read (Elt F) (VO3.writes (Elt F) VO3.junk (flashRun_foldLast c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) s.1 s.2.1 s.2.2).1)

/-- At the last key tile when it is skipped: the output block is the carried accumulator over the carried denominator. -/
def outLast (c : Dev nD) (t : Fin cfg1.N) (h1 : ¬atFirstKey (grid1.coords t)) (h2 : ¬keyLive (grid1.coords t)) (h3 : atLastKey (grid1.coords t)) (s : Stats F) : Vec F S1x1024x1024 .f32 :=
  VO3.read (Elt F) (VO3.writes (Elt F) VO3.junk (flashRun_last c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) s.1 s.2.1 s.2.2).1)

/-! ## The statistics and the output block after each point -/

/-- The statistics after the body at position `n`: reset and folded at a first key tile, folded at a live tile, kept at a
    skipped one. -/
def scAt (c : Dev nD) : (n : ℕ) → n < cfg1.N → Stats F
  | 0, hn => statsFirst V c ⟨0, hn⟩ (first_at_zero ⟨0, hn⟩ rfl)
  | n + 1, hn =>
    if h1 : atFirstKey (grid1.coords ⟨n + 1, hn⟩) then statsFirst V c ⟨n + 1, hn⟩ h1
    else if h2 : keyLive (grid1.coords ⟨n + 1, hn⟩) then
      if h3 : atLastKey (grid1.coords ⟨n + 1, hn⟩) then statsFoldLast V c ⟨n + 1, hn⟩ h1 h2 h3 (scAt c n (Nat.lt_of_succ_lt hn))
      else statsFold V c ⟨n + 1, hn⟩ h1 h2 h3 (scAt c n (Nat.lt_of_succ_lt hn))
    else scAt c n (Nat.lt_of_succ_lt hn)

/-- The output block's staging buffer after the body at position `n`: written at a last key tile; elsewhere a
    placeholder nothing consults (the window is idle there and is not written back). -/
def outAt (c : Dev nD) : (n : ℕ) → n < cfg1.N → Vec F S1x1024x1024 .f32
  | 0, _ => VO3.read (Elt F) VO3.junk
  | n + 1, hn =>
    if h1 : atFirstKey (grid1.coords ⟨n + 1, hn⟩) then VO3.read (Elt F) VO3.junk
    else if h3 : atLastKey (grid1.coords ⟨n + 1, hn⟩) then
      if h2 : keyLive (grid1.coords ⟨n + 1, hn⟩) then outFoldLast V c ⟨n + 1, hn⟩ h1 h2 h3 (scAt V c n (Nat.lt_of_succ_lt hn))
      else outLast V c ⟨n + 1, hn⟩ h1 h2 h3 (scAt V c n (Nat.lt_of_succ_lt hn))
    else VO3.read (Elt F) VO3.junk

theorem scAt_first (c : Dev nD) (t : Fin cfg1.N) (h1 : atFirstKey (grid1.coords t)) :
    scAt V c t.val t.isLt = statsFirst V c t h1 := by
  obtain ⟨n, hn⟩ := t
  cases n with
  | zero => rfl
  | succ n => exact dif_pos h1

theorem scAt_fold (c : Dev nD) (t : Fin cfg1.N) (h1 : ¬atFirstKey (grid1.coords t)) (h2 : keyLive (grid1.coords t)) (h3 : ¬atLastKey (grid1.coords t)) :
    scAt V c t.val t.isLt = statsFold V c t h1 h2 h3 (scAt V c (t.val - 1) (Nat.lt_of_le_of_lt (Nat.sub_le _ _) t.isLt)) := by
  obtain ⟨n, hn⟩ := t
  cases n with
  | zero => exact absurd (first_at_zero ⟨0, hn⟩ rfl) h1
  | succ n => exact (dif_neg h1).trans ((dif_pos h2).trans ((dif_neg h3).trans rfl))

theorem scAt_foldLast (c : Dev nD) (t : Fin cfg1.N) (h1 : ¬atFirstKey (grid1.coords t)) (h2 : keyLive (grid1.coords t)) (h3 : atLastKey (grid1.coords t)) :
    scAt V c t.val t.isLt = statsFoldLast V c t h1 h2 h3 (scAt V c (t.val - 1) (Nat.lt_of_le_of_lt (Nat.sub_le _ _) t.isLt)) := by
  obtain ⟨n, hn⟩ := t
  cases n with
  | zero => exact absurd (first_at_zero ⟨0, hn⟩ rfl) h1
  | succ n => exact (dif_neg h1).trans ((dif_pos h2).trans ((dif_pos h3).trans rfl))

theorem scAt_skip (c : Dev nD) (t : Fin cfg1.N) (h1 : ¬atFirstKey (grid1.coords t)) (h2 : ¬keyLive (grid1.coords t)) :
    scAt V c t.val t.isLt = (scAt V c (t.val - 1) (Nat.lt_of_le_of_lt (Nat.sub_le _ _) t.isLt)) := by
  obtain ⟨n, hn⟩ := t
  cases n with
  | zero => exact absurd (first_at_zero ⟨0, hn⟩ rfl) h1
  | succ n => exact (dif_neg h1).trans ((dif_neg h2).trans rfl)

theorem outAt_foldLast (c : Dev nD) (t : Fin cfg1.N) (h1 : ¬atFirstKey (grid1.coords t)) (h2 : keyLive (grid1.coords t)) (h3 : atLastKey (grid1.coords t)) :
    outAt V c t.val t.isLt = outFoldLast V c t h1 h2 h3 (scAt V c (t.val - 1) (Nat.lt_of_le_of_lt (Nat.sub_le _ _) t.isLt)) := by
  obtain ⟨n, hn⟩ := t
  cases n with
  | zero => exact absurd (first_at_zero ⟨0, hn⟩ rfl) h1
  | succ n => exact (dif_neg h1).trans ((dif_pos h3).trans ((dif_pos h2).trans rfl))

theorem outAt_last (c : Dev nD) (t : Fin cfg1.N) (h1 : ¬atFirstKey (grid1.coords t)) (h2 : ¬keyLive (grid1.coords t)) (h3 : atLastKey (grid1.coords t)) :
    outAt V c t.val t.isLt = outLast V c t h1 h2 h3 (scAt V c (t.val - 1) (Nat.lt_of_le_of_lt (Nat.sub_le _ _) t.isLt)) := by
  obtain ⟨n, hn⟩ := t
  cases n with
  | zero => exact absurd (first_at_zero ⟨0, hn⟩ rfl) h1
  | succ n => exact (dif_neg h1).trans ((dif_pos h3).trans ((dif_neg h2).trans rfl))

/-! ## The invariant -/

/-- Before position `n`: before the first point, every scoped buffer the windows do not stage at some contents; afterwards
    the three scratch buffers at what the point before left, the rest at some contents. -/
def PhiS (c : Dev nD) : (n : ℕ) → n ≤ cfg1.N → sProp 𝕄
  | 0, _ => Pipeline.ΦA spec1 c
  | n + 1, hn => iprop(rest11 (F := F) c ∗ owns (c : Thread nD τ) scM fullShare (scAt V c n hn).1 ∗ owns (c : Thread nD τ) scL fullShare (scAt V c n hn).2.1 ∗ owns (c : Thread nD τ) scA fullShare (scAt V c n hn).2.2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest11 (F := F) c ∗ owns (c : Thread nD τ) scM fullShare (scAt V c n hn).1 ∗ owns (c : Thread nD τ) scL fullShare (scAt V c n hn).2.1 ∗ owns (c : Thread nD τ) scA fullShare (scAt V c n hn).2.2) := rfl

theorem PhiS_pos (c : Dev nD) (n : ℕ) (h : n ≤ cfg1.N) (hz : n ≠ 0) :
    PhiS V c n h = iprop(rest11 (F := F) c ∗ owns (c : Thread nD τ) scM fullShare (scAt V c (n - 1) (by omega)).1 ∗ owns (c : Thread nD τ) scL fullShare (scAt V c (n - 1) (by omega)).2.1 ∗ owns (c : Thread nD τ) scA fullShare (scAt V c (n - 1) (by omega)).2.2) := by
  cases n with
  | zero => exact absurd rfl hz
  | succ n => rfl

/-! ## The pipeline's proof data -/

/-- The arrays as the region finds them; after the body at a point each input's buffer at its block and the output's at
    `outAt`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Data

end Cert.Kernel.Hand

end
-- ==== Proof.K.FlashBody.lean ====
/-
  The attention kernel's body meets the pipeline's obligation at every grid point: the pipeline hands it the three
  input blocks, the output block's buffer and the invariant (the scratch buffers at what the point before left); by
  cases on the body's three conditions the matching run applies, and what it leaves is the invariant at the next point
  — the scratch buffers at this point's statistics — with the inputs untouched and the output block either handed back
  as found (away from the last key tile) or holding the normalised accumulator (at it).
-/
import proofs.«105703_j60739427500253_2_alg».proof.Proof.K.FlashDat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  by_cases h1 : atFirstKey (grid1.coords t)
  · have h2 := (first_live_notLast t h1).1
    have h3 := (first_live_notLast t h1).2
    rw [Dat.leavesExact_idle (dat1 V c) 3 t (idle1_3 t h3) (noFlush1_3 t h3)]
    rw [scAt_first V c t h1]
    unfold statsFirst; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (phiA_open (F := F) c) $$ HΦ
      icases HΦ' with ⟨Hr, HS0, HS1, HS2⟩
      iapply ((flashRun_first c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [Hr HS0 HS1 HS2]
      · isplitl [Hr]; · iexact Hr
        isplitl [HS0]
        · unfold owns; iexists _; isplitr
          swap; · iexact HS0
          ipureintro; exact View.read_writes_of_cover _ _ _ _ _ (cover_first_M c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t))
        isplitl [HS1]
        · unfold owns; iexists _; isplitr
          swap; · iexact HS1
          ipureintro; exact View.read_writes_of_cover _ _ _ _ _ (cover_first_L c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t))
        unfold owns; iexists _; isplitr
        swap; · iexact HS2
        ipureintro; exact View.read_writes_of_cover _ _ _ _ _ (cover_first_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t))
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨Hr, HS0, HS1, HS2⟩, Ho, ⟨%d0, H0⟩, ⟨%d1, H1⟩, ⟨%d2, H2⟩, ⟨%d3, H3⟩⟩
      iapply ((flashRun_first c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [Hr HS0 HS1 HS2]
      · isplitl [Hr]; · iexact Hr
        isplitl [HS0]
        · unfold owns; iexists _; isplitr
          swap; · iexact HS0
          ipureintro; exact View.read_writes_of_cover _ _ _ _ _ (cover_first_M c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t))
        isplitl [HS1]
        · unfold owns; iexists _; isplitr
          swap; · iexact HS1
          ipureintro; exact View.read_writes_of_cover _ _ _ _ _ (cover_first_L c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t))
        unfold owns; iexists _; isplitr
        swap; · iexact HS2
        ipureintro; exact View.read_writes_of_cover _ _ _ _ _ (cover_first_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t))
      isplitl [Ho]; · iexact Ho
      isplitl [H0]; · iexact H0
      isplitl [H1]; · iexact H1
      isplitl [H2]; · iexact H2
      iexists _; iexact H3
  · have hz : t.val ≠ 0 := fun h => h1 (first_at_zero t h)
    by_cases h2 : keyLive (grid1.coords t)
    · by_cases h3 : atLastKey (grid1.coords t)
      · rw [show (dat1 V c).leavesExact 3 t = owns (c : Thread nD τ) (ms1_3 t) fullShare ((dat1 V c).after 3 t) from by
          unfold Dat.leavesExact; rw [live1_3 t h3], after1_3]
        rw [scAt_foldLast V c t h1 h2 h3, outAt_foldLast V c t h1 h2 h3]
        unfold statsFoldLast outFoldLast; (try dsimp only)
        rw [PhiS_castSucc V c t, PhiS_pos V c _ _ hz]
        iintro ⟨⟨Hr, HS0, HS1, HS2⟩, Ho, ⟨%d0, H0⟩, ⟨%d1, H1⟩, ⟨%d2, H2⟩, ⟨%d3, H3⟩⟩
        iapply ((flashRun_foldLast c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%e0, HS0⟩, ⟨%e1, HS1⟩, ⟨%e2, HS2⟩⟩
        isplitl [Hr HS0 HS1 HS2]
        · isplitl [Hr]; · iexact Hr
          isplitl [HS0]
          · unfold owns; iexists _; isplitr
            swap; · iexact HS0
            ipureintro; exact View.read_writes_of_cover _ _ _ _ _ (cover_foldLast_M c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2)
          isplitl [HS1]
          · unfold owns; iexists _; isplitr
            swap; · iexact HS1
            ipureintro; exact View.read_writes_of_cover _ _ _ _ _ (cover_foldLast_L c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2)
          unfold owns; iexists _; isplitr
          swap; · iexact HS2
          ipureintro; exact View.read_writes_of_cover _ _ _ _ _ (cover_foldLast_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_foldLast_O c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2)
      · rw [Dat.leavesExact_idle (dat1 V c) 3 t (idle1_3 t h3) (noFlush1_3 t h3)]
        rw [scAt_fold V c t h1 h2 h3]
        unfold statsFold; (try dsimp only)
        rw [PhiS_castSucc V c t, PhiS_pos V c _ _ hz]
        iintro ⟨⟨Hr, HS0, HS1, HS2⟩, Ho, ⟨%d0, H0⟩, ⟨%d1, H1⟩, ⟨%d2, H2⟩, ⟨%d3, H3⟩⟩
        iapply ((flashRun_fold c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%e0, HS0⟩, ⟨%e1, HS1⟩, ⟨%e2, HS2⟩⟩
        isplitl [Hr HS0 HS1 HS2]
        · isplitl [Hr]; · iexact Hr
          isplitl [HS0]
          · unfold owns; iexists _; isplitr
            swap; · iexact HS0
            ipureintro; exact View.read_writes_of_cover _ _ _ _ _ (cover_fold_M c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2)
          isplitl [HS1]
          · unfold owns; iexists _; isplitr
            swap; · iexact HS1
            ipureintro; exact View.read_writes_of_cover _ _ _ _ _ (cover_fold_L c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2)
          unfold owns; iexists _; isplitr
          swap; · iexact HS2
          ipureintro; exact View.read_writes_of_cover _ _ _ _ _ (cover_fold_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2)
        isplitl [Ho]; · iexact Ho
        isplitl [H0]; · iexact H0
        isplitl [H1]; · iexact H1
        isplitl [H2]; · iexact H2
        iexists _; iexact H3
    · by_cases h3 : atLastKey (grid1.coords t)
      · rw [show (dat1 V c).leavesExact 3 t = owns (c : Thread nD τ) (ms1_3 t) fullShare ((dat1 V c).after 3 t) from by
          unfold Dat.leavesExact; rw [live1_3 t h3], after1_3]
        rw [scAt_skip V c t h1 h2, outAt_last V c t h1 h2 h3]
        unfold outLast; (try dsimp only)
        rw [PhiS_castSucc V c t, PhiS_pos V c _ _ hz]
        iintro ⟨⟨Hr, HS0, HS1, HS2⟩, Ho, ⟨%d0, H0⟩, ⟨%d1, H1⟩, ⟨%d2, H2⟩, ⟨%d3, H3⟩⟩
        iapply ((flashRun_last c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2).2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [Hr HS0 HS1 HS2]
        · isplitl [Hr]; · iexact Hr
          isplitl [HS0]; · iexact HS0
          isplitl [HS1]; · iexact HS1
          iexact HS2
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_last_O c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2)
      · rw [Dat.leavesExact_idle (dat1 V c) 3 t (idle1_3 t h3) (noFlush1_3 t h3)]
        rw [scAt_skip V c t h1 h2]
        rw [PhiS_castSucc V c t, PhiS_pos V c _ _ hz]
        iintro ⟨⟨Hr, HS0, HS1, HS2⟩, Ho, ⟨%d0, H0⟩, ⟨%d1, H1⟩, ⟨%d2, H2⟩, ⟨%d3, H3⟩⟩
        iapply ((flashRun_skip c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2) _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [Hr HS0 HS1 HS2]
        · isplitl [Hr]; · iexact Hr
          isplitl [HS0]; · iexact HS0
          isplitl [HS1]; · iexact HS1
          iexact HS2
        isplitl [Ho]; · iexact Ho
        isplitl [H0]; · iexact H0
        isplitl [H1]; · iexact H1
        isplitl [H2]; · iexact H2
        iexists _; iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back at some contents: the statistics are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  iintro ⟨Hr, HS0, HS1, HS2⟩
  iapply (phiA_close (F := F) c)
  isplitl [Hr]; · iexact Hr
  isplitl [HS0]; · iexists _; iexact HS0
  isplitl [HS1]; · iexists _; iexact HS1
  iexists _; iexact HS2

end Body

end Cert.Kernel.Hand

end
-- ==== Proof.K.Run.lean ====
/-
  The run of the kernel program from the launch to the return.

  The program is four host operations (the input flattened to 16384 rows, the three weight matrices rounded to the
  16-bit format), the projection region, three host operations (the three projections reshaped to batch × position ×
  feature) and the attention region. The contents of every buffer are followed through these four segments: at a
  host stretch each operation rewrites its result buffer; at a region each window's array ends at what the
  pipeline's write-backs leave and every other buffer as the region found it. Between segments the core holds every
  unscoped buffer whole at the contents reached so far, its generator register at some state, and owes nothing.
  The conclusion: every weakly fair execution terminates, the result array holds what the attention region's
  write-backs leave, and the four argument arrays hold their launch contents, since no host operation writes one
  and no window of either region has one as its array.
-/
import proofs.«105703_j60739427500253_2_alg».proof.Proof.K.Region0
import proofs.«105703_j60739427500253_2_alg».proof.Proof.K.FlashBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After the first four host operations: what the projection region is entered from. -/
abbrev W1 : Dev nD → Valuation τ sig (Elt F) := fun c => StableHlo.after hostOps0 (W0 m ρ c)
/-- The same, read at the core's own references. -/
abbrev V1 : (c : Dev nD) → (b : Ref sig .tc) → Buf (Elt F) ((c : Thread nD τ).loc b) := fun c b => W1 m ρ c b
/-- At the projection region's exit: each of its seven arrays at what the pipeline leaves (an input as entered, a
    result with every point's block written back), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the core's own references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes: what the attention region is entered from. -/
abbrev W3 : Dev nD → Valuation τ sig (Elt F) := fun c => StableHlo.after hostOps1 (W2 m ρ c)
/-- The same, read at the core's own references. -/
abbrev V3 : (c : Dev nD) → (b : Ref sig .tc) → Buf (Elt F) ((c : Thread nD τ).loc b) := fun c b => W3 m ρ c b
/-- At the attention region's exit: each of its four arrays at what the pipeline leaves, every other buffer as
    entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the core's own references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched

No host operation writes an argument and no window of either region has one as its array, so the contents at an
argument's buffer walk back through the four segments to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data of both pipelines, and what the core holds between segments -/

/-- Neither pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped reference of the core is among those it holds between segments. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the core holds at the end, beside owing nothing: every unscoped buffer at the last contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at `W1`, left at `W2`. Its arrays are split out of the
    unscoped buffers at entry and put back at their final contents at exit; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W3`, left at `W4`. As for the projection region,
    except that its invariant carries the three scratch buffers at tracked contents between points: before the first
    point it is the scoped buffers no window stages, each at some contents, beside the generator register, and
    after the last point it gives them back so. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : Pipeline.ΦA spec1 c ⊢ (pdats m ρ 1 c).Φ 0 := hin1 (V3 m ρ) c
    unfold Pipeline.ΦA at h1
    iintro ⟨Hp, -, Hr⟩
    iapply h1
    isplitl [Hr]; · iexact Hr
    iexact Hp
  hout c := by
    rw [Pipeline.ownSems0_none]
    have h1 : (pdats m ρ 1 c).Φ (Fin.last _) ⊢ Pipeline.ΦA spec1 c := hout1 (V3 m ρ) c
    refine h1.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting;
    the result array then holds what the attention region's write-backs leave in it, and the four argument arrays
    hold their launch contents. -/
theorem run_main : θ_run defs (onTc (τ := τ) (main (F := F))) ⟨m, fun _ => 0, ρ⟩ (fun r => ∀ c : Dev nD,
      r.2.mem ((c.tc : Thread nD τ).loc main_v8) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v8 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-! ## What the host operations leave, read at each region's entry

Before the projection region the flattened input is the argument reshaped and each 16-bit weight matrix is its
argument rounded; before the attention region each of the three operands is a result array of the projection
region, at what its write-backs leave, reshaped to batch × position × feature. -/

/-- The flattened input. -/
theorem V1_main_v0 (c : Dev nD) :
    (V1 m ρ c main_v0 : Vec F S16384x1024 .f32)
      = shapeCast S16384x1024 (m ((c : Thread nD τ).loc main_arg0) : Vec F S4x4096x1024 .f32)
          shapeCasts_S4x4096x1024_S16384x1024 := by
  show StableHlo.after hostOps0 (W0 m ρ c) (Proc.devRef .tc main_v0) = _
  after_results
  rfl

/-- The first weight matrix, rounded. -/
theorem V1_main_v1 (c : Dev nD) :
    (V1 m ρ c main_v1 : Vec F S1024x1024 .bf16)
      = truncf .bf16 (m ((c : Thread nD τ).loc main_arg1) : Vec F S1024x1024 .f32) bitsLt_bf16_f32 := by
  show StableHlo.after hostOps0 (W0 m ρ c) (Proc.devRef .tc main_v1) = _
  after_results

/-- The second weight matrix, rounded. -/
theorem V1_main_v2 (c : Dev nD) :
    (V1 m ρ c main_v2 : Vec F S1024x1024 .bf16)
      = truncf .bf16 (m ((c : Thread nD τ).loc main_arg2) : Vec F S1024x1024 .f32) bitsLt_bf16_f32 := by
  show StableHlo.after hostOps0 (W0 m ρ c) (Proc.devRef .tc main_v2) = _
  after_results

/-- The third weight matrix, rounded. -/
theorem V1_main_v3 (c : Dev nD) :
    (V1 m ρ c main_v3 : Vec F S1024x1024 .bf16)
      = truncf .bf16 (m ((c : Thread nD τ).loc main_arg3) : Vec F S1024x1024 .f32) bitsLt_bf16_f32 := by
  show StableHlo.after hostOps0 (W0 m ρ c) (Proc.devRef .tc main_v3) = _
  after_results

/-- The query operand: the projection region's first result array, reshaped. -/
theorem V3_main_v5 (c : Dev nD) :
    (V3 m ρ c main_v5 : Vec F S4x4096x1024 .bf16)
      = shapeCast S4x4096x1024 ((dat0 (V1 m ρ) c).arrAt 4 cfg0.N : Vec F S16384x1024 .bf16)
          shapeCasts_S16384x1024_S4x4096x1024 := by
  have e : W2 m ρ c (Proc.devRef .tc main_v4_0) = (dat0 (V1 m ρ) c).arrAt 4 cfg0.N := W2_arr m ρ c 4
  show StableHlo.after hostOps1 (W2 m ρ c) (Proc.devRef .tc main_v5) = _
  after_results
  rw [e]
  rfl

/-- The key operand: the second result array, reshaped. -/
theorem V3_main_v6 (c : Dev nD) :
    (V3 m ρ c main_v6 : Vec F S4x4096x1024 .bf16)
      = shapeCast S4x4096x1024 ((dat0 (V1 m ρ) c).arrAt 5 cfg0.N : Vec F S16384x1024 .bf16)
          shapeCasts_S16384x1024_S4x4096x1024 := by
  have e : W2 m ρ c (Proc.devRef .tc main_v4_1) = (dat0 (V1 m ρ) c).arrAt 5 cfg0.N := W2_arr m ρ c 5
  show StableHlo.after hostOps1 (W2 m ρ c) (Proc.devRef .tc main_v6) = _
  after_results
  rw [e]
  rfl

/-- The value operand: the third result array, reshaped. -/
theorem V3_main_v7 (c : Dev nD) :
    (V3 m ρ c main_v7 : Vec F S4x4096x1024 .bf16)
      = shapeCast S4x4096x1024 ((dat0 (V1 m ρ) c).arrAt 6 cfg0.N : Vec F S16384x1024 .bf16)
          shapeCasts_S16384x1024_S4x4096x1024 := by
  have e : W2 m ρ c (Proc.devRef .tc main_v4_2) = (dat0 (V1 m ρ) c).arrAt 6 cfg0.N := W2_arr m ρ c 6
  show StableHlo.after hostOps1 (W2 m ρ c) (Proc.devRef .tc main_v7) = _
  after_results
  rw [e]
  rfl

end Cert.Kernel.Hand

end
-- ==== Proof.KI.Region0.lean ====
/-
  The first pipelined region of the kernel program: the fused projection.

  The grid has 32 points; point `t` works on rows `512 t … 512 t + 511` of the flattened input `x`
  (16384 rows of 1024 features). Seven windows: window 0 is the 512 × 1024 row block of `x` at the point,
  windows 1, 2, 3 are the three 1024 × 1024 weight matrices (the same block at every point), and windows
  4, 5, 6 are the 512 × 1024 row blocks of the three results `q`, `k`, `v`, written back at every point.

  At a point the body reads the row block `X` and the three weights and leaves, in each result block, one
  whole-block write: `(round X · W_q) · (1/32)` rounded, `round X · W_k` rounded, `round X · W_v`
  rounded (the roundings are to the 16-bit format; the products accumulate from zero). So what a result
  block holds after the body is a closed function of the row block and of ONE weight matrix, and an input
  block is left as it was found.

  Everything is stated at a parameter `V`: the contents of every buffer when the region is entered, and is
  generic in the number format `F`.
-/
import proofs.«105703_j60739427500253_2_alg».proof.Proof.Gen.KernelIdeal.Launch
import proofs.«105703_j60739427500253_2_alg».proof.Proof.Gen.KernelIdeal.Skeleton
import proofs.«105703_j60739427500253_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
-- the contents of every buffer when the region is entered
variable (V : (c : Dev nD) → (b : Ref sig .tc) → Buf (Elt F) ((c : Thread nD τ).loc b))

/-! ## The windows' blocks -/

/-- Window `w`'s block at point `t`, read off its array as the region finds it: for window 0 the rows
    `512 t … 512 t + 511` of `x`, for windows 1, 2, 3 the whole weight matrix, for windows 4, 5, 6 the same
    rows of a result array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of `x` is in its window's current buffer at every point, for any proof data whose array is the
    entry contents and whose body leaves the block in place: a point that does not fetch has the block index of
    the point before it, whose block is then this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The first weight matrix is in its window's buffer at every point: it is fetched at the first point only, its
    block index never moves, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same of the second weight matrix. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The same of the third weight matrix. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 × 1024 block: the one rectangle through which the row block is read and each result block is
    read and written. -/
abbrev rX : Rect S512x1024 := Rect.unit (s := S512x1024) ![0, 0] S512x1024.size inb_S512x1024_S512x1024_0_0
/-- The whole 1024 × 1024 block: the rectangle through which each weight matrix is read. -/
abbrev rW : Rect S1024x1024 := Rect.unit (s := S1024x1024) ![0, 0] S1024x1024.size inb_S1024x1024_S1024x1024_0_0

/-! ## What the body leaves in each result window's buffer -/

/-- The `q` block after the body, from the row block `x0` and the first weight matrix `w`: its one whole-block
    write, whose payload is the scaled projection. -/
def out0_4 (x0 : Vec F S512x1024 .f32) (w : Vec F S1024x1024 .bf16) : Vec F S512x1024 .bf16 :=
  View.canon [⟨rX, k0_pay2 (View.ld x0 rX) (View.ld w rW)⟩]
/-- The `k` block after the body, from the row block and the second weight matrix. -/
def out0_5 (x0 : Vec F S512x1024 .f32) (w : Vec F S1024x1024 .bf16) : Vec F S512x1024 .bf16 :=
  View.canon [⟨rX, k0_pay3 (View.ld x0 rX) (View.ld w rW)⟩]
/-- The `v` block after the body, from the row block and the third weight matrix. -/
def out0_6 (x0 : Vec F S512x1024 .f32) (w : Vec F S1024x1024 .bf16) : Vec F S512x1024 .bf16 :=
  View.canon [⟨rX, k0_pay4 (View.ld x0 rX) (View.ld w rW)⟩]

/-- One write through the whole-block rectangle tiles a 512 × 1024 buffer, so it covers it. -/
theorem cover0 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 1000000 in
/-- The body on whole buffers — the four inputs' reading `x0`, `w1`, `w2`, `w3`, the three results' holding
    anything — runs to the continuation with the inputs' as they were and each result's holding its block
    `out0_4 x0 w1`, `out0_5 x0 w2`, `out0_6 x0 w3`. The body reads each result buffer once before writing it;
    the value read is not used, and the one whole-block write that follows covers the buffer, so what was there
    before does not show. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S512x1024 .bf16) (harg5 : arg5.IsWhole) (arg6 : Memref sig .tc .vmem S512x1024 .bf16) (harg6 : arg6.IsWhole)
    (arg7 : Memref sig .tc .vmem S512x1024 .bf16) (harg7 : arg7.IsWhole)
    (x0 : Vec F S512x1024 .f32) (w1 w2 w3 : Vec F S1024x1024 .bf16) (K : PUnit → sProp 𝕄) :
    iprop(owns (c : Thread nD τ) arg1 fullShare x0 ∗ owns (c : Thread nD τ) arg2 fullShare w1 ∗ owns (c : Thread nD τ) arg3 fullShare w2 ∗ owns (c : Thread nD τ) arg4 fullShare w3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare w1 ∗ owns (c : Thread nD τ) arg3 fullShare w2 ∗ owns (c : Thread nD τ) arg4 fullShare w3
            ∗ owns (c : Thread nD τ) arg5 fullShare (out0_4 x0 w1) ∗ owns (c : Thread nD τ) arg6 fullShare (out0_5 x0 w2) ∗ owns (c : Thread nD τ) arg7 fullShare (out0_6 x0 w3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The pipeline's proof data -/

/-- The proof data of the projection pipeline on core `c`: the arrays as the region finds them; after the body
    at point `t` each input's buffer holds its block and each result's holds its block as a function of the row
    block and of its own weight matrix; the invariant is the untouched rest of the core's memory; nothing is
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies at those blocks;
    the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline, at every point of the grid. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Flash.lean ====
/-
  The attention region's kernel — one query tile of 1024 rows against one key/value tile of 512 rows per grid
  point (batch, query tile, key tile) — seen from the pipeline: the three conditions its body branches on, as
  propositions over the grid coordinates; the staging and scratch memrefs it is called with; each input window's
  block at a point; and where the output window is idle.

  The body does three things, each under one condition: at the first key tile it resets the running maximum,
  the running denominator and the accumulator (`atFirstKey`); at a key tile that is not wholly after the query
  tile it folds that tile into the three (`keyLive`); at the last key tile it divides the accumulator by the
  denominator into the output block (`atLastKey`).
-/
import proofs.«105703_j60739427500253_2_alg».proof.Proof.Gen.KernelIdeal.Launch
import proofs.«105703_j60739427500253_2_alg».proof.Proof.Gen.KernelIdeal.Skeleton
import proofs.«105703_j60739427500253_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's three conditions -/

/-- The key-tile coordinate is 0: the running statistics are reset. -/
abbrev atFirstKey (i : grid1.Coords) : Prop :=
  (Scalar.cmpi .ne (Scalar.extui (Scalar.cmpi .eq (BitVec.ofNat 32 (i 2).val) 0#32)) 0#32) = 1#1

/-- The key tile starts no later than the query tile ends (key-tile coordinate ≤ 2·(query-tile coordinate + 1) − 1):
    the tile is folded into the running statistics. -/
abbrev keyLive (i : grid1.Coords) : Prop :=
  (Scalar.cmpi .ne (Scalar.extui (Scalar.cmpi .sle (BitVec.ofNat 32 (i 2).val)
    (Scalar.subi (Scalar.muli (Scalar.addi (BitVec.ofNat 32 (i 1).val) 1#32) 2#32) 1#32))) 0#32) = 1#1

/-- The key-tile coordinate is 7, the last: the output block is written. -/
abbrev atLastKey (i : grid1.Coords) : Prop := k1_cond3 i = 1#1

/-- The first key tile is always folded in and is never the last. -/
theorem first_live_notLast : ∀ t : Fin cfg1.N, atFirstKey (grid1.coords t) → keyLive (grid1.coords t) ∧ ¬atLastKey (grid1.coords t) :=
  (by decide +kernel : ∀ t : Fin grid1.N, atFirstKey (grid1.coords t) → keyLive (grid1.coords t) ∧ ¬atLastKey (grid1.coords t))

/-- The first point of the grid is at the first key tile. -/
theorem first_at_zero : ∀ t : Fin cfg1.N, t.val = 0 → atFirstKey (grid1.coords t) :=
  (by decide +kernel : ∀ t : Fin grid1.N, t.val = 0 → atFirstKey (grid1.coords t))

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last key tile the output window is idle and is not written back. -/
theorem idle1_3 : ∀ t : Fin cfg1.N, ¬atLastKey (grid1.coords t) → cfg1.idle 3 (grid1.coords t) = true := by decide +kernel
theorem noFlush1_3 : ∀ t : Fin cfg1.N, ¬atLastKey (grid1.coords t) → (cfg1.win 3).flush t = false := by decide +kernel
/-- At the last key tile it is live (and written back). -/
theorem live1_3 : ∀ t : Fin cfg1.N, atLastKey (grid1.coords t) → cfg1.idle 3 (grid1.coords t) = false := by decide +kernel

/-! ## The memrefs the body is called with -/

abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The running maximum, the running denominator and the accumulator: whole scoped buffers of the kernel's own. -/
abbrev scM : Memref sig .tc .vmem S1024x1 .f32 := Memref.whole cc1_scratch0
abbrev scL : Memref sig .tc .vmem S1024x1 .f32 := Memref.whole cc1_scratch1
abbrev scA : Memref sig .tc .vmem S1024x1024 .f32 := Memref.whole cc1_scratch2
/-- One staging buffer of the output window, through which its contents are stated. -/
abbrev VO3 : View sig .tc .vmem S1x1024x1024 .f32 := (Memref.whole cc1_stg3_0 : Memref sig .tc .vmem S1x1024x1024 .f32).view

/-- The region's invariant as the pipeline library states it for a kernel that keeps nothing — every scoped buffer no
    window stages at some contents, the generator register at some state — with the three scratch buffers taken out as
    owned memrefs. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

/-! ## The windows' blocks, at the contents `V` the region is entered with -/

section Blocks
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or
    the block index did not move since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.KernelIdeal.Hand

end
-- ==== Proof.KI.FlashRunFirst.lean ====
/-
  The attention kernel's body at the first key tile of a query tile: the three scratch buffers are reset (running
  maximum to minus infinity, running denominator and accumulator to zero) whatever they held, and the first key tile
  is folded into them; the output block is not touched.
-/
import proofs.«105703_j60739427500253_2_alg».proof.Proof.KI.Flash

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces each scratch buffer ends with at such a point (last store first), together with the body's triple that ends in them: the scratch buffers may hold anything on entry. -/
noncomputable def flashRun_first (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (hc1 : atFirstKey i) (hc2 : keyLive i) (hc3 : ¬atLastKey i)
    (x0 : Vec F S1x1024x1024 .bf16) (x1 x2 : Vec F S1x512x1024 .bf16) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.FlashRunFold.lean ====
/-
  The attention kernel's body at a grid point that is not at the first key tile, whose key tile is folded in, and that
  is not at the last key tile: the three scratch buffers are read at what the point before left and each is stored
  once, whole; the output block is not touched.
-/
import proofs.«105703_j60739427500253_2_alg».proof.Proof.KI.Flash

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces each scratch buffer ends with at such a point (last store first), together with the body's triple that ends in them: on whole memrefs, the three inputs at their contents, the output block at contents handed back
    untouched, the scratch buffers at the carried contents. -/
noncomputable def flashRun_fold (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (hc1 : ¬atFirstKey i) (hc2 : keyLive i) (hc3 : ¬atLastKey i)
    (x0 : Vec F S1x1024x1024 .bf16) (x1 x2 : Vec F S1x512x1024 .bf16) (xs0 xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.FlashRunSkip.lean ====
/-
  The attention kernel's body at a grid point whose key tile lies wholly after the query tile, away from the last key
  tile: it loads and stores nothing, and hands every buffer back as it found it.
-/
import proofs.«105703_j60739427500253_2_alg».proof.Proof.KI.Flash

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- At such a point the body runs to the continuation holding every buffer at the contents it was given. -/
theorem flashRun_skip (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (hc1 : ¬atFirstKey i) (hc2 : ¬keyLive i) (hc3 : ¬atLastKey i)
    (x0 : Vec F S1x1024x1024 .bf16) (x1 x2 : Vec F S1x512x1024 .bf16) (xs0 xs1 : Vec F S1024x1 .f32) (xs2 : Vec F S1024x1024 .f32) :
    ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__flash_kernel i arg3 harg3 arg4 harg4 arg5 harg5 arg6 harg6 arg7 harg7 arg8 harg8 arg9 harg9) K := by
    intro xi3 E K
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3
    obtain rfl := harg7.eq_unread hfs0; obtain rfl := harg8.eq_unread hfs1; obtain rfl := harg9.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.KI.FlashRunFoldLast.lean ====
/-
  The attention kernel's body at the last key tile when that tile is folded in (the last query tile): the scratch
  buffers are updated from the carried contents, and then the accumulator divided by the denominator is stored, whole,
  into the output block.
-/
import proofs.«105703_j60739427500253_2_alg».proof.Proof.KI.Flash

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the output block and each scratch buffer end with at such a point (last store first), together with the body's triple that ends in them. -/
noncomputable def flashRun_foldLast (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (hc1 : ¬atFirstKey i) (hc2 : keyLive i) (hc3 : atLastKey i)
    (x0 : Vec F S1x1024x1024 .bf16) (x1 x2 : Vec F S1x512x1024 .bf16) (xs0 xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.FlashRunLast.lean ====
/-
  The attention kernel's body at the last key tile when that tile lies wholly after the query tile: the scratch
  buffers are only read, and the accumulator divided by the denominator is stored, whole, into the output block.
-/
import proofs.«105703_j60739427500253_2_alg».proof.Proof.KI.Flash

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the output block ends with at such a point, together with the body's triple that ends in them; the scratch
    buffers are handed back at the carried contents. -/
noncomputable def flashRun_last (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (hc1 : ¬atFirstKey i) (hc2 : ¬keyLive i) (hc3 : atLastKey i)
    (x0 : Vec F S1x1024x1024 .bf16) (x1 x2 : Vec F S1x512x1024 .bf16) (xs0 xs1 : Vec F S1024x1 .f32) (xs2 : Vec F S1024x1024 .f32) :
    { L3 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.KI.FlashCover.lean ====
/-
  The attention kernel's stores, case by case, fill the buffers they go into: every store is of a whole buffer, so each list of pieces covers its buffer, and the buffer then reads as those pieces written over anything.
-/
import proofs.«105703_j60739427500253_2_alg».proof.Proof.KI.FlashRunFirst
import proofs.«105703_j60739427500253_2_alg».proof.Proof.KI.FlashRunFold
import proofs.«105703_j60739427500253_2_alg».proof.Proof.KI.FlashRunSkip
import proofs.«105703_j60739427500253_2_alg».proof.Proof.KI.FlashRunFoldLast
import proofs.«105703_j60739427500253_2_alg».proof.Proof.KI.FlashRunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem cover_first_M (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : atFirstKey i) (hc2 : keyLive i) (hc3 : ¬atLastKey i) (x0 : Vec F S1x1024x1024 .bf16) (x1 x2 : Vec F S1x512x1024 .bf16) (y : S1024x1.Idx) :
    ∃ pc ∈ (flashRun_first c i arg3 harg3 arg4 harg4 arg5 harg5 arg6 harg6 arg7 harg7 arg8 harg8 arg9 harg9 hc1 hc2 hc3 x0 x1 x2).1, y ∈ pc.1.set :=
  View.cover_of_tiledL (flashRun_first c i arg3 harg3 arg4 harg4 arg5 harg5 arg6 harg6 arg7 harg7 arg8 harg8 arg9 harg9 hc1 hc2 hc3 x0 x1 x2).1 S1024x1.size (by sl_kernel_rfl) y

theorem cover_first_L (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : atFirstKey i) (hc2 : keyLive i) (hc3 : ¬atLastKey i) (x0 : Vec F S1x1024x1024 .bf16) (x1 x2 : Vec F S1x512x1024 .bf16) (y : S1024x1.Idx) :
    ∃ pc ∈ (flashRun_first c i arg3 harg3 arg4 harg4 arg5 harg5 arg6 harg6 arg7 harg7 arg8 harg8 arg9 harg9 hc1 hc2 hc3 x0 x1 x2).2.1, y ∈ pc.1.set :=
  View.cover_of_tiledL (flashRun_first c i arg3 harg3 arg4 harg4 arg5 harg5 arg6 harg6 arg7 harg7 arg8 harg8 arg9 harg9 hc1 hc2 hc3 x0 x1 x2).2.1 S1024x1.size (by sl_kernel_rfl) y

theorem cover_first_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : atFirstKey i) (hc2 : keyLive i) (hc3 : ¬atLastKey i) (x0 : Vec F S1x1024x1024 .bf16) (x1 x2 : Vec F S1x512x1024 .bf16) (y : S1024x1024.Idx) :
    ∃ pc ∈ (flashRun_first c i arg3 harg3 arg4 harg4 arg5 harg5 arg6 harg6 arg7 harg7 arg8 harg8 arg9 harg9 hc1 hc2 hc3 x0 x1 x2).2.2.1, y ∈ pc.1.set :=
  View.cover_of_tiledL (flashRun_first c i arg3 harg3 arg4 harg4 arg5 harg5 arg6 harg6 arg7 harg7 arg8 harg8 arg9 harg9 hc1 hc2 hc3 x0 x1 x2).2.2.1 S1024x1024.size (by sl_kernel_rfl) y

theorem cover_fold_M (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬atFirstKey i) (hc2 : keyLive i) (hc3 : ¬atLastKey i) (x0 : Vec F S1x1024x1024 .bf16) (x1 x2 : Vec F S1x512x1024 .bf16) (xs0 xs1 : Vec F S1024x1 .f32) (xs2 : Vec F S1024x1024 .f32) (y : S1024x1.Idx) :
    ∃ pc ∈ (flashRun_fold c i arg3 harg3 arg4 harg4 arg5 harg5 arg6 harg6 arg7 harg7 arg8 harg8 arg9 harg9 hc1 hc2 hc3 x0 x1 x2 xs0 xs1 xs2).1, y ∈ pc.1.set :=
  View.cover_of_tiledL (flashRun_fold c i arg3 harg3 arg4 harg4 arg5 harg5 arg6 harg6 arg7 harg7 arg8 harg8 arg9 harg9 hc1 hc2 hc3 x0 x1 x2 xs0 xs1 xs2).1 S1024x1.size (by sl_kernel_rfl) y

theorem cover_fold_L (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬atFirstKey i) (hc2 : keyLive i) (hc3 : ¬atLastKey i) (x0 : Vec F S1x1024x1024 .bf16) (x1 x2 : Vec F S1x512x1024 .bf16) (xs0 xs1 : Vec F S1024x1 .f32) (xs2 : Vec F S1024x1024 .f32) (y : S1024x1.Idx) :
    ∃ pc ∈ (flashRun_fold c i arg3 harg3 arg4 harg4 arg5 harg5 arg6 harg6 arg7 harg7 arg8 harg8 arg9 harg9 hc1 hc2 hc3 x0 x1 x2 xs0 xs1 xs2).2.1, y ∈ pc.1.set :=
  View.cover_of_tiledL (flashRun_fold c i arg3 harg3 arg4 harg4 arg5 harg5 arg6 harg6 arg7 harg7 arg8 harg8 arg9 harg9 hc1 hc2 hc3 x0 x1 x2 xs0 xs1 xs2).2.1 S1024x1.size (by sl_kernel_rfl) y

theorem cover_fold_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬atFirstKey i) (hc2 : keyLive i) (hc3 : ¬atLastKey i) (x0 : Vec F S1x1024x1024 .bf16) (x1 x2 : Vec F S1x512x1024 .bf16) (xs0 xs1 : Vec F S1024x1 .f32) (xs2 : Vec F S1024x1024 .f32) (y : S1024x1024.Idx) :
    ∃ pc ∈ (flashRun_fold c i arg3 harg3 arg4 harg4 arg5 harg5 arg6 harg6 arg7 harg7 arg8 harg8 arg9 harg9 hc1 hc2 hc3 x0 x1 x2 xs0 xs1 xs2).2.2.1, y ∈ pc.1.set :=
  View.cover_of_tiledL (flashRun_fold c i arg3 harg3 arg4 harg4 arg5 harg5 arg6 harg6 arg7 harg7 arg8 harg8 arg9 harg9 hc1 hc2 hc3 x0 x1 x2 xs0 xs1 xs2).2.2.1 S1024x1024.size (by sl_kernel_rfl) y

theorem cover_foldLast_O (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬atFirstKey i) (hc2 : keyLive i) (hc3 : atLastKey i) (x0 : Vec F S1x1024x1024 .bf16) (x1 x2 : Vec F S1x512x1024 .bf16) (xs0 xs1 : Vec F S1024x1 .f32) (xs2 : Vec F S1024x1024 .f32) (y : S1x1024x1024.Idx) :
    ∃ pc ∈ (flashRun_foldLast c i arg3 harg3 arg4 harg4 arg5 harg5 arg6 harg6 arg7 harg7 arg8 harg8 arg9 harg9 hc1 hc2 hc3 x0 x1 x2 xs0 xs1 xs2).1, y ∈ pc.1.set :=
  View.cover_of_tiledL (flashRun_foldLast c i arg3 harg3 arg4 harg4 arg5 harg5 arg6 harg6 arg7 harg7 arg8 harg8 arg9 harg9 hc1 hc2 hc3 x0 x1 x2 xs0 xs1 xs2).1 S1x1024x1024.size (by sl_kernel_rfl) y

theorem cover_foldLast_M (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬atFirstKey i) (hc2 : keyLive i) (hc3 : atLastKey i) (x0 : Vec F S1x1024x1024 .bf16) (x1 x2 : Vec F S1x512x1024 .bf16) (xs0 xs1 : Vec F S1024x1 .f32) (xs2 : Vec F S1024x1024 .f32) (y : S1024x1.Idx) :
    ∃ pc ∈ (flashRun_foldLast c i arg3 harg3 arg4 harg4 arg5 harg5 arg6 harg6 arg7 harg7 arg8 harg8 arg9 harg9 hc1 hc2 hc3 x0 x1 x2 xs0 xs1 xs2).2.1, y ∈ pc.1.set :=
  View.cover_of_tiledL (flashRun_foldLast c i arg3 harg3 arg4 harg4 arg5 harg5 arg6 harg6 arg7 harg7 arg8 harg8 arg9 harg9 hc1 hc2 hc3 x0 x1 x2 xs0 xs1 xs2).2.1 S1024x1.size (by sl_kernel_rfl) y

theorem cover_foldLast_L (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬atFirstKey i) (hc2 : keyLive i) (hc3 : atLastKey i) (x0 : Vec F S1x1024x1024 .bf16) (x1 x2 : Vec F S1x512x1024 .bf16) (xs0 xs1 : Vec F S1024x1 .f32) (xs2 : Vec F S1024x1024 .f32) (y : S1024x1.Idx) :
    ∃ pc ∈ (flashRun_foldLast c i arg3 harg3 arg4 harg4 arg5 harg5 arg6 harg6 arg7 harg7 arg8 harg8 arg9 harg9 hc1 hc2 hc3 x0 x1 x2 xs0 xs1 xs2).2.2.1, y ∈ pc.1.set :=
  View.cover_of_tiledL (flashRun_foldLast c i arg3 harg3 arg4 harg4 arg5 harg5 arg6 harg6 arg7 harg7 arg8 harg8 arg9 harg9 hc1 hc2 hc3 x0 x1 x2 xs0 xs1 xs2).2.2.1 S1024x1.size (by sl_kernel_rfl) y

theorem cover_foldLast_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬atFirstKey i) (hc2 : keyLive i) (hc3 : atLastKey i) (x0 : Vec F S1x1024x1024 .bf16) (x1 x2 : Vec F S1x512x1024 .bf16) (xs0 xs1 : Vec F S1024x1 .f32) (xs2 : Vec F S1024x1024 .f32) (y : S1024x1024.Idx) :
    ∃ pc ∈ (flashRun_foldLast c i arg3 harg3 arg4 harg4 arg5 harg5 arg6 harg6 arg7 harg7 arg8 harg8 arg9 harg9 hc1 hc2 hc3 x0 x1 x2 xs0 xs1 xs2).2.2.2.1, y ∈ pc.1.set :=
  View.cover_of_tiledL (flashRun_foldLast c i arg3 harg3 arg4 harg4 arg5 harg5 arg6 harg6 arg7 harg7 arg8 harg8 arg9 harg9 hc1 hc2 hc3 x0 x1 x2 xs0 xs1 xs2).2.2.2.1 S1024x1024.size (by sl_kernel_rfl) y

theorem cover_last_O (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc1 : ¬atFirstKey i) (hc2 : ¬keyLive i) (hc3 : atLastKey i) (x0 : Vec F S1x1024x1024 .bf16) (x1 x2 : Vec F S1x512x1024 .bf16) (xs0 xs1 : Vec F S1024x1 .f32) (xs2 : Vec F S1024x1024 .f32) (y : S1x1024x1024.Idx) :
    ∃ pc ∈ (flashRun_last c i arg3 harg3 arg4 harg4 arg5 harg5 arg6 harg6 arg7 harg7 arg8 harg8 arg9 harg9 hc1 hc2 hc3 x0 x1 x2 xs0 xs1 xs2).1, y ∈ pc.1.set :=
  View.cover_of_tiledL (flashRun_last c i arg3 harg3 arg4 harg4 arg5 harg5 arg6 harg6 arg7 harg7 arg8 harg8 arg9 harg9 hc1 hc2 hc3 x0 x1 x2 xs0 xs1 xs2).1 S1x1024x1024.size (by sl_kernel_rfl) y

end Cert.KernelIdeal.Hand

end
-- ==== Proof.KI.FlashDat.lean ====
/-
  What the attention region's pipeline is told about its kernel: after every grid point, what the three scratch
  buffers hold (the running maximum, the running denominator, the accumulator) and, at the last key tile, what the
  output block holds — by recursion over the points, each point's contents the pieces its run stored read back, over
  what the point before left —; the invariant that carries the scratch buffers at those contents from one point to the
  next; and the body's obligation at every point, by cases on the body's three conditions.
-/
import proofs.«105703_j60739427500253_2_alg».proof.Proof.KI.FlashCover

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The scoped buffers the kernel does not use, and the generator register -/

/-- A buffer held whole at some contents. -/
abbrev exB (c : Dev nD) (b : Ref sig .tc) : sProp 𝕄 :=
  iprop(∃ f : Buf (Elt F) ((c : Thread nD τ).loc b), ((c : Thread nD τ).loc b) ↦{fullShare} f)

/-- The other region's eleven staging buffers, each at some contents, and the generator register at some state: what
    rides through the kernel's body untouched. -/
def rest11 (c : Dev nD) : sProp 𝕄 :=
  iprop((exB (F := F) c cc0_stg0_0 ∗ exB (F := F) c cc0_stg0_1 ∗ exB (F := F) c cc0_stg1_0 ∗ exB (F := F) c cc0_stg2_0 ∗ exB (F := F) c cc0_stg3_0 ∗ exB (F := F) c cc0_stg4_0 ∗ exB (F := F) c cc0_stg4_1 ∗ exB (F := F) c cc0_stg5_0 ∗ exB (F := F) c cc0_stg5_1 ∗ exB (F := F) c cc0_stg6_0 ∗ exB (F := F) c cc0_stg6_1) ∗ ∃ r, prngReg c r)

/-- The library's invariant for a kernel that keeps nothing, opened into that rest and the three scratch buffers. -/
theorem phiA_open (c : Dev nD) :
    (Pipeline.ΦA spec1 c : sProp 𝕄) ⊢ iprop(rest11 (F := F) c ∗ (∃ d, owns (c : Thread nD τ) scM fullShare d) ∗ (∃ d, owns (c : Thread nD τ) scL fullShare d) ∗ (∃ d, owns (c : Thread nD τ) scA fullShare d)) := by
  rw [PhiA1_eq]; unfold rest11
  iintro ⟨⟨R1, R2, R3, R4, R5, R6, R7, R8, R9, R10, R11, HS0, HS1, HS2⟩, Hg⟩
  isplitl [R1 R2 R3 R4 R5 R6 R7 R8 R9 R10 R11 Hg]
  · isplitl [R1 R2 R3 R4 R5 R6 R7 R8 R9 R10 R11]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      iexact R11
    iexact Hg
  isplitl [HS0]; · iexact HS0
  isplitl [HS1]; · iexact HS1
  iexact HS2

/-- And closed again. -/
theorem phiA_close (c : Dev nD) :
    iprop(rest11 (F := F) c ∗ (∃ d, owns (c : Thread nD τ) scM fullShare d) ∗ (∃ d, owns (c : Thread nD τ) scL fullShare d) ∗ (∃ d, owns (c : Thread nD τ) scA fullShare d)) ⊢ (Pipeline.ΦA spec1 c : sProp 𝕄) := by
  rw [PhiA1_eq]; unfold rest11
  iintro ⟨⟨⟨R1, R2, R3, R4, R5, R6, R7, R8, R9, R10, R11⟩, Hg⟩, HS0, HS1, HS2⟩
  isplitl [R1 R2 R3 R4 R5 R6 R7 R8 R9 R10 R11 HS0 HS1 HS2]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [HS0]; · iexact HS0
    isplitl [HS1]; · iexact HS1
    iexact HS2
  iexact Hg

section Data
variable (V : (c : Dev nD) → (b : Ref sig .tc) → Buf (Elt F) ((c : Thread nD τ).loc b))

/-! ## What each kind of point leaves -/

/-- The running maximum, the running denominator and the accumulator. -/
abbrev Stats (F : FTy → Type) [FloatOps F] : Type := Vec F S1024x1 .f32 × Vec F S1024x1 .f32 × Vec F S1024x1024 .f32

/-- At the first key tile: the reset statistics with the first tile folded in, whatever was held before. -/
def statsFirst (c : Dev nD) (t : Fin cfg1.N) (h1 : atFirstKey (grid1.coords t)) : Stats F :=
  (scM.view.read (Elt F) (scM.view.writes (Elt F) scM.view.junk (flashRun_first c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 (first_live_notLast t h1).1 (first_live_notLast t h1).2 (iblk1 V c 0 t) (iblk1 V c 1 t) (iblk1 V c 2 t)).1),
   scL.view.read (Elt F) (scL.view.writes (Elt F) scL.view.junk (flashRun_first c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 (first_live_notLast t h1).1 (first_live_notLast t h1).2 (iblk1 V c 0 t) (iblk1 V c 1 t) (iblk1 V c 2 t)).2.1),
   scA.view.read (Elt F) (scA.view.writes (Elt F) scA.view.junk (flashRun_first c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 (first_live_notLast t h1).1 (first_live_notLast t h1).2 (iblk1 V c 0 t) (iblk1 V c 1 t) (iblk1 V c 2 t)).2.2.1))

/-- At a later key tile that is folded in, away from the last: the carried statistics `s` with the tile folded in. -/
def statsFold (c : Dev nD) (t : Fin cfg1.N) (h1 : ¬atFirstKey (grid1.coords t)) (h2 : keyLive (grid1.coords t)) (h3 : ¬atLastKey (grid1.coords t)) (s : Stats F) : Stats F :=
  (scM.view.read (Elt F) (scM.view.writes (Elt F) scM.view.junk (flashRun_fold c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) s.1 s.2.1 s.2.2).1),
   scL.view.read (Elt F) (scL.view.writes (Elt F) scL.view.junk (flashRun_fold c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) s.1 s.2.1 s.2.2).2.1),
   scA.view.read (Elt F) (scA.view.writes (Elt F) scA.view.junk (flashRun_fold c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) s.1 s.2.1 s.2.2).2.2.1))

/-- At the last key tile when it is folded in: the same, -/
def statsFoldLast (c : Dev nD) (t : Fin cfg1.N) (h1 : ¬atFirstKey (grid1.coords t)) (h2 : keyLive (grid1.coords t)) (h3 : atLastKey (grid1.coords t)) (s : Stats F) : Stats F :=
  (scM.view.read (Elt F) (scM.view.writes (Elt F) scM.view.junk (flashRun_foldLast c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) s.1 s.2.1 s.2.2).2.1),
   scL.view.read (Elt F) (scL.view.writes (Elt F) scL.view.junk (flashRun_foldLast c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) s.1 s.2.1 s.2.2).2.2.1),
   scA.view.read (Elt F) (scA.view.writes (Elt F) scA.view.junk (flashRun_foldLast c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) s.1 s.2.1 s.2.2).2.2.2.1))

/-- and the output block then written: the new accumulator over the new denominator. -/
def outFoldLast (c : Dev nD) (t : Fin cfg1.N) (h1 : ¬atFirstKey (grid1.coords t)) (h2 : keyLive (grid1.coords t)) (h3 : atLastKey (grid1.coords t)) (s : Stats F) : Vec F S1x1024x1024 .f32 :=
  VO3.read (Elt F) (VO3.writes (Elt F) VO3.junk (flashRun_foldLast c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) s.1 s.2.1 s.2.2).1)

/-- At the last key tile when it is skipped: the output block is the carried accumulator over the carried denominator. -/
def outLast (c : Dev nD) (t : Fin cfg1.N) (h1 : ¬atFirstKey (grid1.coords t)) (h2 : ¬keyLive (grid1.coords t)) (h3 : atLastKey (grid1.coords t)) (s : Stats F) : Vec F S1x1024x1024 .f32 :=
  VO3.read (Elt F) (VO3.writes (Elt F) VO3.junk (flashRun_last c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) s.1 s.2.1 s.2.2).1)

/-! ## The statistics and the output block after each point -/

/-- The statistics after the body at position `n`: reset and folded at a first key tile, folded at a live tile, kept at a
    skipped one. -/
def scAt (c : Dev nD) : (n : ℕ) → n < cfg1.N → Stats F
  | 0, hn => statsFirst V c ⟨0, hn⟩ (first_at_zero ⟨0, hn⟩ rfl)
  | n + 1, hn =>
    if h1 : atFirstKey (grid1.coords ⟨n + 1, hn⟩) then statsFirst V c ⟨n + 1, hn⟩ h1
    else if h2 : keyLive (grid1.coords ⟨n + 1, hn⟩) then
      if h3 : atLastKey (grid1.coords ⟨n + 1, hn⟩) then statsFoldLast V c ⟨n + 1, hn⟩ h1 h2 h3 (scAt c n (Nat.lt_of_succ_lt hn))
      else statsFold V c ⟨n + 1, hn⟩ h1 h2 h3 (scAt c n (Nat.lt_of_succ_lt hn))
    else scAt c n (Nat.lt_of_succ_lt hn)

/-- The output block's staging buffer after the body at position `n`: written at a last key tile; elsewhere a
    placeholder nothing consults (the window is idle there and is not written back). -/
def outAt (c : Dev nD) : (n : ℕ) → n < cfg1.N → Vec F S1x1024x1024 .f32
  | 0, _ => VO3.read (Elt F) VO3.junk
  | n + 1, hn =>
    if h1 : atFirstKey (grid1.coords ⟨n + 1, hn⟩) then VO3.read (Elt F) VO3.junk
    else if h3 : atLastKey (grid1.coords ⟨n + 1, hn⟩) then
      if h2 : keyLive (grid1.coords ⟨n + 1, hn⟩) then outFoldLast V c ⟨n + 1, hn⟩ h1 h2 h3 (scAt V c n (Nat.lt_of_succ_lt hn))
      else outLast V c ⟨n + 1, hn⟩ h1 h2 h3 (scAt V c n (Nat.lt_of_succ_lt hn))
    else VO3.read (Elt F) VO3.junk

theorem scAt_first (c : Dev nD) (t : Fin cfg1.N) (h1 : atFirstKey (grid1.coords t)) :
    scAt V c t.val t.isLt = statsFirst V c t h1 := by
  obtain ⟨n, hn⟩ := t
  cases n with
  | zero => rfl
  | succ n => exact dif_pos h1

theorem scAt_fold (c : Dev nD) (t : Fin cfg1.N) (h1 : ¬atFirstKey (grid1.coords t)) (h2 : keyLive (grid1.coords t)) (h3 : ¬atLastKey (grid1.coords t)) :
    scAt V c t.val t.isLt = statsFold V c t h1 h2 h3 (scAt V c (t.val - 1) (Nat.lt_of_le_of_lt (Nat.sub_le _ _) t.isLt)) := by
  obtain ⟨n, hn⟩ := t
  cases n with
  | zero => exact absurd (first_at_zero ⟨0, hn⟩ rfl) h1
  | succ n => exact (dif_neg h1).trans ((dif_pos h2).trans ((dif_neg h3).trans rfl))

theorem scAt_foldLast (c : Dev nD) (t : Fin cfg1.N) (h1 : ¬atFirstKey (grid1.coords t)) (h2 : keyLive (grid1.coords t)) (h3 : atLastKey (grid1.coords t)) :
    scAt V c t.val t.isLt = statsFoldLast V c t h1 h2 h3 (scAt V c (t.val - 1) (Nat.lt_of_le_of_lt (Nat.sub_le _ _) t.isLt)) := by
  obtain ⟨n, hn⟩ := t
  cases n with
  | zero => exact absurd (first_at_zero ⟨0, hn⟩ rfl) h1
  | succ n => exact (dif_neg h1).trans ((dif_pos h2).trans ((dif_pos h3).trans rfl))

theorem scAt_skip (c : Dev nD) (t : Fin cfg1.N) (h1 : ¬atFirstKey (grid1.coords t)) (h2 : ¬keyLive (grid1.coords t)) :
    scAt V c t.val t.isLt = (scAt V c (t.val - 1) (Nat.lt_of_le_of_lt (Nat.sub_le _ _) t.isLt)) := by
  obtain ⟨n, hn⟩ := t
  cases n with
  | zero => exact absurd (first_at_zero ⟨0, hn⟩ rfl) h1
  | succ n => exact (dif_neg h1).trans ((dif_neg h2).trans rfl)

theorem outAt_foldLast (c : Dev nD) (t : Fin cfg1.N) (h1 : ¬atFirstKey (grid1.coords t)) (h2 : keyLive (grid1.coords t)) (h3 : atLastKey (grid1.coords t)) :
    outAt V c t.val t.isLt = outFoldLast V c t h1 h2 h3 (scAt V c (t.val - 1) (Nat.lt_of_le_of_lt (Nat.sub_le _ _) t.isLt)) := by
  obtain ⟨n, hn⟩ := t
  cases n with
  | zero => exact absurd (first_at_zero ⟨0, hn⟩ rfl) h1
  | succ n => exact (dif_neg h1).trans ((dif_pos h3).trans ((dif_pos h2).trans rfl))

theorem outAt_last (c : Dev nD) (t : Fin cfg1.N) (h1 : ¬atFirstKey (grid1.coords t)) (h2 : ¬keyLive (grid1.coords t)) (h3 : atLastKey (grid1.coords t)) :
    outAt V c t.val t.isLt = outLast V c t h1 h2 h3 (scAt V c (t.val - 1) (Nat.lt_of_le_of_lt (Nat.sub_le _ _) t.isLt)) := by
  obtain ⟨n, hn⟩ := t
  cases n with
  | zero => exact absurd (first_at_zero ⟨0, hn⟩ rfl) h1
  | succ n => exact (dif_neg h1).trans ((dif_pos h3).trans ((dif_neg h2).trans rfl))

/-! ## The invariant -/

/-- Before position `n`: before the first point, every scoped buffer the windows do not stage at some contents; afterwards
    the three scratch buffers at what the point before left, the rest at some contents. -/
def PhiS (c : Dev nD) : (n : ℕ) → n ≤ cfg1.N → sProp 𝕄
  | 0, _ => Pipeline.ΦA spec1 c
  | n + 1, hn => iprop(rest11 (F := F) c ∗ owns (c : Thread nD τ) scM fullShare (scAt V c n hn).1 ∗ owns (c : Thread nD τ) scL fullShare (scAt V c n hn).2.1 ∗ owns (c : Thread nD τ) scA fullShare (scAt V c n hn).2.2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest11 (F := F) c ∗ owns (c : Thread nD τ) scM fullShare (scAt V c n hn).1 ∗ owns (c : Thread nD τ) scL fullShare (scAt V c n hn).2.1 ∗ owns (c : Thread nD τ) scA fullShare (scAt V c n hn).2.2) := rfl

theorem PhiS_pos (c : Dev nD) (n : ℕ) (h : n ≤ cfg1.N) (hz : n ≠ 0) :
    PhiS V c n h = iprop(rest11 (F := F) c ∗ owns (c : Thread nD τ) scM fullShare (scAt V c (n - 1) (by omega)).1 ∗ owns (c : Thread nD τ) scL fullShare (scAt V c (n - 1) (by omega)).2.1 ∗ owns (c : Thread nD τ) scA fullShare (scAt V c (n - 1) (by omega)).2.2) := by
  cases n with
  | zero => exact absurd rfl hz
  | succ n => rfl

/-! ## The pipeline's proof data -/

/-- The arrays as the region finds them; after the body at a point each input's buffer at its block and the output's at
    `outAt`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Data

end Cert.KernelIdeal.Hand

end
-- ==== Proof.KI.FlashBody.lean ====
/-
  The attention kernel's body meets the pipeline's obligation at every grid point: the pipeline hands it the three
  input blocks, the output block's buffer and the invariant (the scratch buffers at what the point before left); by
  cases on the body's three conditions the matching run applies, and what it leaves is the invariant at the next point
  — the scratch buffers at this point's statistics — with the inputs untouched and the output block either handed back
  as found (away from the last key tile) or holding the normalised accumulator (at it).
-/
import proofs.«105703_j60739427500253_2_alg».proof.Proof.KI.FlashDat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Body
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  by_cases h1 : atFirstKey (grid1.coords t)
  · have h2 := (first_live_notLast t h1).1
    have h3 := (first_live_notLast t h1).2
    rw [Dat.leavesExact_idle (dat1 V c) 3 t (idle1_3 t h3) (noFlush1_3 t h3)]
    rw [scAt_first V c t h1]
    unfold statsFirst; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (phiA_open (F := F) c) $$ HΦ
      icases HΦ' with ⟨Hr, HS0, HS1, HS2⟩
      iapply ((flashRun_first c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [Hr HS0 HS1 HS2]
      · isplitl [Hr]; · iexact Hr
        isplitl [HS0]
        · unfold owns; iexists _; isplitr
          swap; · iexact HS0
          ipureintro; exact View.read_writes_of_cover _ _ _ _ _ (cover_first_M c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t))
        isplitl [HS1]
        · unfold owns; iexists _; isplitr
          swap; · iexact HS1
          ipureintro; exact View.read_writes_of_cover _ _ _ _ _ (cover_first_L c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t))
        unfold owns; iexists _; isplitr
        swap; · iexact HS2
        ipureintro; exact View.read_writes_of_cover _ _ _ _ _ (cover_first_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t))
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨Hr, HS0, HS1, HS2⟩, Ho, ⟨%d0, H0⟩, ⟨%d1, H1⟩, ⟨%d2, H2⟩, ⟨%d3, H3⟩⟩
      iapply ((flashRun_first c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [Hr HS0 HS1 HS2]
      · isplitl [Hr]; · iexact Hr
        isplitl [HS0]
        · unfold owns; iexists _; isplitr
          swap; · iexact HS0
          ipureintro; exact View.read_writes_of_cover _ _ _ _ _ (cover_first_M c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t))
        isplitl [HS1]
        · unfold owns; iexists _; isplitr
          swap; · iexact HS1
          ipureintro; exact View.read_writes_of_cover _ _ _ _ _ (cover_first_L c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t))
        unfold owns; iexists _; isplitr
        swap; · iexact HS2
        ipureintro; exact View.read_writes_of_cover _ _ _ _ _ (cover_first_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t))
      isplitl [Ho]; · iexact Ho
      isplitl [H0]; · iexact H0
      isplitl [H1]; · iexact H1
      isplitl [H2]; · iexact H2
      iexists _; iexact H3
  · have hz : t.val ≠ 0 := fun h => h1 (first_at_zero t h)
    by_cases h2 : keyLive (grid1.coords t)
    · by_cases h3 : atLastKey (grid1.coords t)
      · rw [show (dat1 V c).leavesExact 3 t = owns (c : Thread nD τ) (ms1_3 t) fullShare ((dat1 V c).after 3 t) from by
          unfold Dat.leavesExact; rw [live1_3 t h3], after1_3]
        rw [scAt_foldLast V c t h1 h2 h3, outAt_foldLast V c t h1 h2 h3]
        unfold statsFoldLast outFoldLast; (try dsimp only)
        rw [PhiS_castSucc V c t, PhiS_pos V c _ _ hz]
        iintro ⟨⟨Hr, HS0, HS1, HS2⟩, Ho, ⟨%d0, H0⟩, ⟨%d1, H1⟩, ⟨%d2, H2⟩, ⟨%d3, H3⟩⟩
        iapply ((flashRun_foldLast c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%e0, HS0⟩, ⟨%e1, HS1⟩, ⟨%e2, HS2⟩⟩
        isplitl [Hr HS0 HS1 HS2]
        · isplitl [Hr]; · iexact Hr
          isplitl [HS0]
          · unfold owns; iexists _; isplitr
            swap; · iexact HS0
            ipureintro; exact View.read_writes_of_cover _ _ _ _ _ (cover_foldLast_M c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2)
          isplitl [HS1]
          · unfold owns; iexists _; isplitr
            swap; · iexact HS1
            ipureintro; exact View.read_writes_of_cover _ _ _ _ _ (cover_foldLast_L c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2)
          unfold owns; iexists _; isplitr
          swap; · iexact HS2
          ipureintro; exact View.read_writes_of_cover _ _ _ _ _ (cover_foldLast_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_foldLast_O c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2)
      · rw [Dat.leavesExact_idle (dat1 V c) 3 t (idle1_3 t h3) (noFlush1_3 t h3)]
        rw [scAt_fold V c t h1 h2 h3]
        unfold statsFold; (try dsimp only)
        rw [PhiS_castSucc V c t, PhiS_pos V c _ _ hz]
        iintro ⟨⟨Hr, HS0, HS1, HS2⟩, Ho, ⟨%d0, H0⟩, ⟨%d1, H1⟩, ⟨%d2, H2⟩, ⟨%d3, H3⟩⟩
        iapply ((flashRun_fold c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%e0, HS0⟩, ⟨%e1, HS1⟩, ⟨%e2, HS2⟩⟩
        isplitl [Hr HS0 HS1 HS2]
        · isplitl [Hr]; · iexact Hr
          isplitl [HS0]
          · unfold owns; iexists _; isplitr
            swap; · iexact HS0
            ipureintro; exact View.read_writes_of_cover _ _ _ _ _ (cover_fold_M c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2)
          isplitl [HS1]
          · unfold owns; iexists _; isplitr
            swap; · iexact HS1
            ipureintro; exact View.read_writes_of_cover _ _ _ _ _ (cover_fold_L c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2)
          unfold owns; iexists _; isplitr
          swap; · iexact HS2
          ipureintro; exact View.read_writes_of_cover _ _ _ _ _ (cover_fold_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2)
        isplitl [Ho]; · iexact Ho
        isplitl [H0]; · iexact H0
        isplitl [H1]; · iexact H1
        isplitl [H2]; · iexact H2
        iexists _; iexact H3
    · by_cases h3 : atLastKey (grid1.coords t)
      · rw [show (dat1 V c).leavesExact 3 t = owns (c : Thread nD τ) (ms1_3 t) fullShare ((dat1 V c).after 3 t) from by
          unfold Dat.leavesExact; rw [live1_3 t h3], after1_3]
        rw [scAt_skip V c t h1 h2, outAt_last V c t h1 h2 h3]
        unfold outLast; (try dsimp only)
        rw [PhiS_castSucc V c t, PhiS_pos V c _ _ hz]
        iintro ⟨⟨Hr, HS0, HS1, HS2⟩, Ho, ⟨%d0, H0⟩, ⟨%d1, H1⟩, ⟨%d2, H2⟩, ⟨%d3, H3⟩⟩
        iapply ((flashRun_last c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2).2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [Hr HS0 HS1 HS2]
        · isplitl [Hr]; · iexact Hr
          isplitl [HS0]; · iexact HS0
          isplitl [HS1]; · iexact HS1
          iexact HS2
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_last_O c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2)
      · rw [Dat.leavesExact_idle (dat1 V c) 3 t (idle1_3 t h3) (noFlush1_3 t h3)]
        rw [scAt_skip V c t h1 h2]
        rw [PhiS_castSucc V c t, PhiS_pos V c _ _ hz]
        iintro ⟨⟨Hr, HS0, HS1, HS2⟩, Ho, ⟨%d0, H0⟩, ⟨%d1, H1⟩, ⟨%d2, H2⟩, ⟨%d3, H3⟩⟩
        iapply ((flashRun_skip c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) h1 h2 h3 (iblk1 V c 0 t) (iblk1 V c 1 t) (iblk1 V c 2 t) (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2) _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [Hr HS0 HS1 HS2]
        · isplitl [Hr]; · iexact Hr
          isplitl [HS0]; · iexact HS0
          isplitl [HS1]; · iexact HS1
          iexact HS2
        isplitl [Ho]; · iexact Ho
        isplitl [H0]; · iexact H0
        isplitl [H1]; · iexact H1
        isplitl [H2]; · iexact H2
        iexists _; iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back at some contents: the statistics are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  iintro ⟨Hr, HS0, HS1, HS2⟩
  iapply (phiA_close (F := F) c)
  isplitl [Hr]; · iexact Hr
  isplitl [HS0]; · iexists _; iexact HS0
  isplitl [HS1]; · iexists _; iexact HS1
  iexists _; iexact HS2

end Body

end Cert.KernelIdeal.Hand

end
-- ==== Proof.KI.Run.lean ====
/-
  The run of the kernel program from the launch to the return.

  The program is four host operations (the input flattened to 16384 rows, the three weight matrices rounded to the
  16-bit format), the projection region, three host operations (the three projections reshaped to batch × position ×
  feature) and the attention region. The contents of every buffer are followed through these four segments: at a
  host stretch each operation rewrites its result buffer; at a region each window's array ends at what the
  pipeline's write-backs leave and every other buffer as the region found it. Between segments the core holds every
  unscoped buffer whole at the contents reached so far, its generator register at some state, and owes nothing.
  The conclusion: every weakly fair execution terminates, the result array holds what the attention region's
  write-backs leave, and the four argument arrays hold their launch contents, since no host operation writes one
  and no window of either region has one as its array.
-/
import proofs.«105703_j60739427500253_2_alg».proof.Proof.KI.Region0
import proofs.«105703_j60739427500253_2_alg».proof.Proof.KI.FlashBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After the first four host operations: what the projection region is entered from. -/
abbrev W1 : Dev nD → Valuation τ sig (Elt F) := fun c => StableHlo.after hostOps0 (W0 m ρ c)
/-- The same, read at the core's own references. -/
abbrev V1 : (c : Dev nD) → (b : Ref sig .tc) → Buf (Elt F) ((c : Thread nD τ).loc b) := fun c b => W1 m ρ c b
/-- At the projection region's exit: each of its seven arrays at what the pipeline leaves (an input as entered, a
    result with every point's block written back), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the core's own references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes: what the attention region is entered from. -/
abbrev W3 : Dev nD → Valuation τ sig (Elt F) := fun c => StableHlo.after hostOps1 (W2 m ρ c)
/-- The same, read at the core's own references. -/
abbrev V3 : (c : Dev nD) → (b : Ref sig .tc) → Buf (Elt F) ((c : Thread nD τ).loc b) := fun c b => W3 m ρ c b
/-- At the attention region's exit: each of its four arrays at what the pipeline leaves, every other buffer as
    entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the core's own references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched

No host operation writes an argument and no window of either region has one as its array, so the contents at an
argument's buffer walk back through the four segments to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data of both pipelines, and what the core holds between segments -/

/-- Neither pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped reference of the core is among those it holds between segments. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the core holds at the end, beside owing nothing: every unscoped buffer at the last contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at `W1`, left at `W2`. Its arrays are split out of the
    unscoped buffers at entry and put back at their final contents at exit; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W3`, left at `W4`. As for the projection region,
    except that its invariant carries the three scratch buffers at tracked contents between points: before the first
    point it is the scoped buffers no window stages, each at some contents, beside the generator register, and
    after the last point it gives them back so. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : Pipeline.ΦA spec1 c ⊢ (pdats m ρ 1 c).Φ 0 := hin1 (V3 m ρ) c
    unfold Pipeline.ΦA at h1
    iintro ⟨Hp, -, Hr⟩
    iapply h1
    isplitl [Hr]; · iexact Hr
    iexact Hp
  hout c := by
    rw [Pipeline.ownSems0_none]
    have h1 : (pdats m ρ 1 c).Φ (Fin.last _) ⊢ Pipeline.ΦA spec1 c := hout1 (V3 m ρ) c
    refine h1.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting;
    the result array then holds what the attention region's write-backs leave in it, and the four argument arrays
    hold their launch contents. -/
theorem run_main : θ_run defs (onTc (τ := τ) (main (F := F))) ⟨m, fun _ => 0, ρ⟩ (fun r => ∀ c : Dev nD,
      r.2.mem ((c.tc : Thread nD τ).loc main_v8) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v8 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-! ## What the host operations leave, read at each region's entry

Before the projection region the flattened input is the argument reshaped and each 16-bit weight matrix is its
argument rounded; before the attention region each of the three operands is a result array of the projection
region, at what its write-backs leave, reshaped to batch × position × feature. -/

/-- The flattened input. -/
theorem V1_main_v0 (c : Dev nD) :
    (V1 m ρ c main_v0 : Vec F S16384x1024 .f32)
      = shapeCast S16384x1024 (m ((c : Thread nD τ).loc main_arg0) : Vec F S4x4096x1024 .f32)
          shapeCasts_S4x4096x1024_S16384x1024 := by
  show StableHlo.after hostOps0 (W0 m ρ c) (Proc.devRef .tc main_v0) = _
  after_results
  rfl

/-- The first weight matrix, rounded. -/
theorem V1_main_v1 (c : Dev nD) :
    (V1 m ρ c main_v1 : Vec F S1024x1024 .bf16)
      = truncf .bf16 (m ((c : Thread nD τ).loc main_arg1) : Vec F S1024x1024 .f32) bitsLt_bf16_f32 := by
  show StableHlo.after hostOps0 (W0 m ρ c) (Proc.devRef .tc main_v1) = _
  after_results

/-- The second weight matrix, rounded. -/
theorem V1_main_v2 (c : Dev nD) :
    (V1 m ρ c main_v2 : Vec F S1024x1024 .bf16)
      = truncf .bf16 (m ((c : Thread nD τ).loc main_arg2) : Vec F S1024x1024 .f32) bitsLt_bf16_f32 := by
  show StableHlo.after hostOps0 (W0 m ρ c) (Proc.devRef .tc main_v2) = _
  after_results

/-- The third weight matrix, rounded. -/
theorem V1_main_v3 (c : Dev nD) :
    (V1 m ρ c main_v3 : Vec F S1024x1024 .bf16)
      = truncf .bf16 (m ((c : Thread nD τ).loc main_arg3) : Vec F S1024x1024 .f32) bitsLt_bf16_f32 := by
  show StableHlo.after hostOps0 (W0 m ρ c) (Proc.devRef .tc main_v3) = _
  after_results

/-- The query operand: the projection region's first result array, reshaped. -/
theorem V3_main_v5 (c : Dev nD) :
    (V3 m ρ c main_v5 : Vec F S4x4096x1024 .bf16)
      = shapeCast S4x4096x1024 ((dat0 (V1 m ρ) c).arrAt 4 cfg0.N : Vec F S16384x1024 .bf16)
          shapeCasts_S16384x1024_S4x4096x1024 := by
  have e : W2 m ρ c (Proc.devRef .tc main_v4_0) = (dat0 (V1 m ρ) c).arrAt 4 cfg0.N := W2_arr m ρ c 4
  show StableHlo.after hostOps1 (W2 m ρ c) (Proc.devRef .tc main_v5) = _
  after_results
  rw [e]
  rfl

/-- The key operand: the second result array, reshaped. -/
theorem V3_main_v6 (c : Dev nD) :
    (V3 m ρ c main_v6 : Vec F S4x4096x1024 .bf16)
      = shapeCast S4x4096x1024 ((dat0 (V1 m ρ) c).arrAt 5 cfg0.N : Vec F S16384x1024 .bf16)
          shapeCasts_S16384x1024_S4x4096x1024 := by
  have e : W2 m ρ c (Proc.devRef .tc main_v4_1) = (dat0 (V1 m ρ) c).arrAt 5 cfg0.N := W2_arr m ρ c 5
  show StableHlo.after hostOps1 (W2 m ρ c) (Proc.devRef .tc main_v6) = _
  after_results
  rw [e]
  rfl

/-- The value operand: the third result array, reshaped. -/
theorem V3_main_v7 (c : Dev nD) :
    (V3 m ρ c main_v7 : Vec F S4x4096x1024 .bf16)
      = shapeCast S4x4096x1024 ((dat0 (V1 m ρ) c).arrAt 6 cfg0.N : Vec F S16384x1024 .bf16)
          shapeCasts_S16384x1024_S4x4096x1024 := by
  have e : W2 m ρ c (Proc.devRef .tc main_v4_2) = (dat0 (V1 m ρ) c).arrAt 6 cfg0.N := W2_arr m ρ c 6
  show StableHlo.after hostOps1 (W2 m ρ c) (Proc.devRef .tc main_v7) = _
  after_results
  rw [e]
  rfl

end Cert.KernelIdeal.Hand

end
-- ==== Proof.Spec.lean ====
/-
  Causal self-attention as one function of the four argument arrays, on the extended reals.

  For a batch `b`, a query position `q` and an output feature `e`:
    * the three projections are `proj x W b s e = ∑ d, x (b, s, d) * W (d, e)`;
    * the raw score of query `q` against key `k` is `∑ e, Q (b, q, e) * K (b, k, e)`;
    * the logit is the score divided by 32 (the square root of the feature count 1024) where the key is not
      after the query (`k ≤ q`), and `⊥` (minus infinity) where it is;
    * the row maximum is the fold of `max` from `⊥` over all 4096 keys, the weight of key `k` is
      `exp (logit − maximum)` (so a masked key weighs `exp ⊥ = 0`), the denominator the sum of the weights;
    * the result is `∑ k, (weight k / denominator) * V (b, k, e)`.
  Both programs are shown to compute `attn`: the reference operation by operation, the kernel through its
  running maximum, running denominator and rescaled accumulator over the key tiles.
-/
import Idealize.ShloMosaic.PureOps.Ideal
import Idealize.ShloMosaic.Lib.ValueIdx

noncomputable section

namespace Cert.Att

open Idealize.ShloMosaic Idealize.ShloMosaic.ValueIdx
open scoped BigOperators

/-- The shape of the input `x` and of the result: batch 4, sequence 4096, features 1024. -/
abbrev SX : Shape := ⟨3, ![4, 4096, 1024]⟩
/-- The shape of each weight matrix: 1024 input features by 1024 output features. -/
abbrev SW : Shape := ⟨2, ![1024, 1024]⟩

variable (x : SX.Idx → EReal) (Wq Wk Wv : SW.Idx → EReal)

/-- A projection `x · W` at batch `b`, position `s`, output feature `e`. -/
def proj (W : SW.Idx → EReal) (b : Fin 4) (s : Fin 4096) (e : Fin 1024) : EReal :=
  ∑ d : Fin 1024, x (ix3 b s d) * W (ix2 d e)

/-- The raw score of query position `q` against key position `k`. -/
def score (b : Fin 4) (q k : Fin 4096) : EReal :=
  ∑ e : Fin 1024, proj x Wq b q e * proj x Wk b k e

/-- The masked, scaled logit: the score over 32 for a key not after the query, minus infinity otherwise. -/
def logit (b : Fin 4) (q k : Fin 4096) : EReal :=
  if k.val ≤ q.val then Ideal.div (score x Wq Wk b q k) ((32 : ℝ) : EReal) else ⊥

/-- The maximum of a query's logits over all keys. -/
def rowMax (b : Fin 4) (q : Fin 4096) : EReal :=
  (Finset.univ : Finset (Fin 4096)).fold max ⊥ (fun k => logit x Wq Wk b q k)

/-- The unnormalised softmax weight of key `k` for query `q`. -/
def weight (b : Fin 4) (q k : Fin 4096) : EReal :=
  Ideal.exp (logit x Wq Wk b q k - rowMax x Wq Wk b q)

/-- The softmax denominator of query `q`. -/
def denom (b : Fin 4) (q : Fin 4096) : EReal :=
  ∑ k : Fin 4096, weight x Wq Wk b q k

/-- Causal attention at batch `b`, query position `q`, output feature `e`. -/
def attn (b : Fin 4) (q : Fin 4096) (e : Fin 1024) : EReal :=
  ∑ k : Fin 4096, Ideal.div (weight x Wq Wk b q k) (denom x Wq Wk b q) * proj x Wv b k e

/-- The same as a whole array. -/
def attnArr : SX.Idx → EReal := fun i => attn x Wq Wk Wv (i 0) (i 1) (i 2)

end Cert.Att

end
-- ==== Proof.RefSide.lean ====
/-
  The reference program computes causal attention.

  Read one operation at a time, the reference's result array is the function `Cert.Att.attnArr` of its four
  argument arrays: the three projections are sums over the 1024 input features; the score is the sum over the
  1024 projected features; the lower-triangular mask keeps the keys not after the query and puts minus infinity
  elsewhere; the division by `sqrt 1024 = 32` leaves minus infinity where it was; the row maximum is the fold of
  `max` from minus infinity over the 4096 keys (a further `max` with minus infinity changes nothing); the weights
  are the exponentials of the logits less the maximum, the denominator `0 +` their sum, and the result the sum
  over the keys of the normalised weights times the value projection.
-/
import proofs.«105703_j60739427500253_2_alg».proof.Proof.Gen.ReferenceIdeal.Read
import proofs.«105703_j60739427500253_2_alg».proof.Proof.Spec
import Idealize.ShloMosaic.Lib.ValueIdx
import Idealize.ShloMosaic.Lib.Pipeline.Value
import Idealize.ShloMosaic.PureOps.Ideal.Laws

noncomputable section

namespace Cert.Att.Ref

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

/-! ## The literals -/

/-- The word `0xFF800000` is minus infinity. -/
theorem ofBits_neg_inf : Ideal.ofBits .f32 0xFF800000#32 = (⊥ : EReal) := by
  simp [Ideal.ofBits, Ideal.ieee]

/-- The word `0x44800000` is the real 1024. -/
theorem ofBits_1024 : Ideal.ofBits .f32 0x44800000#32 = ((1024 : ℝ) : EReal) := by
  simp [Ideal.ofBits, Ideal.ieee]
  rw [← EReal.coe_mul]
  norm_num

/-- The square root of 1024 is 32. -/
theorem sqrt_1024 : Ideal.sqrt ((1024 : ℝ) : EReal) = ((32 : ℝ) : EReal) := by
  rw [Ideal.sqrt_coe, if_neg (by norm_num)]
  congr 1
  rw [show (1024 : ℝ) = 32 ^ 2 by norm_num, Real.sqrt_sq (by norm_num)]

/-- Minus infinity over 32 is minus infinity. -/
theorem div_bot_32 : Ideal.div ⊥ ((32 : ℝ) : EReal) = ⊥ := by
  rw [Ideal.div_coe (by norm_num)]
  exact EReal.bot_mul_coe_of_pos (by norm_num)

/-- On 32-bit words of numbers below 4096 the signed comparison `q + 0 ≥ k` is the comparison of the numbers. -/
theorem mask_bit (q k : Nat) (hq : q < 4096) (hk : k < 4096) :
    IntOp.cmpi .sge (IntOp.addi (BitVec.ofNat 32 q) 0#32) (BitVec.ofNat 32 k) = if k ≤ q then 1#1 else 0#1 := by
  unfold IntOp.cmpi IntOp.addi
  simp only [BitVec.add_zero]
  have hq' : (BitVec.ofNat 32 q).toInt = (q : Int) := by
    rw [BitVec.toInt_eq_toNat_of_lt (by rw [BitVec.toNat_ofNat]; omega), BitVec.toNat_ofNat]; omega
  have hk' : (BitVec.ofNat 32 k).toInt = (k : Int) := by
    rw [BitVec.toInt_eq_toNat_of_lt (by rw [BitVec.toNat_ofNat]; omega), BitVec.toNat_ofNat]; omega
  rw [BitVec.sle_eq_decide, hq', hk']
  by_cases h : k ≤ q
  · rw [if_pos h]; simp [h]
  · rw [if_neg h]; simp [h]

variable (x0 : (⟨S4x4096x1024, .f32⟩ : BufTy).Contents (Elt Ideal))
  (x1 x2 x3 : (⟨S1024x1024, .f32⟩ : BufTy).Contents (Elt Ideal))

/-! ## The projections -/

/-- The query projection at batch `b`, position `s`, feature `e`. -/
theorem v0_eq (b : Fin 4) (s : Fin 4096) (e : Fin 1024) :
    val_main_v0 (F := Ideal) x0 x1 (ix3 b s e) = proj x0 x1 b s e := by
  rw [val_main_v0_apply]
  unfold proj
  refine Finset.sum_congr rfl fun d _ => ?_
  have el : lidx_main_v0 (ix3 b s e) d = ix3 b s d :=
    funext fun a => by match a with | ⟨0, _⟩ => rfl | ⟨1, _⟩ => rfl | ⟨2, _⟩ => rfl
  have er : ridx_main_v0 (ix3 b s e) d = ix2 d e :=
    funext fun a => by match a with | ⟨0, _⟩ => rfl | ⟨1, _⟩ => rfl
  rw [el, er]

/-- The key projection. -/
theorem v1_eq (b : Fin 4) (s : Fin 4096) (e : Fin 1024) :
    val_main_v1 (F := Ideal) x0 x2 (ix3 b s e) = proj x0 x2 b s e := by
  rw [val_main_v1_apply]
  unfold proj
  refine Finset.sum_congr rfl fun d _ => ?_
  have el : lidx_main_v1 (ix3 b s e) d = ix3 b s d :=
    funext fun a => by match a with | ⟨0, _⟩ => rfl | ⟨1, _⟩ => rfl | ⟨2, _⟩ => rfl
  have er : ridx_main_v1 (ix3 b s e) d = ix2 d e :=
    funext fun a => by match a with | ⟨0, _⟩ => rfl | ⟨1, _⟩ => rfl
  rw [el, er]

/-- The value projection. -/
theorem v2_eq (b : Fin 4) (s : Fin 4096) (e : Fin 1024) :
    val_main_v2 (F := Ideal) x0 x3 (ix3 b s e) = proj x0 x3 b s e := by
  rw [val_main_v2_apply]
  unfold proj
  refine Finset.sum_congr rfl fun d _ => ?_
  have el : lidx_main_v2 (ix3 b s e) d = ix3 b s d :=
    funext fun a => by match a with | ⟨0, _⟩ => rfl | ⟨1, _⟩ => rfl | ⟨2, _⟩ => rfl
  have er : ridx_main_v2 (ix3 b s e) d = ix2 d e :=
    funext fun a => by match a with | ⟨0, _⟩ => rfl | ⟨1, _⟩ => rfl
  rw [el, er]

/-! ## The score -/

/-- The raw score of query `q` against key `k`. -/
theorem v3_eq (b : Fin 4) (q k : Fin 4096) :
    val_main_v3 (F := Ideal) x0 x1 x2 (ix3 b q k) = score x0 x1 x2 b q k := by
  rw [val_main_v3_apply]
  unfold score
  refine Finset.sum_congr rfl fun e _ => ?_
  have el : lidx_main_v3 (ix3 b q k) e = ix3 b q e :=
    funext fun a => by match a with | ⟨0, _⟩ => rfl | ⟨1, _⟩ => rfl | ⟨2, _⟩ => rfl
  have er : ridx_main_v3 (ix3 b q k) e = ix3 b k e :=
    funext fun a => by match a with | ⟨0, _⟩ => rfl | ⟨1, _⟩ => rfl | ⟨2, _⟩ => rfl
  rw [el, er, v0_eq, v1_eq]

/-! ## The masked, scaled logit -/

/-- The lower-triangular mask at query `q`, key `k`: one exactly when the key is not after the query. -/
theorem mask_eq (b : Fin 4) (q k : Fin 4096) :
    val_main_call1_v1 (F := Ideal) (ix3 b q k) = if k.val ≤ q.val then 1#1 else 0#1 := by
  rw [val_main_call1_v1_apply, val_main_v6_apply, val_main_v5_apply, val_main_call0_v4_apply,
    val_main_call0_v2_apply, val_main_call0_v0_apply, val_main_call0_v1_apply, val_main_call0_c_apply,
    val_main_call0_v3_apply, val_main_v4_apply, val_main_c_apply, val_main_call0_v5_apply,
    val_main_call0_c_0_apply]
  show Scalar.select (IntOp.cmpi .sge (IntOp.addi (BitVec.ofNat 32 q.val) 0#32) (BitVec.ofNat 32 k.val)) 1#1 0#1 = _
  rw [mask_bit q.val k.val q.isLt k.isLt]
  by_cases h : k.val ≤ q.val
  · rw [if_pos h]; exact select_one _ _
  · rw [if_neg h]; exact select_zero _ _

/-- The masked score: the score where the key is not after the query, minus infinity elsewhere. -/
theorem v7_eq (b : Fin 4) (q k : Fin 4096) :
    val_main_v7 (F := Ideal) x0 x1 x2 (ix3 b q k) = if k.val ≤ q.val then score x0 x1 x2 b q k else ⊥ := by
  rw [val_main_v7_apply, mask_eq, v3_eq, val_main_call1_v2_apply, val_main_call1_v0_apply, val_main_cst_apply,
    Ideal.ofBits_def, ofBits_neg_inf]
  by_cases h : k.val ≤ q.val
  · rw [if_pos h, if_pos h]; exact select_one _ _
  · rw [if_neg h, if_neg h]; exact select_zero _ _

/-- The divisor is 32 everywhere. -/
theorem v9_eq (i : S4x4096x4096.Idx) : val_main_v9 (F := Ideal) i = ((32 : ℝ) : EReal) := by
  rw [val_main_v9_apply, val_main_v8_apply, val_main_cst_0_apply, Ideal.hostUnary_sqrt_def, Ideal.ofBits_def,
    ofBits_1024, sqrt_1024]

/-- The logit. -/
theorem v10_eq (b : Fin 4) (q k : Fin 4096) :
    val_main_v10 (F := Ideal) x0 x1 x2 (ix3 b q k) = logit x0 x1 x2 b q k := by
  rw [val_main_v10_apply, v7_eq, v9_eq, Ideal.hostDivf_def]
  unfold logit
  by_cases h : k.val ≤ q.val
  · rw [if_pos h, if_pos h]
  · rw [if_neg h, if_neg h, div_bot_32]

/-! ## The row maximum -/

/-- The key axis is the one reduced. -/
theorem reduces_keys : S4x4096x4096.Reduces [2] S4x4096 := by decide

/-- The reduced index (b, q) with key `k` put back is (b, q, k). -/
theorem lift_keys (h : S4x4096x4096.Reduces [2] S4x4096) (b : Fin 4) (q : Fin 4096)
    (k : Fin (S4x4096x4096.size 2)) : h.lift (ix2 b q) k = ix3 b q (⟨k.val, k.isLt⟩ : Fin 4096) := by
  funext c; apply Fin.ext
  fin_cases c <;> rfl

/-- The max-reduce over the keys from minus infinity, at (b, q), is the fold of `max` from `⊥` over the keys. -/
theorem reduce_max_keys (y : S4x4096x4096.Idx → Ideal .f32) (b : Fin 4) (q : Fin 4096) :
    Host.reduce (FloatOps.maximumf (F := Ideal) (φ := .f32)) y (val_main_cst_1 (F := Ideal))
        reducesTo_S4x4096x4096_S4x4096_d2 h_S_ (ix2 b q)
      = (Finset.univ : Finset (Fin 4096)).fold max (⊥ : EReal) (fun k => y (ix3 b q k)) := by
  rw [Host.reduce_eq_fold_single (FloatOps.maximumf (F := Ideal) (φ := .f32)) y _
    reducesTo_S4x4096x4096_S4x4096_d2 reduces_keys h_S_]
  have hi : val_main_cst_1 (F := Ideal) (Shape.Idx.first h_S_) = (⊥ : EReal) := by
    rw [val_main_cst_1_apply, Ideal.ofBits_def, ofBits_neg_inf]
  rw [hi]
  have hf : (y ∘ reduces_keys.lift (ix2 b q)) = fun k : Fin 4096 => y (ix3 b q k) :=
    funext fun k => congrArg y (lift_keys reduces_keys b q k)
  exact congrArg (fun f => Finset.fold max (⊥ : EReal) f (Finset.univ : Finset (Fin 4096))) hf

/-- The reduce's result is the row maximum. -/
theorem v11_eq (b : Fin 4) (q : Fin 4096) :
    val_main_v11 (F := Ideal) x0 x1 x2 (ix2 b q) = rowMax x0 x1 x2 b q := by
  unfold val_main_v11
  rw [reduce_max_keys]
  unfold rowMax
  exact congrArg (fun f => Finset.fold max (⊥ : EReal) f (Finset.univ : Finset (Fin 4096)))
    (funext fun k => v10_eq x0 x1 x2 b q k)

/-- A further maximum with minus infinity changes nothing. -/
theorem v13_eq (b : Fin 4) (q : Fin 4096) :
    val_main_v13 (F := Ideal) x0 x1 x2 (ix2 b q) = rowMax x0 x1 x2 b q := by
  rw [val_main_v13_apply, val_main_v12_apply, val_main_cst_2_apply, Ideal.ofBits_def, ofBits_neg_inf,
    Ideal.maximumf_def, v11_eq]
  exact max_bot_left _

/-- The maximum broadcast back along the keys. -/
theorem v15_eq (b : Fin 4) (q k : Fin 4096) :
    val_main_v15 (F := Ideal) x0 x1 x2 (ix3 b q k) = rowMax x0 x1 x2 b q := by
  rw [val_main_v15_apply, val_main_v14_apply]
  have e : idx_main_v14 (idx_main_v15 (ix3 b q k)) = ix2 b q :=
    funext fun a => by match a with | ⟨0, _⟩ => rfl | ⟨1, _⟩ => rfl
  rw [e, v13_eq]

/-! ## The weights and the denominator -/

/-- The unnormalised weight. -/
theorem v17_eq (b : Fin 4) (q k : Fin 4096) :
    val_main_v17 (F := Ideal) x0 x1 x2 (ix3 b q k) = weight x0 x1 x2 b q k := by
  rw [val_main_v17_apply, val_main_v16_apply, v10_eq, v15_eq, Ideal.hostUnary_exp_def, Ideal.subf_def]
  rfl

/-- The row sum from zero is the denominator. -/
theorem v18_eq (b : Fin 4) (q : Fin 4096) :
    val_main_v18 (F := Ideal) x0 x1 x2 (ix2 b q) = denom x0 x1 x2 b q := by
  rw [val_main_v18_apply, val_main_cst_3_apply, Ideal.ofBits_def, Ideal.ofBits_zero_f32, zero_add]
  unfold denom
  refine Finset.sum_congr rfl fun k _ => ?_
  have e : idx_main_v18 (ix2 b q) k = ix3 b q k :=
    funext fun a => by match a with | ⟨0, _⟩ => rfl | ⟨1, _⟩ => rfl | ⟨2, _⟩ => rfl
  rw [e, v17_eq]

/-- The denominator broadcast back along the keys. -/
theorem v20_eq (b : Fin 4) (q k : Fin 4096) :
    val_main_v20 (F := Ideal) x0 x1 x2 (ix3 b q k) = denom x0 x1 x2 b q := by
  rw [val_main_v20_apply, val_main_v19_apply]
  have e : idx_main_v19 (idx_main_v20 (ix3 b q k)) = ix2 b q :=
    funext fun a => by match a with | ⟨0, _⟩ => rfl | ⟨1, _⟩ => rfl
  rw [e, v18_eq]

/-- The normalised weight. -/
theorem v21_eq (b : Fin 4) (q k : Fin 4096) :
    val_main_v21 (F := Ideal) x0 x1 x2 (ix3 b q k)
      = Ideal.div (weight x0 x1 x2 b q k) (denom x0 x1 x2 b q) := by
  rw [val_main_v21_apply, v17_eq, v20_eq, Ideal.hostDivf_def]

/-! ## The result -/

/-- The result at batch `b`, query `q`, feature `e`. -/
theorem v22_eq (b : Fin 4) (q : Fin 4096) (e : Fin 1024) :
    val_main_v22 (F := Ideal) x0 x1 x2 x3 (ix3 b q e) = attn x0 x1 x2 x3 b q e := by
  rw [val_main_v22_apply]
  unfold attn
  refine Finset.sum_congr rfl fun k _ => ?_
  have el : lidx_main_v22 (ix3 b q e) k = ix3 b q k :=
    funext fun a => by match a with | ⟨0, _⟩ => rfl | ⟨1, _⟩ => rfl | ⟨2, _⟩ => rfl
  have er : ridx_main_v22 (ix3 b q e) k = ix3 b k e :=
    funext fun a => by match a with | ⟨0, _⟩ => rfl | ⟨1, _⟩ => rfl | ⟨2, _⟩ => rfl
  rw [el, er, v21_eq, v2_eq]

/-- The reference's result array is causal attention of its four arguments. -/
theorem ref_eq_attn (x0 : (⟨S4x4096x1024, .f32⟩ : BufTy).Contents (Elt Ideal))
    (x1 x2 x3 : (⟨S1024x1024, .f32⟩ : BufTy).Contents (Elt Ideal)) :
    Cert.ReferenceIdeal.Read.val_main_v22 x0 x1 x2 x3 = Cert.Att.attnArr x0 x1 x2 x3 := by
  funext i
  obtain ⟨b, q, e, rfl⟩ : ∃ (b : Fin 4) (q : Fin 4096) (e : Fin 1024), i = ix3 b q e :=
    ⟨i 0, i 1, i 2, eq_ix3 i⟩
  exact v22_eq x0 x1 x2 x3 b q e

/-! ## The reference's run -/

/-- Every weakly fair execution of the reference terminates with its result array at causal attention of the
    launch contents of its four arguments, and the arguments unchanged. -/
theorem ref_run (m : (ℓ : Loc nD τ sig) → Buf (Elt Ideal) ℓ) (ρ : Dev nD → PrngReg) :
    θ_run Cert.ReferenceIdeal.defs (onTc (τ := Cert.ReferenceIdeal.τ) (Cert.ReferenceIdeal.main (F := Ideal)))
      ⟨m, fun _ => 0, ρ⟩ (fun r => ∀ c : Dev nD,
        r.2.mem ((c.tc : Thread nD τ).loc main_v22)
          = Cert.Att.attnArr (m ((c.tc : Thread nD τ).loc main_arg0)) (m ((c.tc : Thread nD τ).loc main_arg1))
              (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run Cert.ReferenceIdeal.defs _ _).mono
    (fun _ h c => ⟨(h c).1.trans ((Cert.ReferenceIdeal.Read.val_main_v22_eq (F := Ideal) m c).trans
        (ref_eq_attn _ _ _ _)), (h c).2⟩)
    (Cert.ReferenceIdeal.Value.run (F := Ideal) m ρ)

end Cert.Att.Ref

end
-- ==== Proof.Frames.lean ====
/-
  Four of the five claims. Each of the three programs runs to the end from any memory satisfying the precondition,
  faults nowhere and leaves its argument arrays as launched: for the two kernel programs this is the run of their two
  pipelined regions between the host reshapes and conversions, read at the argument arrays; for the reference it is its
  run as a list of host operations. And the idealized kernel program differs from the printed one only by reading the
  mask's fill as minus infinity, which is what the one entry of the idealization's ledger states.
-/
import proofs.«105703_j60739427500253_2_alg».proof.Defs
import proofs.«105703_j60739427500253_2_alg».proof.Proof.Gen.Kernel
import proofs.«105703_j60739427500253_2_alg».proof.Proof.Gen.KernelIdeal
import proofs.«105703_j60739427500253_2_alg».proof.Proof.Gen.ReferenceIdeal
import proofs.«105703_j60739427500253_2_alg».proof.Proof.Gen.Pre_finite_inputs
import proofs.«105703_j60739427500253_2_alg».proof.Proof.K.Run
import proofs.«105703_j60739427500253_2_alg».proof.Proof.KI.Run
import proofs.«105703_j60739427500253_2_alg».proof.Proof.RefSide

noncomputable section

namespace Cert.Proof.Parts

open Idealize.ShloMosaic Idealize.SL.Sem

theorem frame_kernel : Cert.frame_Kernel := fun m ρ _ =>
  (θ_run (Cert.Kernel.defs (F := Bits)) _ _).mono (fun _ h c => (h c).2) (Cert.Kernel.Hand.run_main (F := Bits) m ρ)

theorem frame_kernelIdeal : Cert.frame_KernelIdeal := fun m ρ _ =>
  (θ_run (Cert.KernelIdeal.defs (F := Ideal)) _ _).mono (fun _ h c => (h c).2) (Cert.KernelIdeal.Hand.run_main (F := Ideal) m ρ)

theorem frame_reference : Cert.frame_ReferenceIdeal := fun m ρ _ =>
  (θ_run (Cert.ReferenceIdeal.defs (F := Ideal)) _ _).mono (fun _ h c => (h c).2) (Cert.Att.Ref.ref_run m ρ)

/-- The ledger's one entry: the mask's fill word is named, and the name denotes minus infinity. -/
theorem preserves : Cert.preserves_Kernel_KernelIdeal :=
  IdealRules.named_const.statement Cert.KernelIdeal.κ "neg_big" .f32 0xFF333332#32 ⊥ rfl

end Cert.Proof.Parts

end
-- ==== Proof.Finite.lean ====
/-
  The precondition, decoded.

  The precondition says of each of the four argument arrays that every entry's absolute value is below plus
  infinity: it is the conjunction of four all-entries tests, each a reduction by `and` from one over every axis of
  the entrywise comparison `|x| < +∞`. On the extended reals an entry whose absolute value is below plus infinity is
  neither infinity (the absolute value of either is plus infinity), so it is a real number.
-/
import proofs.«105703_j60739427500253_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Att.Fin

open Idealize.ShloMosaic Cert.Pre_finite_inputs

/-- The scalar shape has one index. -/
instance : Subsingleton S_.Idx := ⟨fun a b => funext fun d => d.elim0⟩

/-- The word `0x7F800000` is plus infinity. -/
theorem ofBits_pos_inf : Ideal.ofBits .f32 0x7F800000#32 = (⊤ : EReal) := by
  simp [Ideal.ofBits, Ideal.ieee]

/-- An extended real whose absolute value is below plus infinity is a real. -/
theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

/-- An entry that passes the comparison `|x| < +∞` against an array holding the word of plus infinity everywhere is
    a real. -/
theorem real_of_entry {s : Shape} (x top : FVec Ideal s .f32) (htop : ∀ i, top i = Ideal.ofBits .f32 0x7F800000#32)
    (i : s.Idx) (h : cmpf .olt (Host.absf x) top i = 1#1) : ∃ r : ℝ, x i = (r : EReal) := by
  have h' : Ideal.cmp .olt (max (x i) (-(x i))) (top i) = 1#1 := h
  rw [htop, ofBits_pos_inf] at h'
  exact real_of_abs_lt_top _ h'

variable [Cert.Pre_finite_inputs.Facts]
open Cert.Pre_finite_inputs.Facts

/-- Under the precondition every entry of each of the four argument arrays is a real number. -/
theorem real_of_pre (x0 : FVec Ideal S4x4096x1024 .f32) (x1 x2 x3 : FVec Ideal S1024x1024 .f32)
    (h : Cert.Pre_finite_inputs.fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  refine ⟨fun i => ?_, fun i => ?_, fun i => ?_, fun i => ?_⟩
  · exact real_of_entry x0 _ (fun _ => rfl) i (Host.reduce_andi_all _ _ _ _ _ e0 i)
  · exact real_of_entry x1 _ (fun _ => rfl) i (Host.reduce_andi_all _ _ _ _ _ e1 i)
  · exact real_of_entry x2 _ (fun _ => rfl) i (Host.reduce_andi_all _ _ _ _ _ e2 i)
  · exact real_of_entry x3 _ (fun _ => rfl) i (Host.reduce_andi_all _ _ _ _ _ e3 i)

end Cert.Att.Fin

end
-- ==== Proof.KI.FlashGrid.lean ====
/-
  The attention region's grid, point by point: point number `n` (0 ≤ n < 128) is batch `n / 32`, query tile
  `(n / 8) % 4`, key tile `n % 8`; the body's three conditions in those terms; which block of its array each window
  holds there — the query block and the output block are rows `1024 · (query tile)` onward of the batch, the key and
  value blocks rows `512 · min (key tile, 2 · (query tile) + 1)` onward —; and a block's entry as an entry of the array.
-/
import proofs.«105703_j60739427500253_2_alg».proof.Proof.KI.FlashDat
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

/-! ## The grid -/

theorem N1 : cfg1.N = 128 := N_1

/-- A point's coordinates from its number. -/
theorem coords_val : ∀ t : Fin cfg1.N, ((grid1.coords t) 0).val = t.val / 32 ∧ ((grid1.coords t) 1).val = (t.val / 8) % 4 ∧ ((grid1.coords t) 2).val = t.val % 8 :=
  (by decide +kernel : ∀ t : Fin grid1.N, ((grid1.coords t) 0).val = t.val / 32 ∧ ((grid1.coords t) 1).val = (t.val / 8) % 4 ∧ ((grid1.coords t) 2).val = t.val % 8)

/-- The body's conditions from the point's number. -/
theorem atFirstKey_iff : ∀ t : Fin cfg1.N, atFirstKey (grid1.coords t) ↔ t.val % 8 = 0 :=
  (by decide +kernel : ∀ t : Fin grid1.N, atFirstKey (grid1.coords t) ↔ t.val % 8 = 0)
theorem keyLive_iff : ∀ t : Fin cfg1.N, keyLive (grid1.coords t) ↔ t.val % 8 ≤ 2 * ((t.val / 8) % 4) + 1 :=
  (by decide +kernel : ∀ t : Fin grid1.N, keyLive (grid1.coords t) ↔ t.val % 8 ≤ 2 * ((t.val / 8) % 4) + 1)
theorem atLastKey_iff : ∀ t : Fin cfg1.N, atLastKey (grid1.coords t) ↔ t.val % 8 = 7 :=
  (by decide +kernel : ∀ t : Fin grid1.N, atLastKey (grid1.coords t) ↔ t.val % 8 = 7)

/-- The windows' block indices from the point's number. -/
theorem index0 : ∀ t : Fin cfg1.N, win1_0.index t (0 : Fin 3) = t.val / 32 ∧ win1_0.index t (1 : Fin 3) = (t.val / 8) % 4 ∧ win1_0.index t (2 : Fin 3) = 0 :=
  (by decide +kernel : ∀ t : Fin grid1.N, win1_0.index t (0 : Fin 3) = t.val / 32 ∧ win1_0.index t (1 : Fin 3) = (t.val / 8) % 4 ∧ win1_0.index t (2 : Fin 3) = 0)
theorem index1 : ∀ t : Fin cfg1.N, win1_1.index t (0 : Fin 3) = t.val / 32 ∧ win1_1.index t (1 : Fin 3) = min (t.val % 8) (2 * ((t.val / 8) % 4) + 1) ∧ win1_1.index t (2 : Fin 3) = 0 :=
  (by decide +kernel : ∀ t : Fin grid1.N, win1_1.index t (0 : Fin 3) = t.val / 32 ∧ win1_1.index t (1 : Fin 3) = min (t.val % 8) (2 * ((t.val / 8) % 4) + 1) ∧ win1_1.index t (2 : Fin 3) = 0)
theorem index2 : ∀ t : Fin cfg1.N, win1_2.index t (0 : Fin 3) = t.val / 32 ∧ win1_2.index t (1 : Fin 3) = min (t.val % 8) (2 * ((t.val / 8) % 4) + 1) ∧ win1_2.index t (2 : Fin 3) = 0 :=
  (by decide +kernel : ∀ t : Fin grid1.N, win1_2.index t (0 : Fin 3) = t.val / 32 ∧ win1_2.index t (1 : Fin 3) = min (t.val % 8) (2 * ((t.val / 8) % 4) + 1) ∧ win1_2.index t (2 : Fin 3) = 0)
theorem index3 : ∀ t : Fin cfg1.N, win1_3.index t (0 : Fin 3) = t.val / 32 ∧ win1_3.index t (1 : Fin 3) = (t.val / 8) % 4 ∧ win1_3.index t (2 : Fin 3) = 0 :=
  (by decide +kernel : ∀ t : Fin grid1.N, win1_3.index t (0 : Fin 3) = t.val / 32 ∧ win1_3.index t (1 : Fin 3) = (t.val / 8) % 4 ∧ win1_3.index t (2 : Fin 3) = 0)

/-! ## A block's entry is an entry of the array -/

section Blocks
variable (V : (c : Dev nD) → (b : Ref sig .tc) → Buf (Elt F) ((c : Thread nD τ).loc b)) (c : Dev nD)

/-- The query block at point `t`: row `r` of the block is row `1024 · (query tile) + r` of batch `t / 32`. -/
theorem qblk_apply (t : Fin cfg1.N) (r : Fin 1024) (e : Fin 1024) (b : Fin 4) (s : Fin 4096)
    (hb : b.val = t.val / 32) (hs : s.val = 1024 * ((t.val / 8) % 4) + r.val) :
    iblk1 V c 0 t (ix3 (0 : Fin 1) r e) = V c main_v5 (ix3 b s e) := by
  obtain ⟨e0, e1, e2⟩ := index0 t
  show V c main_v5 (((cfg1.win 0).blk t).view.emb (ix3 (0 : Fin 1) r e)) = V c main_v5 (ix3 b s e)
  refine congrArg (V c main_v5) ?_
  funext a; apply Fin.ext
  match a with
  | ⟨0, _⟩ => show win1_0.index t (0 : Fin 3) * 1 + 1 * (0 : Fin 1).val = b.val; rw [e0, hb]; simp
  | ⟨1, _⟩ => show win1_0.index t (1 : Fin 3) * 1024 + 1 * r.val = s.val; rw [e1, hs]; omega
  | ⟨2, _⟩ => show win1_0.index t (2 : Fin 3) * 1024 + 1 * e.val = e.val; rw [e2]; omega

/-- The key block at point `t`: row `k` of the block is row `512 · min (key tile, 2 · (query tile) + 1) + k` of the batch. -/
theorem kblk_apply (t : Fin cfg1.N) (k : Fin 512) (e : Fin 1024) (b : Fin 4) (s : Fin 4096)
    (hb : b.val = t.val / 32) (hs : s.val = 512 * min (t.val % 8) (2 * ((t.val / 8) % 4) + 1) + k.val) :
    iblk1 V c 1 t (ix3 (0 : Fin 1) k e) = V c main_v6 (ix3 b s e) := by
  obtain ⟨e0, e1, e2⟩ := index1 t
  show V c main_v6 (((cfg1.win 1).blk t).view.emb (ix3 (0 : Fin 1) k e)) = V c main_v6 (ix3 b s e)
  refine congrArg (V c main_v6) ?_
  funext a; apply Fin.ext
  match a with
  | ⟨0, _⟩ => show win1_1.index t (0 : Fin 3) * 1 + 1 * (0 : Fin 1).val = b.val; rw [e0, hb]; simp
  | ⟨1, _⟩ => show win1_1.index t (1 : Fin 3) * 512 + 1 * k.val = s.val; rw [e1, hs]; omega
  | ⟨2, _⟩ => show win1_1.index t (2 : Fin 3) * 1024 + 1 * e.val = e.val; rw [e2]; omega

/-- The value block likewise. -/
theorem vblk_apply (t : Fin cfg1.N) (k : Fin 512) (e : Fin 1024) (b : Fin 4) (s : Fin 4096)
    (hb : b.val = t.val / 32) (hs : s.val = 512 * min (t.val % 8) (2 * ((t.val / 8) % 4) + 1) + k.val) :
    iblk1 V c 2 t (ix3 (0 : Fin 1) k e) = V c main_v7 (ix3 b s e) := by
  obtain ⟨e0, e1, e2⟩ := index2 t
  show V c main_v7 (((cfg1.win 2).blk t).view.emb (ix3 (0 : Fin 1) k e)) = V c main_v7 (ix3 b s e)
  refine congrArg (V c main_v7) ?_
  funext a; apply Fin.ext
  match a with
  | ⟨0, _⟩ => show win1_2.index t (0 : Fin 3) * 1 + 1 * (0 : Fin 1).val = b.val; rw [e0, hb]; simp
  | ⟨1, _⟩ => show win1_2.index t (1 : Fin 3) * 512 + 1 * k.val = s.val; rw [e1, hs]; omega
  | ⟨2, _⟩ => show win1_2.index t (2 : Fin 3) * 1024 + 1 * e.val = e.val; rw [e2]; omega

end Blocks

end Cert.KernelIdeal.HandValue

end
-- ==== Proof.LibWholeBuffer.lean ====
/-
  Loads and stores through the rectangle that is a buffer's whole shape (all offsets zero).
  A vector load of the whole shape through a whole memref reads the memref's contents; after a sequence of
  stores whose LAST one fills the whole shape, the buffer reads that store's payload, whatever was stored or held
  before; and a whole-shape load issued after such stores reads that payload too. These are the three facts a
  kernel body that keeps an accumulator in a scratch buffer (load all, compute, store all) is read with.
-/
import Idealize.ShloMosaic.Lib.Pipeline.Frame
import Idealize.ShloMosaic.Lib.Pipeline.FrameBody
import Idealize.ShloMosaic.Lib.Pipeline.Value

namespace Idealize.ShloMosaic.WholeBuffer

variable {sig : RefSig} {Val : EltTy → Type} {κ : Kind} {sp : Space} {S : Shape} {e : EltTy}

/-- A load of the whole shape through a whole memref held at the raw contents that read `X` reads `X`. -/
theorem readAt_whole {m : Memref sig κ sp S e} (h : m.IsWhole) {off : Fin S.rank → ℕ} (hz : off = fun _ => 0)
    (inb : ∀ a, off a + S.size a ≤ S.size a) (X : S.Idx → Val e) :
    View.readAt Val m.view (Rect.unit off S.size inb).toLoadRect (h.unread X) = X := by
  rw [View.readAt_eq_ld, h.read_unread, View.ld_unit_zero hz]

/-- After stores the last of which fills the whole shape with `w`, the view reads `w`. -/
theorem read_writes_whole [∀ e, Nonempty (Val e)] (v : View sig κ sp S e) (f : v.ty.Contents Val) {off : Fin S.rank → ℕ}
    (hz : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.Mem.head _, View.mem_set_unit_zero hz inb y⟩),
    View.canon_cons_unit_zero hz]

/-- A whole-shape load issued after stores the last of which filled the whole shape with `w` reads `w`. -/
theorem readCov_whole [∀ e, Nonempty (Val e)] (v : View sig κ sp S e) {off : Fin S.rank → ℕ}
    (hz : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.Mem.head _, View.mem_set_unit_zero hz inb y⟩),
    View.canon_cons_unit_zero hz, View.ld_unit_zero hz]

/-- The zero offsets of a rank-2 rectangle, as the printed programs spell them. -/
theorem zero_off2 : (![0, 0] : Fin 2 → ℕ) = fun _ => 0 := by funext a; fin_cases a <;> rfl

end Idealize.ShloMosaic.WholeBuffer
-- ==== Proof.KI.FlashStats.lean ====
/-
  The statistics the attention kernel leaves at each kind of grid point, as the body's own arithmetic: every store and
  every load of the body goes through the whole of its buffer, so a buffer reads as the last value stored into it and a
  load reads what the buffer held; the running maximum, the running denominator and the accumulator after a point are
  therefore the body's update of what they were before it (of the reset values, at a first key tile), and the output
  block at a last key tile is the accumulator over the denominator.
-/
import proofs.«105703_j60739427500253_2_alg».proof.Proof.KI.FlashDat
import proofs.«105703_j60739427500253_2_alg».proof.Proof.LibWholeBuffer

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a rank-3 rectangle, as the printed programs spell them. -/
theorem zero_off3 : (![0, 0, 0] : Fin 3 → ℕ) = fun _ => 0 := by funext a; fin_cases a <;> rfl

/-- A whole load of each scratch buffer, held at the contents that read `X`, reads `X`. -/
theorem readAt_scM (X : Vec F S1024x1 .f32) :
    View.readAt (Elt F) (View.whole cc1_scratch0 : View sig .tc .vmem S1024x1 .f32) (Rect.unit (s := S1024x1) ![0, 0] S1024x1.size inb_S1024x1_S1024x1_0_0).toLoadRect ((Memref.isWhole_whole cc1_scratch0).unread X) = X :=
  Idealize.ShloMosaic.WholeBuffer.readAt_whole (m := scM) (Memref.isWhole_whole _) Idealize.ShloMosaic.WholeBuffer.zero_off2 _ X
theorem readAt_scL (X : Vec F S1024x1 .f32) :
    View.readAt (Elt F) (View.whole cc1_scratch1 : View sig .tc .vmem S1024x1 .f32) (Rect.unit (s := S1024x1) ![0, 0] S1024x1.size inb_S1024x1_S1024x1_0_0).toLoadRect ((Memref.isWhole_whole cc1_scratch1).unread X) = X :=
  Idealize.ShloMosaic.WholeBuffer.readAt_whole (m := scL) (Memref.isWhole_whole _) Idealize.ShloMosaic.WholeBuffer.zero_off2 _ X
theorem readAt_scA (X : Vec F S1024x1024 .f32) :
    View.readAt (Elt F) (View.whole cc1_scratch2 : View sig .tc .vmem S1024x1024 .f32) (Rect.unit (s := S1024x1024) ![0, 0] S1024x1024.size inb_S1024x1024_S1024x1024_0_0).toLoadRect ((Memref.isWhole_whole cc1_scratch2).unread X) = X :=
  Idealize.ShloMosaic.WholeBuffer.readAt_whole (m := scA) (Memref.isWhole_whole _) Idealize.ShloMosaic.WholeBuffer.zero_off2 _ X

section Stats
variable (V : (c : Dev nD) → (b : Ref sig .tc) → Buf (Elt F) ((c : Thread nD τ).loc b))

/-- The body's update of statistics `(M, L, A)` by the point's key tile. -/
def foldStats (c : Dev nD) (t : Fin cfg1.N) (s : Stats F) : Stats F :=
    (k1_pay5 (k1_pay8 (BitVec.ofNat 32 ((grid1.coords t) 1).val) (BitVec.ofNat 32 ((grid1.coords t) 2).val) (iblk1 V c 0 t) (iblk1 V c 1 t) s.1),
     k1_pay11 (BitVec.ofNat 32 ((grid1.coords t) 1).val) (BitVec.ofNat 32 ((grid1.coords t) 2).val) (iblk1 V c 0 t) (iblk1 V c 1 t) s.1 s.1 s.2.1,
     k1_pay4 (k1_pay10 (BitVec.ofNat 32 ((grid1.coords t) 1).val) (BitVec.ofNat 32 ((grid1.coords t) 2).val) (iblk1 V c 0 t) (iblk1 V c 1 t) s.1) (k1_pay12 (BitVec.ofNat 32 ((grid1.coords t) 1).val) (BitVec.ofNat 32 ((grid1.coords t) 2).val) (iblk1 V c 0 t) (iblk1 V c 1 t) s.1 s.1 s.2.2) (iblk1 V c 2 t))

/-- The reset statistics: maximum minus infinity, denominator and accumulator zero. -/
def resetStats : Stats F := (k1_pay1 (F := F), k1_pay2 (F := F), k1_pay3 (F := F))

set_option maxHeartbeats 2000000 in
theorem statsFold_eq (c : Dev nD) (t : Fin cfg1.N) (h1 : ¬atFirstKey (grid1.coords t)) (h2 : keyLive (grid1.coords t)) (h3 : ¬atLastKey (grid1.coords t)) (s : Stats F) :
    statsFold V c t h1 h2 h3 s = foldStats V c t s := by
  unfold statsFold foldStats flashRun_fold; dsimp only
  sl_unfold_words
  simp only [Idealize.ShloMosaic.WholeBuffer.read_writes_whole (S := S1024x1) _ _ Idealize.ShloMosaic.WholeBuffer.zero_off2, Idealize.ShloMosaic.WholeBuffer.read_writes_whole (S := S1024x1024) _ _ Idealize.ShloMosaic.WholeBuffer.zero_off2, Idealize.ShloMosaic.WholeBuffer.read_writes_whole (S := S1x1024x1024) _ _ zero_off3,
    Idealize.ShloMosaic.WholeBuffer.readAt_whole (S := S1024x1) _ Idealize.ShloMosaic.WholeBuffer.zero_off2, Idealize.ShloMosaic.WholeBuffer.readAt_whole (S := S1024x1024) _ Idealize.ShloMosaic.WholeBuffer.zero_off2, Idealize.ShloMosaic.WholeBuffer.readAt_whole (S := S1x1024x1024) _ zero_off3, Idealize.ShloMosaic.WholeBuffer.readAt_whole (S := S1x512x1024) _ zero_off3,
    Idealize.ShloMosaic.WholeBuffer.readCov_whole (S := S1024x1) _ Idealize.ShloMosaic.WholeBuffer.zero_off2, Idealize.ShloMosaic.WholeBuffer.readCov_whole (S := S1024x1024) _ Idealize.ShloMosaic.WholeBuffer.zero_off2]
  try erw [readAt_scM]
  try erw [readAt_scL]
  try erw [readAt_scA]
  try rfl

set_option maxHeartbeats 2000000 in
theorem statsFoldLast_eq (c : Dev nD) (t : Fin cfg1.N) (h1 : ¬atFirstKey (grid1.coords t)) (h2 : keyLive (grid1.coords t)) (h3 : atLastKey (grid1.coords t)) (s : Stats F) :
    statsFoldLast V c t h1 h2 h3 s = foldStats V c t s := by
  unfold statsFoldLast foldStats flashRun_foldLast; dsimp only
  sl_unfold_words
  simp only [Idealize.ShloMosaic.WholeBuffer.read_writes_whole (S := S1024x1) _ _ Idealize.ShloMosaic.WholeBuffer.zero_off2, Idealize.ShloMosaic.WholeBuffer.read_writes_whole (S := S1024x1024) _ _ Idealize.ShloMosaic.WholeBuffer.zero_off2, Idealize.ShloMosaic.WholeBuffer.read_writes_whole (S := S1x1024x1024) _ _ zero_off3,
    Idealize.ShloMosaic.WholeBuffer.readAt_whole (S := S1024x1) _ Idealize.ShloMosaic.WholeBuffer.zero_off2, Idealize.ShloMosaic.WholeBuffer.readAt_whole (S := S1024x1024) _ Idealize.ShloMosaic.WholeBuffer.zero_off2, Idealize.ShloMosaic.WholeBuffer.readAt_whole (S := S1x1024x1024) _ zero_off3, Idealize.ShloMosaic.WholeBuffer.readAt_whole (S := S1x512x1024) _ zero_off3,
    Idealize.ShloMosaic.WholeBuffer.readCov_whole (S := S1024x1) _ Idealize.ShloMosaic.WholeBuffer.zero_off2, Idealize.ShloMosaic.WholeBuffer.readCov_whole (S := S1024x1024) _ Idealize.ShloMosaic.WholeBuffer.zero_off2]
  try erw [readAt_scM]
  try erw [readAt_scL]
  try erw [readAt_scA]
  try rfl

set_option maxHeartbeats 2000000 in
theorem statsFirst_eq (c : Dev nD) (t : Fin cfg1.N) (h1 : atFirstKey (grid1.coords t)) :
    statsFirst V c t h1 = foldStats V c t (resetStats (F := F)) := by
  unfold statsFirst foldStats resetStats flashRun_first; dsimp only
  sl_unfold_words
  simp only [Idealize.ShloMosaic.WholeBuffer.read_writes_whole (S := S1024x1) _ _ Idealize.ShloMosaic.WholeBuffer.zero_off2, Idealize.ShloMosaic.WholeBuffer.read_writes_whole (S := S1024x1024) _ _ Idealize.ShloMosaic.WholeBuffer.zero_off2, Idealize.ShloMosaic.WholeBuffer.read_writes_whole (S := S1x1024x1024) _ _ zero_off3,
    Idealize.ShloMosaic.WholeBuffer.readAt_whole (S := S1024x1) _ Idealize.ShloMosaic.WholeBuffer.zero_off2, Idealize.ShloMosaic.WholeBuffer.readAt_whole (S := S1024x1024) _ Idealize.ShloMosaic.WholeBuffer.zero_off2, Idealize.ShloMosaic.WholeBuffer.readAt_whole (S := S1x1024x1024) _ zero_off3, Idealize.ShloMosaic.WholeBuffer.readAt_whole (S := S1x512x1024) _ zero_off3,
    Idealize.ShloMosaic.WholeBuffer.readCov_whole (S := S1024x1) _ Idealize.ShloMosaic.WholeBuffer.zero_off2, Idealize.ShloMosaic.WholeBuffer.readCov_whole (S := S1024x1024) _ Idealize.ShloMosaic.WholeBuffer.zero_off2]
  try erw [readAt_scM]
  try erw [readAt_scL]
  try erw [readAt_scA]
  try rfl

set_option maxHeartbeats 2000000 in
theorem outFoldLast_eq (c : Dev nD) (t : Fin cfg1.N) (h1 : ¬atFirstKey (grid1.coords t)) (h2 : keyLive (grid1.coords t)) (h3 : atLastKey (grid1.coords t)) (s : Stats F) :
    outFoldLast V c t h1 h2 h3 s = k1_pay6 (foldStats V c t s).2.2 (foldStats V c t s).2.1 := by
  unfold outFoldLast foldStats flashRun_foldLast; dsimp only
  sl_unfold_words
  simp only [Idealize.ShloMosaic.WholeBuffer.read_writes_whole (S := S1024x1) _ _ Idealize.ShloMosaic.WholeBuffer.zero_off2, Idealize.ShloMosaic.WholeBuffer.read_writes_whole (S := S1024x1024) _ _ Idealize.ShloMosaic.WholeBuffer.zero_off2, Idealize.ShloMosaic.WholeBuffer.read_writes_whole (S := S1x1024x1024) _ _ zero_off3,
    Idealize.ShloMosaic.WholeBuffer.readAt_whole (S := S1024x1) _ Idealize.ShloMosaic.WholeBuffer.zero_off2, Idealize.ShloMosaic.WholeBuffer.readAt_whole (S := S1024x1024) _ Idealize.ShloMosaic.WholeBuffer.zero_off2, Idealize.ShloMosaic.WholeBuffer.readAt_whole (S := S1x1024x1024) _ zero_off3, Idealize.ShloMosaic.WholeBuffer.readAt_whole (S := S1x512x1024) _ zero_off3,
    Idealize.ShloMosaic.WholeBuffer.readCov_whole (S := S1024x1) _ Idealize.ShloMosaic.WholeBuffer.zero_off2, Idealize.ShloMosaic.WholeBuffer.readCov_whole (S := S1024x1024) _ Idealize.ShloMosaic.WholeBuffer.zero_off2]
  try erw [readAt_scM]
  try erw [readAt_scL]
  try erw [readAt_scA]
  try rfl

set_option maxHeartbeats 2000000 in
theorem outLast_eq (c : Dev nD) (t : Fin cfg1.N) (h1 : ¬atFirstKey (grid1.coords t)) (h2 : ¬keyLive (grid1.coords t)) (h3 : atLastKey (grid1.coords t)) (s : Stats F) :
    outLast V c t h1 h2 h3 s = k1_pay6 s.2.2 s.2.1 := by
  unfold outLast flashRun_last; dsimp only
  sl_unfold_words
  simp only [Idealize.ShloMosaic.WholeBuffer.read_writes_whole (S := S1024x1) _ _ Idealize.ShloMosaic.WholeBuffer.zero_off2, Idealize.ShloMosaic.WholeBuffer.read_writes_whole (S := S1024x1024) _ _ Idealize.ShloMosaic.WholeBuffer.zero_off2, Idealize.ShloMosaic.WholeBuffer.read_writes_whole (S := S1x1024x1024) _ _ zero_off3,
    Idealize.ShloMosaic.WholeBuffer.readAt_whole (S := S1024x1) _ Idealize.ShloMosaic.WholeBuffer.zero_off2, Idealize.ShloMosaic.WholeBuffer.readAt_whole (S := S1024x1024) _ Idealize.ShloMosaic.WholeBuffer.zero_off2, Idealize.ShloMosaic.WholeBuffer.readAt_whole (S := S1x1024x1024) _ zero_off3, Idealize.ShloMosaic.WholeBuffer.readAt_whole (S := S1x512x1024) _ zero_off3,
    Idealize.ShloMosaic.WholeBuffer.readCov_whole (S := S1024x1) _ Idealize.ShloMosaic.WholeBuffer.zero_off2, Idealize.ShloMosaic.WholeBuffer.readCov_whole (S := S1024x1024) _ Idealize.ShloMosaic.WholeBuffer.zero_off2]
  try erw [readAt_scM]
  try erw [readAt_scL]
  try erw [readAt_scA]
  try rfl

end Stats

end Cert.KernelIdeal.Hand

end
-- ==== Proof.KI.FlashOut.lean ====
/-
  The output block at a last key tile, generically in the float instance: whether or not the last key tile is folded
  in, what the body stores is the statistics' accumulator over their denominator at that point.
-/
import proofs.«105703_j60739427500253_2_alg».proof.Proof.KI.FlashStats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Out
variable (V : (c : Dev nD) → (b : Ref sig .tc) → Buf (Elt F) ((c : Thread nD τ).loc b))

theorem outAt_eq (c : Dev nD) (t : Fin cfg1.N) (h1 : ¬atFirstKey (grid1.coords t)) (h3 : atLastKey (grid1.coords t)) :
    outAt V c t.val t.isLt = k1_pay6 (scAt V c t.val t.isLt).2.2 (scAt V c t.val t.isLt).2.1 := by
  by_cases h2 : keyLive (grid1.coords t)
  · rw [outAt_foldLast V c t h1 h2 h3, outFoldLast_eq, scAt_foldLast V c t h1 h2 h3, statsFoldLast_eq]
  · rw [outAt_last V c t h1 h2 h3, outLast_eq, scAt_skip V c t h1 h2]

/-- The statistics after a point, in one equation per kind of point. -/
theorem scAt_eq_first (c : Dev nD) (t : Fin cfg1.N) (h1 : atFirstKey (grid1.coords t)) :
    scAt V c t.val t.isLt = foldStats V c t (resetStats (F := F)) := by
  rw [scAt_first V c t h1, statsFirst_eq]

theorem scAt_eq_live (c : Dev nD) (t : Fin cfg1.N) (h1 : ¬atFirstKey (grid1.coords t)) (h2 : keyLive (grid1.coords t)) :
    scAt V c t.val t.isLt = foldStats V c t (scAt V c (t.val - 1) (Nat.lt_of_le_of_lt (Nat.sub_le _ _) t.isLt)) := by
  by_cases h3 : atLastKey (grid1.coords t)
  · rw [scAt_foldLast V c t h1 h2 h3, statsFoldLast_eq]
  · rw [scAt_fold V c t h1 h2 h3, statsFold_eq]

end Out

end Cert.KernelIdeal.Hand

end
-- ==== Proof.LibOnlineSoftmax.lean ====
/-
  Online softmax on the extended reals.

  A softmax-weighted sum over a row of logits can be computed in one pass over tiles of the row, keeping a
  running maximum "m", a running denominator "l" and a running weighted accumulator "acc": when a tile raises
  the maximum from "m" to "m'", the old denominator and accumulator are multiplied by "exp (m - m')", because
  "exp (m - m') * exp (z - m) = exp (z - m')".  After the last tile "acc / l" is the softmax-weighted sum taken
  with the maximum of the whole row.

  Everything is stated on Mathlib's extended reals with the idealised exponential ("exp ⊥ = 0", so a logit of
  minus infinity has weight zero) and the idealised division.  Multiplication does not distribute over addition
  on all of the extended reals, so every step that needs distributivity is carried out on real numbers: the
  weights "exp (z - m)" with "z" a real or minus infinity and "m" a real are real numbers, and the sums are
  coercions of real sums.

  Contents: (A) finite sums of products of reals are reals; (B) a scale factor "1/c" applied to one side of a
  dot product equals dividing the dot product by "c"; (C) the rescaling identities for the exponential;
  (D) the one-pass recurrence and the theorem that it computes the softmax-weighted sum; (E) re-indexing a
  row of 4096 entries as 8 tiles of 512.
-/
import Mathlib.Data.EReal.Inv
import Mathlib.Data.Fintype.BigOperators
import Mathlib.Data.Finset.Lattice.Fold
import Mathlib.Data.Finset.Lattice.Prod
import Mathlib.Data.Finset.Fold
import Mathlib.Algebra.Order.BigOperators.Group.Finset
import Mathlib.Analysis.SpecialFunctions.Exp
import Idealize.ShloMosaic.PureOps.Ideal

noncomputable section

namespace OnlineSoftmax

open Idealize.ShloMosaic
open scoped BigOperators

/-! ### Coercions and folds -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Folding the maximum from the bottom element is the finite supremum. -/
theorem fold_max_bot_eq_sup {ι : Type*} (s : Finset ι) (f : ι → EReal) :
    s.fold max ⊥ f = s.sup f := by
  apply le_antisymm
  · rw [Finset.fold_max_le]
    exact ⟨bot_le, fun x hx => Finset.le_sup hx⟩
  · rw [Finset.sup_le_iff]
    intro x hx
    rw [Finset.le_fold_max]
    exact Or.inr ⟨x, hx, le_rfl⟩

/-! ### (A) Finiteness closure -/

/-- A finite sum of products of two families of reals is the coercion of the real sum of products. -/
theorem sum_mul_eq_coe {ι : Type*} (s : Finset ι) (f g : ι → EReal)
    (hf : ∀ i ∈ s, ∃ r : ℝ, f i = (r : EReal)) (hg : ∀ i ∈ s, ∃ r : ℝ, g i = (r : EReal)) :
    ∑ i ∈ s, f i * g i = ((∑ i ∈ s, (f i).toReal * (g i).toReal : ℝ) : EReal) := by
  rw [coe_sum]
  refine Finset.sum_congr rfl fun i hi => ?_
  obtain ⟨a, ha⟩ := hf i hi
  obtain ⟨b, hb⟩ := hg i hi
  rw [ha, hb, EReal.toReal_coe, EReal.toReal_coe, EReal.coe_mul]

/-- (A) A finite sum of products of two families each of whose members is a real is a real. -/
theorem isReal_sum_mul {ι : Type*} (s : Finset ι) (f g : ι → EReal)
    (hf : ∀ i ∈ s, ∃ r : ℝ, f i = (r : EReal)) (hg : ∀ i ∈ s, ∃ r : ℝ, g i = (r : EReal)) :
    ∃ r : ℝ, ∑ i ∈ s, f i * g i = (r : EReal) :=
  ⟨_, sum_mul_eq_coe s f g hf hg⟩

/-- (A), over a whole finite type. -/
theorem isReal_sum_mul_univ {ι : Type*} [Fintype ι] (f g : ι → EReal)
    (hf : ∀ i, ∃ r : ℝ, f i = (r : EReal)) (hg : ∀ i, ∃ r : ℝ, g i = (r : EReal)) :
    ∃ r : ℝ, ∑ i, f i * g i = (r : EReal) :=
  isReal_sum_mul Finset.univ f g (fun i _ => hf i) (fun i _ => hg i)

/-- A finite sum of reals is a real. -/
theorem isReal_sum {ι : Type*} (s : Finset ι) (f : ι → EReal)
    (hf : ∀ i ∈ s, ∃ r : ℝ, f i = (r : EReal)) : ∃ r : ℝ, ∑ i ∈ s, f i = (r : EReal) := by
  refine ⟨∑ i ∈ s, (f i).toReal, ?_⟩
  rw [coe_sum]
  refine Finset.sum_congr rfl fun i hi => ?_
  obtain ⟨a, ha⟩ := hf i hi
  rw [ha, EReal.toReal_coe]

/-! ### (B) The scale law -/

/-- (B) Scaling one factor of every product by the real "1/c" divides the sum of products by "c". -/
theorem sum_scale_mul_eq_div {ι : Type*} [Fintype ι] (a b : ι → EReal) (c : ℝ) (hc : c ≠ 0)
    (ha : ∀ i, ∃ r : ℝ, a i = (r : EReal)) (hb : ∀ i, ∃ r : ℝ, b i = (r : EReal)) :
    ∑ i, (a i * ((1 / c : ℝ) : EReal)) * b i = Ideal.div (∑ i, a i * b i) ((c : ℝ) : EReal) := by
  choose ra hra using ha
  choose rb hrb using hb
  obtain rfl : a = fun i => (ra i : EReal) := funext hra
  obtain rfl : b = fun i => (rb i : EReal) := funext hrb
  rw [Ideal.div_coe hc]
  simp only [← EReal.coe_mul]
  rw [← coe_sum, ← coe_sum, ← EReal.coe_mul, Finset.sum_mul]
  congr 1
  refine Finset.sum_congr rfl fun i _ => ?_
  ring

/-- (B) at the scale 32: the sum of "(a i * (1/32)) * b i" is the sum of "a i * b i" divided by 32. -/
theorem sum_scale32_mul_eq_div {ι : Type*} [Fintype ι] (a b : ι → EReal)
    (ha : ∀ i, ∃ r : ℝ, a i = (r : EReal)) (hb : ∀ i, ∃ r : ℝ, b i = (r : EReal)) :
    ∑ i, (a i * ((1 / 32 : ℝ) : EReal)) * b i = Ideal.div (∑ i, a i * b i) ((32 : ℝ) : EReal) :=
  sum_scale_mul_eq_div a b 32 (by norm_num) ha hb

/-! ### (C) Rescaling identities for the exponential -/

/-- The exponential of minus infinity less a real is zero. -/
theorem exp_bot_sub_coe (m : ℝ) : Ideal.exp ((⊥ : EReal) - (m : EReal)) = 0 := by
  rw [EReal.bot_sub, Ideal.exp_bot]

/-- The exponential of a real less itself is one. -/
theorem exp_coe_sub_self (m : ℝ) : Ideal.exp ((m : EReal) - (m : EReal)) = 1 := by
  rw [← EReal.coe_sub, sub_self, Ideal.exp_coe, Real.exp_zero, EReal.coe_one]

/-- The exponential of a difference of reals is the real exponential of the difference. -/
theorem exp_coe_sub_coe (r m : ℝ) :
    Ideal.exp ((r : EReal) - (m : EReal)) = ((Real.exp (r - m) : ℝ) : EReal) := by
  rw [← EReal.coe_sub, Ideal.exp_coe]

/-- (C) Rescaling: "exp (m0 - m1) * exp (z - m0) = exp (z - m1)" for reals "m0 m1" and "z" a real or
    minus infinity. -/
theorem exp_rescale (m0 m1 : ℝ) (z : EReal) (hz : z = ⊥ ∨ ∃ r : ℝ, z = (r : EReal)) :
    Ideal.exp ((m0 : EReal) - (m1 : EReal)) * Ideal.exp (z - (m0 : EReal)) =
      Ideal.exp (z - (m1 : EReal)) := by
  rcases hz with rfl | ⟨r, rfl⟩
  · rw [EReal.bot_sub, EReal.bot_sub, Ideal.exp_bot, mul_zero]
  · rw [exp_coe_sub_coe, exp_coe_sub_coe, exp_coe_sub_coe, ← EReal.coe_mul, ← Real.exp_add]
    have h : m0 - m1 + (r - m0) = r - m1 := by ring
    rw [h]

/-- The real weight "exp (x - m)" of a logit "x" against a real maximum "m". -/
def wt (x : EReal) (m : ℝ) : ℝ := (Ideal.exp (x - (m : EReal))).toReal

/-- A logit of minus infinity has weight zero. -/
theorem wt_bot (m : ℝ) : wt ⊥ m = 0 := by
  rw [wt, EReal.bot_sub, Ideal.exp_bot, EReal.toReal_zero]

/-- A real logit "r" has weight "exp (r - m)". -/
theorem wt_coe (r m : ℝ) : wt (r : EReal) m = Real.exp (r - m) := by
  rw [wt, exp_coe_sub_coe, EReal.toReal_coe]

/-- For a logit that is a real or minus infinity the exponential is the coercion of the real weight. -/
theorem exp_sub_coe_eq_wt {x : EReal} (hx : x = ⊥ ∨ ∃ r : ℝ, x = (r : EReal)) (m : ℝ) :
    Ideal.exp (x - (m : EReal)) = ((wt x m : ℝ) : EReal) := by
  rcases hx with rfl | ⟨r, rfl⟩
  · rw [wt_bot, EReal.bot_sub, Ideal.exp_bot, EReal.coe_zero]
  · rw [wt_coe, exp_coe_sub_coe]

/-- Weights are nonnegative. -/
theorem wt_nonneg {x : EReal} (hx : x = ⊥ ∨ ∃ r : ℝ, x = (r : EReal)) (m : ℝ) : 0 ≤ wt x m := by
  rcases hx with rfl | ⟨r, rfl⟩
  · rw [wt_bot]
  · rw [wt_coe]; exact (Real.exp_pos _).le

/-- Rescaling of real weights: "exp (m0 - m1) * wt x m0 = wt x m1". -/
theorem wt_rescale {x : EReal} (hx : x = ⊥ ∨ ∃ r : ℝ, x = (r : EReal)) (m0 m1 : ℝ) :
    Real.exp (m0 - m1) * wt x m0 = wt x m1 := by
  rcases hx with rfl | ⟨r, rfl⟩
  · rw [wt_bot, wt_bot, mul_zero]
  · rw [wt_coe, wt_coe, ← Real.exp_add]
    have h : m0 - m1 + (r - m0) = r - m1 := by ring
    rw [h]

/-! ### (D) The one-pass recurrence -/

/-- The running state: maximum, denominator, weighted accumulator. -/
structure St where
  /-- the running maximum -/
  m : EReal
  /-- the running denominator -/
  l : EReal
  /-- the running weighted accumulator -/
  acc : EReal

/-- The state before any tile: maximum minus infinity, denominator and accumulator zero. -/
def init : St := ⟨⊥, 0, 0⟩

/-- Processing one tile of logits "z" and values "v". -/
def step {w : ℕ} (z v : Fin w → EReal) (s : St) : St :=
  let m' := max s.m (Finset.univ.fold max ⊥ z)
  let a := Ideal.exp (s.m - m')
  ⟨m', a * s.l + ∑ c, Ideal.exp (z c - m'), a * s.acc + ∑ c, Ideal.exp (z c - m') * v c⟩

/-- The state after the first "j" tiles; a tile with "act" false is skipped. -/
def run {n w : ℕ} (z v : Fin n → Fin w → EReal) (act : Fin n → Bool) : ℕ → St
  | 0 => init
  | j + 1 =>
    if h : j < n then
      (if act ⟨j, h⟩ then step (z ⟨j, h⟩) (v ⟨j, h⟩) (run z v act j) else run z v act j)
    else run z v act j

section Run

variable {n w : ℕ} (z v : Fin n → Fin w → EReal) (act : Fin n → Bool)

/-- Before any tile the state is the initial one. -/
theorem run_zero : run z v act 0 = init := rfl

/-- A processed tile applies one step. -/
theorem run_succ_act (t : Fin n) (h : act t = true) :
    run z v act (t.val + 1) = step (z t) (v t) (run z v act t.val) := by
  rw [run, dif_pos t.isLt]
  simp only [Fin.eta, h, if_true]

/-- A skipped tile leaves the state unchanged. -/
theorem run_succ_not_act (t : Fin n) (h : act t = false) :
    run z v act (t.val + 1) = run z v act t.val := by
  rw [run, dif_pos t.isLt]
  simp only [Fin.eta, h, Bool.false_eq_true, if_false]

end Run

/-- One step on a state whose denominator and accumulator are reals, with the new maximum a real "m'" and
    the rescaling factor a real "ρ": the new state in real terms. -/
theorem step_eq {w : ℕ} (zt vt : Fin w → EReal) (s : St) (m' ρ lr ar : ℝ) (vr : Fin w → ℝ)
    (hzt : ∀ c, zt c = ⊥ ∨ ∃ r : ℝ, zt c = (r : EReal)) (hvt : ∀ c, vt c = (vr c : EReal))
    (hm : max s.m (Finset.univ.fold max ⊥ zt) = (m' : EReal))
    (hρ : Ideal.exp (s.m - (m' : EReal)) = (ρ : EReal))
    (hl : s.l = (lr : EReal)) (ha : s.acc = (ar : EReal)) :
    step zt vt s = ⟨(m' : EReal), ((ρ * lr + ∑ c, wt (zt c) m' : ℝ) : EReal),
      ((ρ * ar + ∑ c, wt (zt c) m' * vr c : ℝ) : EReal)⟩ := by
  have e1 : ∀ c, Ideal.exp (zt c - (m' : EReal)) = ((wt (zt c) m' : ℝ) : EReal) :=
    fun c => exp_sub_coe_eq_wt (hzt c) m'
  simp only [step, hm, hρ, hl, ha, e1, hvt, ← EReal.coe_mul, ← coe_sum, ← EReal.coe_add]

/-- The first "j" of "n" tiles. -/
def pre (n j : ℕ) : Finset (Fin n) := Finset.univ.filter fun i => i.val < j

/-- No tile precedes the first. -/
theorem pre_zero (n : ℕ) : pre n 0 = ∅ := by
  ext i; simp [pre]

/-- The first "j + 1" tiles are tile "j" together with the first "j". -/
theorem pre_succ {n : ℕ} (j : ℕ) (h : j < n) : pre n (j + 1) = insert ⟨j, h⟩ (pre n j) := by
  ext i
  simp only [pre, Finset.mem_filter, Finset.mem_univ, true_and, Finset.mem_insert, Fin.ext_iff]
  omega

/-- Tile "j" is not among the first "j". -/
theorem not_mem_pre_self {n : ℕ} (j : ℕ) (h : j < n) : (⟨j, h⟩ : Fin n) ∉ pre n j := by
  simp [pre]

/-- The first "n" tiles are all of them. -/
theorem pre_full (n : ℕ) : pre n n = Finset.univ := by
  ext i; simp [pre]

/-- (D) THE ONLINE-SOFTMAX THEOREM.  Logits are reals or minus infinity, values are reals, the first tile is
    processed and its first logit is a real, and a skipped tile is wholly minus infinity.  Then the
    accumulator over the denominator after all "n" tiles is the softmax-weighted sum of the values taken
    with the maximum "M" and the denominator "L" of the whole row. -/
theorem online_softmax {n w : ℕ} (z v : Fin n → Fin w → EReal) (act : Fin n → Bool)
    (hz : ∀ j c, z j c = ⊥ ∨ ∃ r : ℝ, z j c = (r : EReal))
    (hv : ∀ j c, ∃ r : ℝ, v j c = (r : EReal))
    (hn : 0 < n) (hw : 0 < w)
    (hact0 : act ⟨0, hn⟩ = true)
    (hz00 : ∃ r : ℝ, z ⟨0, hn⟩ ⟨0, hw⟩ = (r : EReal))
    (hmask : ∀ j, act j = false → ∀ c, z j c = ⊥) :
    Ideal.div (run z v act n).acc (run z v act n).l =
      ∑ p : Fin n × Fin w,
        Ideal.div
          (Ideal.exp (z p.1 p.2 - Finset.univ.fold max ⊥ (fun q : Fin n × Fin w => z q.1 q.2)))
          (∑ p' : Fin n × Fin w,
            Ideal.exp (z p'.1 p'.2 - Finset.univ.fold max ⊥ (fun q : Fin n × Fin w => z q.1 q.2)))
          * v p.1 p.2 := by
  classical
  choose vr hvr using hv
  have hztop : ∀ j c, z j c ≠ ⊤ := by
    intro j c
    rcases hz j c with h | ⟨r, h⟩
    · rw [h]; exact bot_ne_top
    · rw [h]; exact EReal.coe_ne_top r
  -- the maximum of one tile
  let T : Fin n → EReal := fun i => Finset.univ.sup (z i)
  have hTtop : ∀ i, T i < ⊤ := fun i =>
    (Finset.sup_lt_iff bot_lt_top).2 fun c _ => lt_top_iff_ne_top.2 (hztop i c)
  -- the invariant after "j + 1" tiles: the maximum is a real, equal to the maximum over the prefix, and the
  -- denominator and the accumulator are the prefix sums of the weights taken with that maximum
  have inv : ∀ j, j < n → ∃ mr lr ar : ℝ,
      run z v act (j + 1) = ⟨(mr : EReal), (lr : EReal), (ar : EReal)⟩ ∧
      (mr : EReal) = (pre n (j + 1)).sup T ∧
      lr = ∑ i ∈ pre n (j + 1), ∑ c, wt (z i c) mr ∧
      ar = ∑ i ∈ pre n (j + 1), ∑ c, wt (z i c) mr * vr i c := by
    intro j
    induction j with
    | zero =>
      intro _
      obtain ⟨r0, hr0⟩ := hz00
      have hT0bot : T ⟨0, hn⟩ ≠ ⊥ := by
        have h1 : z ⟨0, hn⟩ ⟨0, hw⟩ ≤ T ⟨0, hn⟩ :=
          Finset.le_sup (f := z ⟨0, hn⟩) (Finset.mem_univ _)
        rw [hr0] at h1
        exact ne_bot_of_le_ne_bot (EReal.coe_ne_bot r0) h1
      have hT0 : T ⟨0, hn⟩ = (((T ⟨0, hn⟩).toReal : ℝ) : EReal) :=
        (EReal.coe_toReal (hTtop _).ne hT0bot).symm
      have hrun : run z v act (0 + 1) =
          ⟨(((T ⟨0, hn⟩).toReal : ℝ) : EReal),
            ((0 * 0 + ∑ c, wt (z ⟨0, hn⟩ c) (T ⟨0, hn⟩).toReal : ℝ) : EReal),
            ((0 * 0 + ∑ c, wt (z ⟨0, hn⟩ c) (T ⟨0, hn⟩).toReal * vr ⟨0, hn⟩ c : ℝ) : EReal)⟩ := by
        refine (run_succ_act z v act ⟨0, hn⟩ hact0).trans ?_
        refine step_eq (z ⟨0, hn⟩) (v ⟨0, hn⟩) _ _ 0 0 0 (vr ⟨0, hn⟩) (hz _) (hvr _) ?_ ?_ ?_ ?_
        · show max (⊥ : EReal) (Finset.univ.fold max ⊥ (z ⟨0, hn⟩)) = _
          rw [fold_max_bot_eq_sup, max_bot_left]
          exact hT0
        · show Ideal.exp ((⊥ : EReal) - _) = _
          rw [EReal.bot_sub, Ideal.exp_bot, EReal.coe_zero]
        · exact EReal.coe_zero.symm
        · exact EReal.coe_zero.symm
      refine ⟨_, _, _, hrun, ?_, ?_, ?_⟩
      · rw [pre_succ 0 hn, pre_zero, Finset.sup_insert, Finset.sup_empty, sup_bot_eq]
        exact hT0.symm
      · simp [pre_succ 0 hn, pre_zero]
      · simp [pre_succ 0 hn, pre_zero]
    | succ j ih =>
      intro hj
      obtain ⟨mr, lr, ar, hrun, hpm, hlr, har⟩ := ih (Nat.lt_of_succ_lt hj)
      by_cases hat : act ⟨j + 1, hj⟩ = true
      · -- a processed tile
        have hne_top : max (mr : EReal) (T ⟨j + 1, hj⟩) ≠ ⊤ :=
          (max_lt (EReal.coe_lt_top mr) (hTtop _)).ne
        have hne_bot : max (mr : EReal) (T ⟨j + 1, hj⟩) ≠ ⊥ :=
          ne_bot_of_le_ne_bot (EReal.coe_ne_bot mr) (le_max_left _ _)
        obtain ⟨m1, hm1⟩ : ∃ m1 : ℝ, max (mr : EReal) (T ⟨j + 1, hj⟩) = (m1 : EReal) :=
          ⟨_, (EReal.coe_toReal hne_top hne_bot).symm⟩
        have hrun' : run z v act (j + 1 + 1) =
            ⟨(m1 : EReal),
              ((Real.exp (mr - m1) * lr + ∑ c, wt (z ⟨j + 1, hj⟩ c) m1 : ℝ) : EReal),
              ((Real.exp (mr - m1) * ar + ∑ c, wt (z ⟨j + 1, hj⟩ c) m1 * vr ⟨j + 1, hj⟩ c : ℝ) :
                EReal)⟩ := by
          refine (run_succ_act z v act ⟨j + 1, hj⟩ hat).trans ?_
          show step (z ⟨j + 1, hj⟩) (v ⟨j + 1, hj⟩) (run z v act (j + 1)) = _
          rw [hrun]
          refine step_eq (z ⟨j + 1, hj⟩) (v ⟨j + 1, hj⟩) _ m1 (Real.exp (mr - m1)) lr ar
            (vr ⟨j + 1, hj⟩) (hz _) (hvr _) ?_ (exp_coe_sub_coe mr m1) rfl rfl
          show max (mr : EReal) (Finset.univ.fold max ⊥ (z ⟨j + 1, hj⟩)) = _
          rw [fold_max_bot_eq_sup]
          exact hm1
        refine ⟨m1, _, _, hrun', ?_, ?_, ?_⟩
        · rw [pre_succ (j + 1) hj, Finset.sup_insert, ← hpm, ← hm1, max_comm]
        · rw [pre_succ (j + 1) hj, Finset.sum_insert (not_mem_pre_self _ hj), hlr, Finset.mul_sum,
            add_comm]
          congr 1
          refine Finset.sum_congr rfl fun i _ => ?_
          rw [Finset.mul_sum]
          exact Finset.sum_congr rfl fun c _ => wt_rescale (hz i c) mr m1
        · rw [pre_succ (j + 1) hj, Finset.sum_insert (not_mem_pre_self _ hj), har, Finset.mul_sum,
            add_comm]
          congr 1
          refine Finset.sum_congr rfl fun i _ => ?_
          rw [Finset.mul_sum]
          refine Finset.sum_congr rfl fun c _ => ?_
          rw [← mul_assoc, wt_rescale (hz i c) mr m1]
      · -- a skipped tile: all its logits are minus infinity
        have hat' : act ⟨j + 1, hj⟩ = false := by simpa using hat
        have hzt : ∀ c, z ⟨j + 1, hj⟩ c = ⊥ := hmask _ hat'
        have hTt : T ⟨j + 1, hj⟩ = ⊥ := (Finset.sup_eq_bot_iff _ _).2 fun c _ => hzt c
        refine ⟨mr, lr, ar, ?_, ?_, ?_, ?_⟩
        · exact (run_succ_not_act z v act ⟨j + 1, hj⟩ hat').trans hrun
        · rw [pre_succ (j + 1) hj, Finset.sup_insert, hTt, bot_sup_eq]
          exact hpm
        · rw [pre_succ (j + 1) hj, Finset.sum_insert (not_mem_pre_self _ hj), hlr]
          simp [hzt, wt_bot]
        · rw [pre_succ (j + 1) hj, Finset.sum_insert (not_mem_pre_self _ hj), har]
          simp [hzt, wt_bot]
  -- after all tiles
  obtain ⟨mr, lr, ar, hrun, hpm, hlr, har⟩ := inv (n - 1) (by omega)
  have hn1 : n - 1 + 1 = n := by omega
  rw [hn1] at hrun hpm hlr har
  rw [pre_full] at hpm hlr har
  have hM : Finset.univ.fold max ⊥ (fun q : Fin n × Fin w => z q.1 q.2) = (mr : EReal) := by
    rw [fold_max_bot_eq_sup, hpm, ← Finset.univ_product_univ, Finset.sup_product_left]
  have hE : ∀ p : Fin n × Fin w,
      Ideal.exp (z p.1 p.2 - (mr : EReal)) = ((wt (z p.1 p.2) mr : ℝ) : EReal) :=
    fun p => exp_sub_coe_eq_wt (hz _ _) mr
  have hlr' : lr = ∑ p : Fin n × Fin w, wt (z p.1 p.2) mr := by
    rw [hlr, Fintype.sum_prod_type]
  have har' : ar = ∑ p : Fin n × Fin w, wt (z p.1 p.2) mr * vr p.1 p.2 := by
    rw [har, Fintype.sum_prod_type]
  have hlpos : 0 < lr := by
    rw [hlr']
    obtain ⟨r0, hr0⟩ := hz00
    refine Finset.sum_pos' (fun p _ => wt_nonneg (hz _ _) mr)
      ⟨(⟨0, hn⟩, ⟨0, hw⟩), Finset.mem_univ _, ?_⟩
    show 0 < wt (z ⟨0, hn⟩ ⟨0, hw⟩) mr
    rw [hr0, wt_coe]
    exact Real.exp_pos _
  rw [hM, hrun]
  show Ideal.div (ar : EReal) (lr : EReal) = _
  simp only [hE, hvr, ← coe_sum, ← hlr', Ideal.div_coe hlpos.ne', ← EReal.coe_mul]
  rw [har', Finset.sum_mul]
  congr 1
  refine Finset.sum_congr rfl fun p _ => ?_
  ring

/-! ### (E) Re-indexing a row of 4096 entries as 8 tiles of 512 -/

/-- Tile "i" and column "c" address entry "512 * i + c" of the row. -/
def tileEquiv : Fin 8 × Fin 512 ≃ Fin 4096 where
  toFun p := ⟨512 * p.1.val + p.2.val, by have := p.1.isLt; have := p.2.isLt; omega⟩
  invFun k := (⟨k.val / 512, by have := k.isLt; omega⟩, ⟨k.val % 512, by omega⟩)
  left_inv p := by
    have h1 := p.1.isLt
    have h2 := p.2.isLt
    apply Prod.ext <;> apply Fin.ext <;> simp only [] <;> omega
  right_inv k := by
    apply Fin.ext
    simp only []
    omega

/-- Folding the maximum over a finite type is unchanged by re-indexing along an equivalence. -/
theorem fold_max_equiv {ι κ : Type*} [Fintype ι] [Fintype κ] (e : ι ≃ κ) (f : κ → EReal) :
    Finset.univ.fold max ⊥ (fun i => f (e i)) = Finset.univ.fold max ⊥ f := by
  rw [fold_max_bot_eq_sup, fold_max_bot_eq_sup]
  apply le_antisymm
  · exact Finset.sup_le fun i _ => Finset.le_sup (f := f) (Finset.mem_univ (e i))
  · refine Finset.sup_le fun k _ => ?_
    have h := Finset.le_sup (f := fun i => f (e i)) (Finset.mem_univ (e.symm k))
    simpa using h

/-- (E) A sum over 4096 keys is the sum over 8 tiles of 512 keys. -/
theorem sum_tiles {α : Type*} [AddCommMonoid α] (f : Fin 4096 → α) :
    ∑ k, f k = ∑ p : Fin 8 × Fin 512, f ⟨512 * p.1.val + p.2.val, by omega⟩ :=
  (Equiv.sum_comp tileEquiv f).symm

/-- (E) The maximum over 4096 keys is the maximum over 8 tiles of 512 keys. -/
theorem fold_max_tiles (f : Fin 4096 → EReal) :
    Finset.univ.fold max ⊥ f =
      Finset.univ.fold max ⊥ (fun p : Fin 8 × Fin 512 => f ⟨512 * p.1.val + p.2.val, by omega⟩) :=
  (fold_max_equiv tileEquiv f).symm

end OnlineSoftmax

end
-- ==== Proof.KI.FlashPay.lean ====
/-
  The arithmetic of the attention kernel's body, read at an index, as one step of the one-pass softmax
  recurrence.

  For a query row "r" of the query block and an output feature "e", the body keeps a running maximum "M r",
  a running denominator "L r" (both stored as a column of 1024 entries) and an accumulator "A r e".  Its
  logits for the 512 keys of the key block are the dot products of the query row with the key rows where the
  key position "512 * ki + c" is not after the query position "1024 * qi + r", and minus infinity (the named
  constant) where it is.  The new maximum is the maximum of the old one and of the row of logits; the old
  denominator and accumulator are multiplied by the exponential of the old maximum less the new one; the
  exponentials of the logits less the new maximum are summed into the denominator, and their products with
  the value rows are summed into the accumulator.  That is exactly one step of the recurrence.
-/
import proofs.«105703_j60739427500253_2_alg».proof.Proof.Gen.KernelIdeal.Skeleton
import proofs.«105703_j60739427500253_2_alg».proof.Proof.LibOnlineSoftmax
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.HandValue

open Idealize.ShloMosaic Idealize.SL.Sem Idealize.ShloMosaic.ValueIdx
open scoped BigOperators

/-! ### Constants -/

/-- The word of minus infinity denotes the bottom element. -/
theorem ofBits_neg_inf : Ideal.ofBits .f32 0xFF800000#32 = (⊥ : EReal) := by
  simp [Ideal.ofBits, Ideal.ieee]

/-- The named constant of the mask denotes minus infinity. -/
theorem neg_big :
    Named.named (F := Ideal) Cert.KernelIdeal.κ "neg_big" (φ := .f32) 0xFF333332#32 = (⊥ : EReal) :=
  IdealRules.named_const.ideal_named_scalar _ _ _ _ rfl

/-! ### The payloads that reset the state and that write the result -/

/-- At the first key tile the running maximum is reset to minus infinity and the denominator and the
    accumulator to zero. -/
theorem pay_reset (r : Fin 1024) (e : Fin 1024) :
    Gen.k1_pay1 (F := Ideal) (ix2 r (0 : Fin 1)) = (⊥ : EReal) ∧
    Gen.k1_pay2 (F := Ideal) (ix2 r (0 : Fin 1)) = (0 : EReal) ∧
    Gen.k1_pay3 (F := Ideal) (ix2 r e) = (0 : EReal) := by
  refine ⟨?_, ?_, ?_⟩
  · unfold Gen.k1_pay1
    refine (congrFun (shapeCast_self _ _) _).trans ?_
    exact ofBits_neg_inf
  · unfold Gen.k1_pay2
    refine (congrFun (shapeCast_self _ _) _).trans ?_
    exact Ideal.ofBits_zero_f32
  · unfold Gen.k1_pay3
    refine (congrFun (shapeCast_self _ _) _).trans ?_
    exact Ideal.ofBits_zero_f32

/-- A column of 1024 entries broadcast along 1024 columns reads, at row "r", the column's entry "r". -/
theorem broadcastTo_col_1024 {α : Type} (v : (⟨2, ![1024, 1]⟩ : Shape).Idx → α)
    (h : (⟨2, ![1024, 1]⟩ : Shape).Broadcasts ⟨2, ![1024, 1024]⟩) (r : Fin 1024) (e : Fin 1024) :
    broadcastTo ⟨2, ![1024, 1024]⟩ v h (ix2 r e) = v (ix2 r (0 : Fin 1)) := by
  refine broadcastTo_apply v h (ix2 r e) (ix2 r (0 : Fin 1)) fun ax => ?_
  match ax with
  | ⟨0, _⟩ => rfl
  | ⟨1, _⟩ => rfl

/-- A column of 1024 entries broadcast along 512 columns reads, at row "r", the column's entry "r". -/
theorem broadcastTo_col_512 {α : Type} (v : (⟨2, ![1024, 1]⟩ : Shape).Idx → α)
    (h : (⟨2, ![1024, 1]⟩ : Shape).Broadcasts ⟨2, ![1024, 512]⟩) (r : Fin 1024) (c : Fin 512) :
    broadcastTo ⟨2, ![1024, 512]⟩ v h (ix2 r c) = v (ix2 r (0 : Fin 1)) := by
  refine broadcastTo_apply v h (ix2 r c) (ix2 r (0 : Fin 1)) fun ax => ?_
  match ax with
  | ⟨0, _⟩ => rfl
  | ⟨1, _⟩ => rfl

/-- After the last key tile the result is the accumulator divided by the denominator of its row. -/
theorem pay_out (A : Vec Ideal S1024x1024 .f32) (L : Vec Ideal S1024x1 .f32) (r : Fin 1024) (e : Fin 1024) :
    Gen.k1_pay6 A L (ix3 (0 : Fin 1) r e) = Ideal.div (A (ix2 r e)) (L (ix2 r (0 : Fin 1))) := by
  unfold Gen.k1_pay6
  refine (shapeCast_ab_1ab_apply _ _ (0 : Fin 1) r e).trans ?_
  show Ideal.div (A (ix2 r e)) (broadcastTo S1024x1024 L _ (ix2 r e)) = _
  exact congrArg (Ideal.div (A (ix2 r e))) (broadcastTo_col_1024 L _ r e)

/-! ### Words: the causal mask -/

/-- A number below 2^31 written as a 32-bit word reads back, signed, as itself. -/
theorem toInt_ofNat_small (k : ℕ) (hk : k < 2147483648) : (BitVec.ofNat 32 k).toInt = (k : Int) := by
  rw [BitVec.toInt_eq_toNat_cond, BitVec.toNat_ofNat]
  have h1 : k % 2 ^ 32 = k := Nat.mod_eq_of_lt (by omega)
  rw [h1, if_pos (by omega)]

/-- The word "t * n + j" computed on 32-bit words is the word of the number. -/
theorem word_pos (t n j : ℕ) :
    IntOp.addi (Scalar.muli (BitVec.ofNat 32 t) (BitVec.ofNat 32 n)) (BitVec.ofNat 32 j) =
      BitVec.ofNat 32 (t * n + j) := by
  show BitVec.ofNat 32 t * BitVec.ofNat 32 n + BitVec.ofNat 32 j = _
  rw [← BitVec.ofNat_mul, ← BitVec.ofNat_add]

/-- A select on a decided bit is the "if". -/
theorem select_ofBool {α : Type} (p : Prop) [Decidable p] (a b : α) :
    Scalar.select (BitVec.ofBool (decide p)) a b = if p then a else b := by
  by_cases h : p
  · rw [decide_eq_true h, if_pos h]; exact select_one a b
  · rw [decide_eq_false h, if_neg h]; exact select_zero a b

/-- A select read at an index, with its condition a decided bit there. -/
theorem select_eq {s : Shape} {α : Type} (cnd : IVec s 1) (a b : s.Idx → α) (i : s.Idx) (p : Prop) [Decidable p]
    (A B : α) (hc : cnd i = BitVec.ofBool (decide p)) (ha : a i = A) (hb : b i = B) :
    select cnd a b i = if p then A else B := by
  show Scalar.select (cnd i) (a i) (b i) = _
  rw [hc, ha, hb, select_ofBool]

/-- The mask of the body at row "r" and column "c": the key position "512 * ki + c" is not after the query
    position "1024 * qi + r".  Both are far below 2^31, so the signed comparison of the words is the
    comparison of the numbers. -/
theorem mask_apply (qi ki : ℕ) (hqi : qi < 4) (hki : ki < 8)
    (h0 : S1024x512.Iotas .tc 32 [0]) (h1 : S1024x512.Iotas .tc 32 [1]) (r : Fin 1024) (c : Fin 512) :
    cmpi .sle
        (addi (broadcast S1024x512 (Scalar.muli (BitVec.ofNat 32 ki) 512#32)) (iota .tc S1024x512 32 [1] h1))
        (addi (broadcast S1024x512 (Scalar.muli (BitVec.ofNat 32 qi) 1024#32)) (iota .tc S1024x512 32 [0] h0))
        (ix2 r c) =
      BitVec.ofBool (decide (512 * ki + c.val ≤ 1024 * qi + r.val)) := by
  show IntOp.cmpi .sle
      (IntOp.addi (Scalar.muli (BitVec.ofNat 32 ki) (BitVec.ofNat 32 512)) (iota .tc S1024x512 32 [1] h1 (ix2 r c)))
      (IntOp.addi (Scalar.muli (BitVec.ofNat 32 qi) (BitVec.ofNat 32 1024)) (iota .tc S1024x512 32 [0] h0 (ix2 r c))) = _
  rw [iota_single_apply, iota_single_apply]
  show IntOp.cmpi .sle
      (IntOp.addi (Scalar.muli (BitVec.ofNat 32 ki) (BitVec.ofNat 32 512)) (BitVec.ofNat 32 c.val))
      (IntOp.addi (Scalar.muli (BitVec.ofNat 32 qi) (BitVec.ofNat 32 1024)) (BitVec.ofNat 32 r.val)) = _
  rw [word_pos, word_pos]
  show BitVec.ofBool (BitVec.sle (BitVec.ofNat 32 (ki * 512 + c.val)) (BitVec.ofNat 32 (qi * 1024 + r.val))) = _
  have hc := c.isLt
  have hr := r.isLt
  rw [BitVec.sle_eq_decide, toInt_ofNat_small _ (by omega), toInt_ofNat_small _ (by omega)]
  exact congrArg BitVec.ofBool (decide_eq_decide.2 (by omega))

/-! ### The two matrix products, read at an index -/

/-- The dot of the query block with the key block over the feature axis. -/
abbrev DQK := dot_S1024x1024_S512x1024_S1024x512_1_1_0_0_n_n
/-- The dot of the weights with the value block over the key axis. -/
abbrev DPV := dot_S1024x512_S512x1024_S1024x1024_1_0_0_1_n_n

/-- Operand index of the query-key product: the left operand's row is the output's row. -/
theorem qk_lhs0 (i : S1024x512.Idx) (q : DQK.contr.Idx) : (DQK.lhsIdx i q 0).val = (i 0).val := by
  unfold DotDims.lhsIdx
  rw [dif_neg (show ¬(0 : Fin S1024x1024.rank) ∈ DQK.lhsBatch by decide),
    dif_pos (show (0 : Fin S1024x1024.rank) ∈ DQK.lhsNonContracting by decide)]
  rfl
/-- Operand index of the query-key product: the left operand's column is the contracted feature. -/
theorem qk_lhs1 (i : S1024x512.Idx) (q : DQK.contr.Idx) :
    (DQK.lhsIdx i q 1).val = (q ⟨0, by decide⟩).val :=
  DQK.lhsIdx_val_of_single rfl i q
/-- Operand index of the query-key product: the right operand's row is the output's column (the key). -/
theorem qk_rhs0 (i : S1024x512.Idx) (q : DQK.contr.Idx) : (DQK.rhsIdx i q 0).val = (i 1).val := by
  unfold DotDims.rhsIdx
  rw [dif_neg (show ¬(0 : Fin S512x1024.rank) ∈ DQK.rhsBatch by decide),
    dif_pos (show (0 : Fin S512x1024.rank) ∈ DQK.rhsNonContracting by decide)]
  rfl
/-- Operand index of the query-key product: the right operand's column is the contracted feature. -/
theorem qk_rhs1 (i : S1024x512.Idx) (q : DQK.contr.Idx) :
    (DQK.rhsIdx i q 1).val = (q ⟨0, by decide⟩).val :=
  DQK.rhsIdx_val_of_single rfl i q

/-- The product of the query rows with the key rows, into the zero splat, at row "r" and key "c": the dot
    product of query row "r" with key row "c". -/
theorem qk_apply (lhs : FVec Ideal S1024x1024 .bf16) (rhs : FVec Ideal S512x1024 .bf16)
    (r : Fin 1024) (c : Fin 512) :
    matmul DQK none lhs rhs (constant S1024x512 .f32 0x00000000#32) (ix2 r c) =
      ∑ e : Fin 1024, lhs (ix2 r e) * rhs (ix2 c e) := by
  refine (Ideal.matmul_constant_zero_apply DQK none lhs rhs (ix2 r c)).trans ?_
  rw [← Equiv.sum_comp (contrEquiv1 DQK 1024 rfl rfl).symm]
  refine Finset.sum_congr rfl fun k _ => ?_
  have hk := contrEquiv1_symm_val DQK 1024 rfl rfl k
  have el : DQK.lhsIdx (ix2 r c) ((contrEquiv1 DQK 1024 rfl rfl).symm k) = ix2 r k :=
    funext fun a => Fin.ext (by
      match a with
      | ⟨0, _⟩ => exact qk_lhs0 _ _
      | ⟨1, _⟩ => exact (qk_lhs1 _ _).trans hk)
  have er : DQK.rhsIdx (ix2 r c) ((contrEquiv1 DQK 1024 rfl rfl).symm k) = ix2 c k :=
    funext fun a => Fin.ext (by
      match a with
      | ⟨0, _⟩ => exact qk_rhs0 _ _
      | ⟨1, _⟩ => exact (qk_rhs1 _ _).trans hk)
  rw [el, er]

/-- Operand index of the weight-value product: the left operand's row is the output's row. -/
theorem pv_lhs0 (i : S1024x1024.Idx) (q : DPV.contr.Idx) : (DPV.lhsIdx i q 0).val = (i 0).val := by
  unfold DotDims.lhsIdx
  rw [dif_neg (show ¬(0 : Fin S1024x512.rank) ∈ DPV.lhsBatch by decide),
    dif_pos (show (0 : Fin S1024x512.rank) ∈ DPV.lhsNonContracting by decide)]
  rfl
/-- Operand index of the weight-value product: the left operand's column is the contracted key. -/
theorem pv_lhs1 (i : S1024x1024.Idx) (q : DPV.contr.Idx) :
    (DPV.lhsIdx i q 1).val = (q ⟨0, by decide⟩).val :=
  DPV.lhsIdx_val_of_single rfl i q
/-- Operand index of the weight-value product: the right operand's row is the contracted key. -/
theorem pv_rhs0 (i : S1024x1024.Idx) (q : DPV.contr.Idx) :
    (DPV.rhsIdx i q 0).val = (q ⟨0, by decide⟩).val :=
  DPV.rhsIdx_val_of_single rfl i q
/-- Operand index of the weight-value product: the right operand's column is the output's column (the feature). -/
theorem pv_rhs1 (i : S1024x1024.Idx) (q : DPV.contr.Idx) : (DPV.rhsIdx i q 1).val = (i 1).val := by
  unfold DotDims.rhsIdx
  rw [dif_neg (show ¬(1 : Fin S512x1024.rank) ∈ DPV.rhsBatch by decide),
    dif_pos (show (1 : Fin S512x1024.rank) ∈ DPV.rhsNonContracting by decide)]
  rfl

/-- The product of the weights with the value rows, into the zero splat, at row "r" and feature "e": the
    sum over the 512 keys of weight times value. -/
theorem pv_apply (lhs : FVec Ideal S1024x512 .bf16) (rhs : FVec Ideal S512x1024 .bf16)
    (r : Fin 1024) (e : Fin 1024) :
    matmul DPV none lhs rhs (constant S1024x1024 .f32 0x00000000#32) (ix2 r e) =
      ∑ c : Fin 512, lhs (ix2 r c) * rhs (ix2 c e) := by
  refine (Ideal.matmul_constant_zero_apply DPV none lhs rhs (ix2 r e)).trans ?_
  rw [← Equiv.sum_comp (contrEquiv1 DPV 512 rfl rfl).symm]
  refine Finset.sum_congr rfl fun k _ => ?_
  have hk := contrEquiv1_symm_val DPV 512 rfl rfl k
  have el : DPV.lhsIdx (ix2 r e) ((contrEquiv1 DPV 512 rfl rfl).symm k) = ix2 r k :=
    funext fun a => Fin.ext (by
      match a with
      | ⟨0, _⟩ => exact pv_lhs0 _ _
      | ⟨1, _⟩ => exact (pv_lhs1 _ _).trans hk)
  have er : DPV.rhsIdx (ix2 r e) ((contrEquiv1 DPV 512 rfl rfl).symm k) = ix2 k e :=
    funext fun a => Fin.ext (by
      match a with
      | ⟨0, _⟩ => exact (pv_rhs0 _ _).trans hk
      | ⟨1, _⟩ => exact pv_rhs1 _ _)
  rw [el, er]

/-! ### The row reductions and the column cast -/

/-- The index of a 1024 by 512 array over row "r" with column "k" inserted. -/
theorem lift_row (h : S1024x512.Reduces [1] S1024) (r : Fin 1024) (k : Fin 512) :
    h.lift (ix1 r) k = ix2 r k := by
  funext a
  apply Fin.ext
  show h.liftVal (ix1 r) k.val a = (ix2 r k a).val
  unfold Shape.Reduces.liftVal
  match a with
  | ⟨0, _⟩ => simp
  | ⟨1, _⟩ => simp

/-- The maximum over the 512 columns, from the word of minus infinity, at row "r". -/
theorem rowmax_apply (src : FVec Ideal S1024x512 .f32) (h : S1024x512.Reduces [1] S1024)
    (hφ : FKind.Formats .f32) (hacc : 0xFF800000#32 = FKind.maximumf.neutral .f32 hφ) (r : Fin 1024) :
    multiReduction .maximumf [1] S1024 src 0xFF800000#32 h hφ hacc (ix1 r) =
      Finset.univ.fold max ⊥ (fun c : Fin 512 => src (ix2 r c)) := by
  refine (Ideal.multiReduction_maximumf_single src _ h hφ hacc (ix1 r)).trans ?_
  show Finset.fold max (Ideal.ofBits .f32 0xFF800000#32) (fun k : Fin 512 => src (h.lift (ix1 r) k))
    Finset.univ = _
  rw [ofBits_neg_inf]
  exact congrArg (fun f => Finset.fold max ⊥ f Finset.univ)
    (funext fun k => congrArg src (lift_row h r k))

/-- The sum over the 512 columns, from the zero word, at row "r". -/
theorem rowsum_apply (src : FVec Ideal S1024x512 .f32) (h : S1024x512.Reduces [1] S1024)
    (hφ : FKind.Formats .f32) (hacc : 0x00000000#32 = FKind.add.neutral .f32 hφ) (r : Fin 1024) :
    multiReduction .add [1] S1024 src 0x00000000#32 h hφ hacc (ix1 r) =
      ∑ c : Fin 512, src (ix2 r c) := by
  refine (Ideal.multiReduction_add_single src _ h hφ hacc (ix1 r)).trans ?_
  show ∑ k : Fin 512, src (h.lift (ix1 r) k) = _
  exact Finset.sum_congr rfl fun k _ => congrArg src (lift_row h r k)

/-- A vector of 1024 entries cast to a column reads, at row "r", its entry "r". -/
theorem shapeCast_col {α : Type} (v : (⟨1, ![1024]⟩ : Shape).Idx → α)
    (h : (⟨1, ![1024]⟩ : Shape).ShapeCasts ⟨2, ![1024, 1]⟩) (r : Fin 1024) :
    shapeCast ⟨2, ![1024, 1]⟩ v h (ix2 r (0 : Fin 1)) = v (ix1 r) :=
  shapeCast_apply v h _ _ (by
    rw [Shape.rowMajor_val_two, Shape.rowMajor_val_one]
    show r.val = r.val * 1 + 0
    omega)

/-! ### The payloads of the fold, read at an index -/

/-- The logits of the key block for query row "r": the dot product of the query row with key row "c" where
    the key position is not after the query position, minus infinity where it is. -/
def zBlk (qi ki : ℕ) (x0 : Vec Ideal S1x1024x1024 .bf16) (x1 : Vec Ideal S1x512x1024 .bf16)
    (r : Fin 1024) (c : Fin 512) : EReal :=
  if 512 * ki + c.val ≤ 1024 * qi + r.val then
    ∑ e : Fin 1024, x0 (ix3 (0 : Fin 1) r e) * x1 (ix3 (0 : Fin 1) c e)
  else ⊥

/-- The new accumulator at row "r" and feature "e": the rescaled old one plus the sum over the keys of
    weight times value. -/
theorem pay4_apply (x2 : Vec Ideal S1x512x1024 .bf16) (p : FVec Ideal S1024x512 .f32)
    (acc : FVec Ideal S1024x1024 .f32) (r : Fin 1024) (e : Fin 1024) :
    Gen.k1_pay4 (F := Ideal) p acc x2 (ix2 r e) =
      acc (ix2 r e) + ∑ c : Fin 512, p (ix2 r c) * x2 (ix3 (0 : Fin 1) c e) := by
  unfold Gen.k1_pay4
  refine (congrFun (shapeCast_self _ _) _).trans ?_
  refine (addf_apply _ _ _).trans ?_
  refine congrArg (acc (ix2 r e) + ·) ?_
  refine (pv_apply _ _ r e).trans ?_
  exact Finset.sum_congr rfl fun c _ =>
    congrArg₂ (· * ·) (truncf_apply p _ (ix2 r c)) (shapeCast_1ab_ab_apply x2 _ c e)

section Fold

variable (qi ki : ℕ) (hqi : qi < 4) (hki : ki < 8)
  (x0 : Vec Ideal S1x1024x1024 .bf16) (x1 x2 : Vec Ideal S1x512x1024 .bf16)
  (M M' L : Vec Ideal S1024x1 .f32) (A : Vec Ideal S1024x1024 .f32)

include hqi hki

/-- The masked logits of the body at row "r" and key "c". -/
theorem pay7_apply (r : Fin 1024) (c : Fin 512) :
    Gen.k1_pay7 (F := Ideal) (BitVec.ofNat 32 qi) (BitVec.ofNat 32 ki) x0 x1 (ix2 r c) =
      zBlk qi ki x0 x1 r c := by
  unfold Gen.k1_pay7
  refine select_eq _ _ _ _ (512 * ki + c.val ≤ 1024 * qi + r.val) _ _
    (mask_apply qi ki hqi hki _ _ r c) ?_ neg_big
  refine (qk_apply _ _ r c).trans ?_
  exact Finset.sum_congr rfl fun e _ =>
    congrArg₂ (· * ·) (shapeCast_1ab_ab_apply x0 _ r e) (shapeCast_1ab_ab_apply x1 _ c e)

/-- The new running maximum of row "r": the maximum of the old one and of the row of logits. -/
theorem pay8_apply (r : Fin 1024) :
    Gen.k1_pay8 (F := Ideal) (BitVec.ofNat 32 qi) (BitVec.ofNat 32 ki) x0 x1 M (ix2 r (0 : Fin 1)) =
      max (M (ix2 r (0 : Fin 1))) (Finset.univ.fold max ⊥ (zBlk qi ki x0 x1 r)) := by
  unfold Gen.k1_pay8
  refine (maximumf_apply _ _ _).trans ?_
  refine congrArg (max (M (ix2 r (0 : Fin 1)))) ?_
  refine (shapeCast_col _ _ r).trans ?_
  refine (rowmax_apply _ _ _ _ r).trans ?_
  exact congrArg (fun f => Finset.fold max ⊥ f Finset.univ)
    (funext fun c => pay7_apply qi ki hqi hki x0 x1 r c)

/-- The rescaling factor of row "r": the exponential of the old maximum less the new one. -/
theorem pay9_apply (r : Fin 1024) :
    Gen.k1_pay9 (F := Ideal) (BitVec.ofNat 32 qi) (BitVec.ofNat 32 ki) x0 x1 M M' (ix2 r (0 : Fin 1)) =
      Ideal.exp (M' (ix2 r (0 : Fin 1)) -
        max (M (ix2 r (0 : Fin 1))) (Finset.univ.fold max ⊥ (zBlk qi ki x0 x1 r))) := by
  unfold Gen.k1_pay9
  show Ideal.exp (M' (ix2 r (0 : Fin 1)) -
    Gen.k1_pay8 (F := Ideal) (BitVec.ofNat 32 qi) (BitVec.ofNat 32 ki) x0 x1 M (ix2 r (0 : Fin 1))) = _
  exact congrArg (fun t => Ideal.exp (M' (ix2 r (0 : Fin 1)) - t)) (pay8_apply qi ki hqi hki x0 x1 M r)

/-- The weight of key "c" for row "r": the exponential of its logit less the new maximum. -/
theorem pay10_apply (r : Fin 1024) (c : Fin 512) :
    Gen.k1_pay10 (F := Ideal) (BitVec.ofNat 32 qi) (BitVec.ofNat 32 ki) x0 x1 M (ix2 r c) =
      Ideal.exp (zBlk qi ki x0 x1 r c -
        max (M (ix2 r (0 : Fin 1))) (Finset.univ.fold max ⊥ (zBlk qi ki x0 x1 r))) := by
  unfold Gen.k1_pay10
  show Ideal.exp (Gen.k1_pay7 (F := Ideal) (BitVec.ofNat 32 qi) (BitVec.ofNat 32 ki) x0 x1 (ix2 r c) -
    broadcastTo S1024x512 (Gen.k1_pay8 (F := Ideal) (BitVec.ofNat 32 qi) (BitVec.ofNat 32 ki) x0 x1 M) _
      (ix2 r c)) = _
  exact congrArg₂ (fun s t => Ideal.exp (s - t)) (pay7_apply qi ki hqi hki x0 x1 r c)
    ((broadcastTo_col_512 _ _ r c).trans (pay8_apply qi ki hqi hki x0 x1 M r))

/-- The new denominator of row "r": the rescaled old one plus the sum of the weights. -/
theorem pay11_apply (r : Fin 1024) :
    Gen.k1_pay11 (F := Ideal) (BitVec.ofNat 32 qi) (BitVec.ofNat 32 ki) x0 x1 M M' L (ix2 r (0 : Fin 1)) =
      Ideal.exp (M' (ix2 r (0 : Fin 1)) -
          max (M (ix2 r (0 : Fin 1))) (Finset.univ.fold max ⊥ (zBlk qi ki x0 x1 r))) * L (ix2 r (0 : Fin 1)) +
        ∑ c : Fin 512, Ideal.exp (zBlk qi ki x0 x1 r c -
          max (M (ix2 r (0 : Fin 1))) (Finset.univ.fold max ⊥ (zBlk qi ki x0 x1 r))) := by
  unfold Gen.k1_pay11
  refine (congrFun (shapeCast_self _ _) _).trans ?_
  refine (addf_apply _ _ _).trans ?_
  refine congrArg₂ (· + ·) ?_ ?_
  · refine (mulf_apply _ _ _).trans ?_
    exact congrArg (· * L (ix2 r (0 : Fin 1))) (pay9_apply qi ki hqi hki x0 x1 M M' r)
  · refine (shapeCast_col _ _ r).trans ?_
    refine (rowsum_apply _ _ _ _ r).trans ?_
    exact Finset.sum_congr rfl fun c _ => pay10_apply qi ki hqi hki x0 x1 M r c

/-- The rescaled accumulator at row "r" and feature "e". -/
theorem pay12_apply (r : Fin 1024) (e : Fin 1024) :
    Gen.k1_pay12 (F := Ideal) (BitVec.ofNat 32 qi) (BitVec.ofNat 32 ki) x0 x1 M M' A (ix2 r e) =
      Ideal.exp (M' (ix2 r (0 : Fin 1)) -
          max (M (ix2 r (0 : Fin 1))) (Finset.univ.fold max ⊥ (zBlk qi ki x0 x1 r))) * A (ix2 r e) := by
  unfold Gen.k1_pay12
  refine (mulf_apply _ _ _).trans ?_
  exact congrArg (· * A (ix2 r e))
    ((broadcastTo_col_1024 _ _ r e).trans (pay9_apply qi ki hqi hki x0 x1 M M' r))

/-- THE FOLD.  At query row "r" and output feature "e" the body's new maximum, denominator and accumulator
    are one step of the one-pass recurrence on the logits "zBlk" and the value rows, from the state the
    body loaded. -/
theorem pay_fold (r : Fin 1024) (e : Fin 1024) :
    Gen.k1_pay5 (F := Ideal)
        (Gen.k1_pay8 (F := Ideal) (BitVec.ofNat 32 qi) (BitVec.ofNat 32 ki) x0 x1 M) (ix2 r (0 : Fin 1)) =
      (OnlineSoftmax.step (zBlk qi ki x0 x1 r) (fun c => x2 (ix3 (0 : Fin 1) c e))
        ⟨M (ix2 r (0 : Fin 1)), L (ix2 r (0 : Fin 1)), A (ix2 r e)⟩).m
    ∧ Gen.k1_pay11 (F := Ideal) (BitVec.ofNat 32 qi) (BitVec.ofNat 32 ki) x0 x1 M M L (ix2 r (0 : Fin 1)) =
      (OnlineSoftmax.step (zBlk qi ki x0 x1 r) (fun c => x2 (ix3 (0 : Fin 1) c e))
        ⟨M (ix2 r (0 : Fin 1)), L (ix2 r (0 : Fin 1)), A (ix2 r e)⟩).l
    ∧ Gen.k1_pay4 (F := Ideal)
        (Gen.k1_pay10 (F := Ideal) (BitVec.ofNat 32 qi) (BitVec.ofNat 32 ki) x0 x1 M)
        (Gen.k1_pay12 (F := Ideal) (BitVec.ofNat 32 qi) (BitVec.ofNat 32 ki) x0 x1 M M A) x2 (ix2 r e) =
      (OnlineSoftmax.step (zBlk qi ki x0 x1 r) (fun c => x2 (ix3 (0 : Fin 1) c e))
        ⟨M (ix2 r (0 : Fin 1)), L (ix2 r (0 : Fin 1)), A (ix2 r e)⟩).acc := by
  refine ⟨?_, ?_, ?_⟩
  · unfold Gen.k1_pay5
    refine (congrFun (shapeCast_self _ _) _).trans ?_
    exact pay8_apply qi ki hqi hki x0 x1 M r
  · exact pay11_apply qi ki hqi hki x0 x1 M M L r
  · refine (pay4_apply x2 _ _ r e).trans ?_
    refine congrArg₂ (· + ·) (pay12_apply qi ki hqi hki x0 x1 M M A r e) ?_
    exact Finset.sum_congr rfl fun c _ =>
      congrArg (· * x2 (ix3 (0 : Fin 1) c e)) (pay10_apply qi ki hqi hki x0 x1 M r c)

end Fold

end Cert.KernelIdeal.HandValue

end
-- ==== Proof.AttnOnline.lean ====
/-
  Causal attention as the result of the one-pass softmax recurrence at a tiling of 4 query tiles of 1024
  rows and 8 key tiles of 512 keys.

  For the query row "1024 * qi + r" the logits of key tile "ki" are "zTile": the dot product of the query
  projection scaled by 1/32 with the key projection where the key "512 * ki + c" is not after the query,
  minus infinity where it is.  Scaling one factor by 1/32 divides the dot product by 32, so "zTile" is the
  specification's logit at that query and key.  Key tile "ki" is processed exactly when "ki ≤ 2 * qi + 1";
  a later tile starts at key "512 * ki ≥ 1024 * qi + 1024", after every row of the query tile, so all its
  logits are minus infinity.  Key 0 is never after the query, so the first tile is processed and its first
  logit is a real.  The one-pass theorem then gives the softmax-weighted sum over the 8 by 512 tiling, and
  re-indexing 4096 keys as 8 tiles of 512 identifies it with the specification's sum over all keys.
-/
import proofs.«105703_j60739427500253_2_alg».proof.Proof.Spec
import proofs.«105703_j60739427500253_2_alg».proof.Proof.LibOnlineSoftmax

noncomputable section

namespace Cert.Att

open Idealize.ShloMosaic Idealize.ShloMosaic.ValueIdx
open scoped BigOperators

variable (x : SX.Idx → EReal) (Wq Wk Wv : SW.Idx → EReal)

/-- The logit of query row "1024 * qi + r" against key "512 * ki + c", with the query projection scaled by
    1/32: the scaled dot product for a key not after the query, minus infinity otherwise. -/
def zTile (b : Fin 4) (qi : Fin 4) (r : Fin 1024) (ki : Fin 8) (c : Fin 512) : EReal :=
  if 512 * ki.val + c.val ≤ 1024 * qi.val + r.val then
    ∑ e : Fin 1024,
      (proj x Wq b ⟨1024 * qi.val + r.val, by omega⟩ e * ((1 / 32 : ℝ) : EReal)) *
        proj x Wk b ⟨512 * ki.val + c.val, by omega⟩ e
  else ⊥

/-- The value projection of key "512 * ki + c" at output feature "e". -/
def vTile (b : Fin 4) (e : Fin 1024) (ki : Fin 8) (c : Fin 512) : EReal :=
  proj x Wv b ⟨512 * ki.val + c.val, by omega⟩ e

/-- Key tile "ki" is processed for query tile "qi" exactly when "ki ≤ 2 * qi + 1". -/
def actTile (qi : Fin 4) (ki : Fin 8) : Bool := decide (ki.val ≤ 2 * qi.val + 1)

/-! ### Realness -/

/-- A projection of real inputs by a real weight matrix is a real. -/
theorem proj_isReal (hx : ∀ i, ∃ r : ℝ, x i = (r : EReal)) (W : SW.Idx → EReal)
    (hW : ∀ i, ∃ r : ℝ, W i = (r : EReal)) (b : Fin 4) (s : Fin 4096) (e : Fin 1024) :
    ∃ r : ℝ, proj x W b s e = (r : EReal) :=
  OnlineSoftmax.isReal_sum_mul_univ (fun d => x (ix3 b s d)) (fun d => W (ix2 d e))
    (fun _ => hx _) (fun _ => hW _)

/-- A score of real inputs is a real. -/
theorem score_isReal (hx : ∀ i, ∃ r : ℝ, x i = (r : EReal))
    (hq : ∀ i, ∃ r : ℝ, Wq i = (r : EReal)) (hk : ∀ i, ∃ r : ℝ, Wk i = (r : EReal))
    (b : Fin 4) (q k : Fin 4096) : ∃ r : ℝ, score x Wq Wk b q k = (r : EReal) :=
  OnlineSoftmax.isReal_sum_mul_univ (fun e => proj x Wq b q e) (fun e => proj x Wk b k e)
    (fun e => proj_isReal x hx Wq hq b q e) (fun e => proj_isReal x hx Wk hk b k e)

/-- For a key after the query the logit is minus infinity, whatever the arrays hold. -/
theorem logit_masked (b : Fin 4) (q k : Fin 4096) (h : q.val < k.val) :
    logit x Wq Wk b q k = ⊥ := by
  unfold logit
  rw [if_neg (by omega)]

/-- For a key not after the query the logit is the score over 32. -/
theorem logit_unmasked (b : Fin 4) (q k : Fin 4096) (h : k.val ≤ q.val) :
    logit x Wq Wk b q k = Ideal.div (score x Wq Wk b q k) ((32 : ℝ) : EReal) := by
  unfold logit
  rw [if_pos h]

/-- A logit of real inputs is minus infinity or a real. -/
theorem logit_bot_or_real (hx : ∀ i, ∃ r : ℝ, x i = (r : EReal))
    (hq : ∀ i, ∃ r : ℝ, Wq i = (r : EReal)) (hk : ∀ i, ∃ r : ℝ, Wk i = (r : EReal))
    (b : Fin 4) (q k : Fin 4096) :
    logit x Wq Wk b q k = ⊥ ∨ ∃ r : ℝ, logit x Wq Wk b q k = (r : EReal) := by
  by_cases h : k.val ≤ q.val
  · right
    obtain ⟨s, hs⟩ := score_isReal x Wq Wk hx hq hk b q k
    refine ⟨s * (1 / 32), ?_⟩
    rw [logit_unmasked x Wq Wk b q k h, hs, Ideal.div_coe (by norm_num), EReal.coe_mul]
  · left
    exact logit_masked x Wq Wk b q k (by omega)

/-- For a key after the query the tile logit is minus infinity, whatever the projections are. -/
theorem zTile_masked (b : Fin 4) (qi : Fin 4) (r : Fin 1024) (ki : Fin 8) (c : Fin 512)
    (h : 1024 * qi.val + r.val < 512 * ki.val + c.val) : zTile x Wq Wk b qi r ki c = ⊥ := by
  unfold zTile
  rw [if_neg (by omega)]

/-- Every logit of a key tile that is not processed is minus infinity, whatever the projections are. -/
theorem zTile_of_not_act (b : Fin 4) (qi : Fin 4) (r : Fin 1024) (ki : Fin 8) (c : Fin 512)
    (h : actTile qi ki = false) : zTile x Wq Wk b qi r ki c = ⊥ := by
  have h1 : ¬ ki.val ≤ 2 * qi.val + 1 := by simpa [actTile] using h
  have h2 := r.isLt
  exact zTile_masked x Wq Wk b qi r ki c (by omega)

/-- A tile logit of real inputs is minus infinity or a real. -/
theorem zTile_bot_or_real (hx : ∀ i, ∃ r : ℝ, x i = (r : EReal))
    (hq : ∀ i, ∃ r : ℝ, Wq i = (r : EReal)) (hk : ∀ i, ∃ r : ℝ, Wk i = (r : EReal))
    (b : Fin 4) (qi : Fin 4) (r : Fin 1024) (ki : Fin 8) (c : Fin 512) :
    zTile x Wq Wk b qi r ki c = ⊥ ∨ ∃ s : ℝ, zTile x Wq Wk b qi r ki c = (s : EReal) := by
  unfold zTile
  by_cases h : 512 * ki.val + c.val ≤ 1024 * qi.val + r.val
  · right
    rw [if_pos h]
    refine OnlineSoftmax.isReal_sum_mul_univ _ _ (fun e => ?_) (fun e => proj_isReal x hx Wk hk b _ e)
    obtain ⟨p, hp⟩ := proj_isReal x hx Wq hq b ⟨1024 * qi.val + r.val, by omega⟩ e
    exact ⟨p * (1 / 32), by rw [hp, EReal.coe_mul]⟩
  · left
    rw [if_neg h]

/-- A tile value of real inputs is a real. -/
theorem vTile_isReal (hx : ∀ i, ∃ r : ℝ, x i = (r : EReal))
    (hv : ∀ i, ∃ r : ℝ, Wv i = (r : EReal))
    (b : Fin 4) (e : Fin 1024) (ki : Fin 8) (c : Fin 512) :
    ∃ s : ℝ, vTile x Wv b e ki c = (s : EReal) :=
  proj_isReal x hx Wv hv b _ e

/-- The tile logit is the specification's logit at query "1024 * qi + r" and key "512 * ki + c":
    scaling the query projection by 1/32 divides the score by 32. -/
theorem zTile_eq_logit (hx : ∀ i, ∃ r : ℝ, x i = (r : EReal))
    (hq : ∀ i, ∃ r : ℝ, Wq i = (r : EReal)) (hk : ∀ i, ∃ r : ℝ, Wk i = (r : EReal))
    (b : Fin 4) (qi : Fin 4) (r : Fin 1024) (ki : Fin 8) (c : Fin 512) :
    zTile x Wq Wk b qi r ki c =
      logit x Wq Wk b ⟨1024 * qi.val + r.val, by omega⟩ ⟨512 * ki.val + c.val, by omega⟩ := by
  by_cases h : 512 * ki.val + c.val ≤ 1024 * qi.val + r.val
  · rw [logit_unmasked x Wq Wk b _ _ h]
    unfold zTile
    rw [if_pos h]
    exact OnlineSoftmax.sum_scale32_mul_eq_div
      (fun e => proj x Wq b ⟨1024 * qi.val + r.val, by omega⟩ e)
      (fun e => proj x Wk b ⟨512 * ki.val + c.val, by omega⟩ e)
      (fun e => proj_isReal x hx Wq hq b _ e) (fun e => proj_isReal x hx Wk hk b _ e)
  · rw [logit_masked x Wq Wk b _ _ (show _ < _ from by
      show 1024 * qi.val + r.val < 512 * ki.val + c.val
      omega)]
    exact zTile_masked x Wq Wk b qi r ki c (by omega)

/-! ### The one-pass theorem over a row of 4096 keys read as 8 tiles of 512 -/

/-- The one-pass recurrence over 8 tiles of 512 keys computes the softmax-weighted sum over the 4096 keys of a
    row: logits are reals or minus infinity, values are reals, the first tile is processed and key 0 has a
    real logit, and a skipped tile is wholly minus infinity. -/
theorem online_softmax_tiles (zf vf : Fin 4096 → EReal) (act : Fin 8 → Bool)
    (hz : ∀ k, zf k = ⊥ ∨ ∃ r : ℝ, zf k = (r : EReal))
    (hv : ∀ k, ∃ r : ℝ, vf k = (r : EReal))
    (hact0 : act ⟨0, by norm_num⟩ = true)
    (hz0 : ∃ r : ℝ, zf ⟨0, by norm_num⟩ = (r : EReal))
    (hmask : ∀ i : Fin 8, act i = false → ∀ c : Fin 512, zf ⟨512 * i.val + c.val, by omega⟩ = ⊥) :
    Ideal.div
        (OnlineSoftmax.run (fun (i : Fin 8) (c : Fin 512) => zf ⟨512 * i.val + c.val, by omega⟩)
          (fun (i : Fin 8) (c : Fin 512) => vf ⟨512 * i.val + c.val, by omega⟩) act 8).acc
        (OnlineSoftmax.run (fun (i : Fin 8) (c : Fin 512) => zf ⟨512 * i.val + c.val, by omega⟩)
          (fun (i : Fin 8) (c : Fin 512) => vf ⟨512 * i.val + c.val, by omega⟩) act 8).l =
      ∑ k : Fin 4096,
        Ideal.div (Ideal.exp (zf k - Finset.univ.fold max ⊥ zf))
          (∑ k' : Fin 4096, Ideal.exp (zf k' - Finset.univ.fold max ⊥ zf)) * vf k := by
  rw [OnlineSoftmax.online_softmax
    (fun (i : Fin 8) (c : Fin 512) => zf ⟨512 * i.val + c.val, by omega⟩)
    (fun (i : Fin 8) (c : Fin 512) => vf ⟨512 * i.val + c.val, by omega⟩) act
    (fun _ _ => hz _) (fun _ _ => hv _) (by norm_num) (by norm_num) hact0 hz0 hmask]
  have hM := OnlineSoftmax.fold_max_tiles zf
  have hL : ∑ k' : Fin 4096, Ideal.exp (zf k' - Finset.univ.fold max ⊥ zf) =
      ∑ p' : Fin 8 × Fin 512,
        Ideal.exp (zf ⟨512 * p'.1.val + p'.2.val, by omega⟩ -
          Finset.univ.fold max ⊥
            (fun p : Fin 8 × Fin 512 => zf ⟨512 * p.1.val + p.2.val, by omega⟩)) := by
    rw [hM]
    exact OnlineSoftmax.sum_tiles (fun k' => Ideal.exp (zf k' -
      Finset.univ.fold max ⊥ (fun p : Fin 8 × Fin 512 => zf ⟨512 * p.1.val + p.2.val, by omega⟩)))
  rw [hL, hM]
  exact (OnlineSoftmax.sum_tiles (fun k =>
    Ideal.div (Ideal.exp (zf k -
        Finset.univ.fold max ⊥ (fun p : Fin 8 × Fin 512 => zf ⟨512 * p.1.val + p.2.val, by omega⟩)))
      (∑ p' : Fin 8 × Fin 512,
        Ideal.exp (zf ⟨512 * p'.1.val + p'.2.val, by omega⟩ -
          Finset.univ.fold max ⊥
            (fun p : Fin 8 × Fin 512 => zf ⟨512 * p.1.val + p.2.val, by omega⟩))) * vf k)).symm

/-! ### Attention as the result of the recurrence -/

/-- For real inputs and weights, the one-pass recurrence over the 8 key tiles of query row "1024 * qi + r",
    processing tile "ki" exactly when "ki ≤ 2 * qi + 1", ends with accumulator over denominator equal to
    the specification's causal attention at that row. -/
theorem attn_eq_online (hx : ∀ i, ∃ r : ℝ, x i = (r : EReal))
    (hq : ∀ i, ∃ r : ℝ, Wq i = (r : EReal)) (hk : ∀ i, ∃ r : ℝ, Wk i = (r : EReal))
    (hv : ∀ i, ∃ r : ℝ, Wv i = (r : EReal))
    (b : Fin 4) (qi : Fin 4) (r : Fin 1024) (e : Fin 1024) :
    Ideal.div
        (OnlineSoftmax.run (zTile x Wq Wk b qi r) (vTile x Wv b e) (actTile qi) 8).acc
        (OnlineSoftmax.run (zTile x Wq Wk b qi r) (vTile x Wv b e) (actTile qi) 8).l =
      attn x Wq Wk Wv b ⟨1024 * qi.val + r.val, by omega⟩ e := by
  have hzt : zTile x Wq Wk b qi r = fun (ki : Fin 8) (c : Fin 512) =>
      logit x Wq Wk b ⟨1024 * qi.val + r.val, by omega⟩ ⟨512 * ki.val + c.val, by omega⟩ :=
    funext fun ki => funext fun c => zTile_eq_logit x Wq Wk hx hq hk b qi r ki c
  rw [hzt]
  exact online_softmax_tiles
    (fun k => logit x Wq Wk b ⟨1024 * qi.val + r.val, by omega⟩ k)
    (fun k => proj x Wv b k e) (actTile qi)
    (fun k => logit_bot_or_real x Wq Wk hx hq hk b _ k)
    (fun k => proj_isReal x hx Wv hv b k e)
    (by simp [actTile])
    (by
      obtain ⟨s, hs⟩ := score_isReal x Wq Wk hx hq hk b ⟨1024 * qi.val + r.val, by omega⟩ ⟨0, by norm_num⟩
      refine ⟨s * (1 / 32), ?_⟩
      show logit x Wq Wk b ⟨1024 * qi.val + r.val, by omega⟩ ⟨0, by norm_num⟩ = _
      rw [logit_unmasked x Wq Wk b _ _ (Nat.zero_le _), hs, Ideal.div_coe (by norm_num),
        EReal.coe_mul])
    (by
      intro i hi c
      have h1 : ¬ i.val ≤ 2 * qi.val + 1 := by simpa [actTile] using hi
      have h2 := r.isLt
      exact logit_masked x Wq Wk b _ _ (by
        show 1024 * qi.val + r.val < 512 * i.val + c.val
        omega))

end Cert.Att

end
-- ==== Proof.KI.FlashInd.lean ====
/-
  The attention kernel's running statistics are the online-softmax recurrence. For a batch `b`, a query tile `qi` and a
  row `r` of it, the logits of key tile `ki` are, for key `k` of the tile, the dot product of the query row
  `1024 · qi + r` with the key row `512 · ki + k` where that key is not after the query and minus infinity where it is
  (`zArr`), and the values are the value rows `512 · ki + k` (`vArr`). After the point numbered `n` — key tile `n % 8` of
  its batch and query tile — the running maximum, the running denominator and the accumulator at row `r` (and feature
  `e`) are the recurrence run over the first `n % 8 + 1` key tiles, a tile being processed iff it starts no later than
  the query tile ends. By induction on `n`: a first key tile resets and applies one step; a later live tile applies one
  step to what the point before left; a skipped tile leaves it.
-/
import proofs.«105703_j60739427500253_2_alg».proof.Proof.KI.FlashGrid
import proofs.«105703_j60739427500253_2_alg».proof.Proof.KI.FlashOut
import proofs.«105703_j60739427500253_2_alg».proof.Proof.KI.FlashPay
import proofs.«105703_j60739427500253_2_alg».proof.Proof.LibOnlineSoftmax
import proofs.«105703_j60739427500253_2_alg».proof.Proof.AttnOnline

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open OnlineSoftmax

section Ind
variable (V : (c : Dev nD) → (b : Ref sig .tc) → Buf (Elt Ideal) ((c : Thread nD τ).loc b)) (c : Dev nD)

/-- The three arrays the region reads — scaled queries, keys, values — as functions into the extended reals. -/
abbrev qArr : S4x4096x1024.Idx → EReal := V c main_v5
abbrev kArr : S4x4096x1024.Idx → EReal := V c main_v6
abbrev wArr : S4x4096x1024.Idx → EReal := V c main_v7

/-- The logits of key tile `ki` for row `r` of query tile `qi` of batch `b`, from the arrays the region reads. -/
def zArr (b : Fin 4) (qi : Fin 4) (r : Fin 1024) (ki : Fin 8) (k : Fin 512) : EReal :=
  if 512 * ki.val + k.val ≤ 1024 * qi.val + r.val then
    ∑ e : Fin 1024, qArr V c (ix3 b (⟨1024 * qi.val + r.val, by omega⟩ : Fin 4096) e) * kArr V c (ix3 b (⟨512 * ki.val + k.val, by omega⟩ : Fin 4096) e)
  else ⊥

/-- The values of key tile `ki` at feature `e`. -/
def vArr (b : Fin 4) (e : Fin 1024) (ki : Fin 8) (k : Fin 512) : EReal :=
  wArr V c (ix3 b (⟨512 * ki.val + k.val, by omega⟩ : Fin 4096) e)

/-- At a live point the body's logits of the point's blocks are the row's logits of that key tile. -/
theorem zBlk_eq (t : Fin cfg1.N) (b : Fin 4) (qi : Fin 4) (hb : b.val = t.val / 32) (hqi : qi.val = (t.val / 8) % 4)
    (hlive : t.val % 8 ≤ 2 * ((t.val / 8) % 4) + 1) (r : Fin 1024) :
    zBlk qi.val (t.val % 8) (iblk1 V c 0 t) (iblk1 V c 1 t) r = zArr V c b qi r ⟨t.val % 8, Nat.mod_lt _ (by norm_num)⟩ := by
  funext k
  unfold zBlk zArr
  refine if_congr Iff.rfl (Finset.sum_congr rfl fun e _ => ?_) rfl
  rw [qblk_apply V c t r e b ⟨1024 * qi.val + r.val, by omega⟩ hb (by show 1024 * qi.val + r.val = _; rw [hqi]),
    kblk_apply V c t k e b ⟨512 * (t.val % 8) + k.val, by omega⟩ hb (by show 512 * (t.val % 8) + k.val = _; rw [min_eq_left hlive])]

/-- and its values are that tile's values. -/
theorem vBlk_eq (t : Fin cfg1.N) (b : Fin 4) (hb : b.val = t.val / 32)
    (hlive : t.val % 8 ≤ 2 * ((t.val / 8) % 4) + 1) (e : Fin 1024) :
    (fun k : Fin 512 => iblk1 V c 2 t (ix3 (0 : Fin 1) k e)) = vArr V c b e ⟨t.val % 8, Nat.mod_lt _ (by norm_num)⟩ := by
  funext k
  unfold vArr
  rw [vblk_apply V c t k e b ⟨512 * (t.val % 8) + k.val, by omega⟩ hb (by show 512 * (t.val % 8) + k.val = _; rw [min_eq_left hlive])]

/-- The body's update of statistics `s` at a live point, read at row `r` and feature `e`: one step of the recurrence. -/
theorem fold_at (t : Fin cfg1.N) (s : Stats Ideal) (b : Fin 4) (qi : Fin 4) (hb : b.val = t.val / 32) (hqi : qi.val = (t.val / 8) % 4)
    (hlive : t.val % 8 ≤ 2 * ((t.val / 8) % 4) + 1) (r : Fin 1024) (e : Fin 1024) :
    (foldStats V c t s).1 (ix2 r (0 : Fin 1)) = (step (zArr V c b qi r ⟨t.val % 8, Nat.mod_lt _ (by norm_num)⟩) (vArr V c b e ⟨t.val % 8, Nat.mod_lt _ (by norm_num)⟩) ⟨s.1 (ix2 r (0 : Fin 1)), s.2.1 (ix2 r (0 : Fin 1)), s.2.2 (ix2 r e)⟩).m
    ∧ (foldStats V c t s).2.1 (ix2 r (0 : Fin 1)) = (step (zArr V c b qi r ⟨t.val % 8, Nat.mod_lt _ (by norm_num)⟩) (vArr V c b e ⟨t.val % 8, Nat.mod_lt _ (by norm_num)⟩) ⟨s.1 (ix2 r (0 : Fin 1)), s.2.1 (ix2 r (0 : Fin 1)), s.2.2 (ix2 r e)⟩).l
    ∧ (foldStats V c t s).2.2 (ix2 r e) = (step (zArr V c b qi r ⟨t.val % 8, Nat.mod_lt _ (by norm_num)⟩) (vArr V c b e ⟨t.val % 8, Nat.mod_lt _ (by norm_num)⟩) ⟨s.1 (ix2 r (0 : Fin 1)), s.2.1 (ix2 r (0 : Fin 1)), s.2.2 (ix2 r e)⟩).acc := by
  obtain ⟨c0, c1, c2⟩ := coords_val t
  have hp := pay_fold qi.val (t.val % 8) qi.isLt (Nat.mod_lt _ (by norm_num)) (iblk1 V c 0 t) (iblk1 V c 1 t) (iblk1 V c 2 t) s.1 s.2.1 s.2.2 r e
  rw [zBlk_eq V c t b qi hb hqi hlive r, vBlk_eq V c t b hb hlive e] at hp
  unfold foldStats; dsimp only
  rw [c1, c2, ← hqi]
  exact hp

/-- A live point's key tile is processed by the recurrence. -/
theorem act_of_live (n : ℕ) (qi : Fin 4) (hqi : qi.val = (n / 8) % 4) (hlive : n % 8 ≤ 2 * ((n / 8) % 4) + 1) :
    Cert.Att.actTile qi ⟨n % 8, Nat.mod_lt _ (by norm_num)⟩ = true := by
  unfold Cert.Att.actTile; rw [decide_eq_true_eq]; show n % 8 ≤ 2 * qi.val + 1; omega

theorem act_of_not_live (n : ℕ) (qi : Fin 4) (hqi : qi.val = (n / 8) % 4) (hlive : ¬n % 8 ≤ 2 * ((n / 8) % 4) + 1) :
    Cert.Att.actTile qi ⟨n % 8, Nat.mod_lt _ (by norm_num)⟩ = false := by
  unfold Cert.Att.actTile; rw [decide_eq_false_iff_not]; show ¬n % 8 ≤ 2 * qi.val + 1; omega

/-- THE INVARIANT. -/
theorem stats_eq_run : ∀ (n : ℕ) (hn : n < cfg1.N) (b : Fin 4) (qi : Fin 4), b.val = n / 32 → qi.val = (n / 8) % 4 → ∀ (r : Fin 1024) (e : Fin 1024),
    (scAt V c n hn).1 (ix2 r (0 : Fin 1)) = (run (zArr V c b qi r) (vArr V c b e) (Cert.Att.actTile qi) (n % 8 + 1)).m
    ∧ (scAt V c n hn).2.1 (ix2 r (0 : Fin 1)) = (run (zArr V c b qi r) (vArr V c b e) (Cert.Att.actTile qi) (n % 8 + 1)).l
    ∧ (scAt V c n hn).2.2 (ix2 r e) = (run (zArr V c b qi r) (vArr V c b e) (Cert.Att.actTile qi) (n % 8 + 1)).acc := by
  intro n
  induction n with
  | zero =>
    intro hn b qi hb hqi r e
    have h1 : atFirstKey (grid1.coords ⟨0, hn⟩) := (atFirstKey_iff ⟨0, hn⟩).mpr rfl
    have hlive : (0 : ℕ) % 8 ≤ 2 * ((0 / 8) % 4) + 1 := by norm_num
    have hs : scAt V c 0 hn = foldStats V c ⟨0, hn⟩ (resetStats (F := Ideal)) := scAt_eq_first V c ⟨0, hn⟩ h1
    obtain ⟨f0, f1, f2⟩ := fold_at V c ⟨0, hn⟩ (resetStats (F := Ideal)) b qi hb hqi hlive r e
    obtain ⟨p0, p1, p2⟩ := pay_reset r e
    have hrun : run (zArr V c b qi r) (vArr V c b e) (Cert.Att.actTile qi) (0 % 8 + 1)
        = step (zArr V c b qi r ⟨0 % 8, Nat.mod_lt _ (by norm_num)⟩) (vArr V c b e ⟨0 % 8, Nat.mod_lt _ (by norm_num)⟩) init :=
      run_succ_act (zArr V c b qi r) (vArr V c b e) (Cert.Att.actTile qi) ⟨0 % 8, Nat.mod_lt _ (by norm_num)⟩ (act_of_live 0 qi hqi hlive)
    have hinit : (⟨(resetStats (F := Ideal)).1 (ix2 r (0 : Fin 1)), (resetStats (F := Ideal)).2.1 (ix2 r (0 : Fin 1)), (resetStats (F := Ideal)).2.2 (ix2 r e)⟩ : St) = init := by
      show (⟨Gen.k1_pay1 (F := Ideal) (ix2 r (0 : Fin 1)), Gen.k1_pay2 (F := Ideal) (ix2 r (0 : Fin 1)), Gen.k1_pay3 (F := Ideal) (ix2 r e)⟩ : St) = ⟨⊥, 0, 0⟩
      rw [p0, p1, p2]
    rw [hs, hrun, ← hinit]
    exact ⟨f0, f1, f2⟩
  | succ m ih =>
    intro hn b qi hb hqi r e
    have hN : m + 1 < 128 := lt_of_lt_of_eq hn N1
    by_cases h0 : (m + 1) % 8 = 0
    · -- a first key tile: reset, one step
      have h1 : atFirstKey (grid1.coords ⟨m + 1, hn⟩) := (atFirstKey_iff ⟨m + 1, hn⟩).mpr h0
      have hlive : (m + 1) % 8 ≤ 2 * (((m + 1) / 8) % 4) + 1 := by omega
      have hs : scAt V c (m + 1) hn = foldStats V c ⟨m + 1, hn⟩ (resetStats (F := Ideal)) := scAt_eq_first V c ⟨m + 1, hn⟩ h1
      obtain ⟨f0, f1, f2⟩ := fold_at V c ⟨m + 1, hn⟩ (resetStats (F := Ideal)) b qi hb hqi hlive r e
      obtain ⟨p0, p1, p2⟩ := pay_reset r e
      have hrun : run (zArr V c b qi r) (vArr V c b e) (Cert.Att.actTile qi) ((m + 1) % 8 + 1)
          = step (zArr V c b qi r ⟨(m + 1) % 8, Nat.mod_lt _ (by norm_num)⟩) (vArr V c b e ⟨(m + 1) % 8, Nat.mod_lt _ (by norm_num)⟩) (run (zArr V c b qi r) (vArr V c b e) (Cert.Att.actTile qi) ((m + 1) % 8)) :=
        run_succ_act (zArr V c b qi r) (vArr V c b e) (Cert.Att.actTile qi) ⟨(m + 1) % 8, Nat.mod_lt _ (by norm_num)⟩ (act_of_live (m + 1) qi hqi hlive)
      have hprev : run (zArr V c b qi r) (vArr V c b e) (Cert.Att.actTile qi) ((m + 1) % 8) = init := by rw [h0]; rfl
      have hinit : (⟨(resetStats (F := Ideal)).1 (ix2 r (0 : Fin 1)), (resetStats (F := Ideal)).2.1 (ix2 r (0 : Fin 1)), (resetStats (F := Ideal)).2.2 (ix2 r e)⟩ : St) = init := by
        show (⟨Gen.k1_pay1 (F := Ideal) (ix2 r (0 : Fin 1)), Gen.k1_pay2 (F := Ideal) (ix2 r (0 : Fin 1)), Gen.k1_pay3 (F := Ideal) (ix2 r e)⟩ : St) = ⟨⊥, 0, 0⟩
        rw [p0, p1, p2]
      rw [hs, hrun, hprev, ← hinit]
      exact ⟨f0, f1, f2⟩
    · have h1 : ¬atFirstKey (grid1.coords ⟨m + 1, hn⟩) := fun h => h0 ((atFirstKey_iff ⟨m + 1, hn⟩).mp h)
      have hb' : b.val = m / 32 := by omega
      have hqi' : qi.val = (m / 8) % 4 := by omega
      have hk : (m + 1) % 8 = m % 8 + 1 := by omega
      obtain ⟨im, il, ia⟩ := ih (Nat.lt_of_succ_lt hn) b qi hb' hqi' r e
      by_cases hlive : (m + 1) % 8 ≤ 2 * (((m + 1) / 8) % 4) + 1
      · -- a later live tile: one step on what the point before left
        have h2 : keyLive (grid1.coords ⟨m + 1, hn⟩) := (keyLive_iff ⟨m + 1, hn⟩).mpr hlive
        have hs : scAt V c (m + 1) hn = foldStats V c ⟨m + 1, hn⟩ (scAt V c m (Nat.lt_of_succ_lt hn)) := scAt_eq_live V c ⟨m + 1, hn⟩ h1 h2
        obtain ⟨f0, f1, f2⟩ := fold_at V c ⟨m + 1, hn⟩ (scAt V c m (Nat.lt_of_succ_lt hn)) b qi hb hqi hlive r e
        have hrun : run (zArr V c b qi r) (vArr V c b e) (Cert.Att.actTile qi) ((m + 1) % 8 + 1)
            = step (zArr V c b qi r ⟨(m + 1) % 8, Nat.mod_lt _ (by norm_num)⟩) (vArr V c b e ⟨(m + 1) % 8, Nat.mod_lt _ (by norm_num)⟩) (run (zArr V c b qi r) (vArr V c b e) (Cert.Att.actTile qi) ((m + 1) % 8)) :=
          run_succ_act (zArr V c b qi r) (vArr V c b e) (Cert.Att.actTile qi) ⟨(m + 1) % 8, Nat.mod_lt _ (by norm_num)⟩ (act_of_live (m + 1) qi hqi hlive)
        have hprev : (⟨(scAt V c m (Nat.lt_of_succ_lt hn)).1 (ix2 r (0 : Fin 1)), (scAt V c m (Nat.lt_of_succ_lt hn)).2.1 (ix2 r (0 : Fin 1)), (scAt V c m (Nat.lt_of_succ_lt hn)).2.2 (ix2 r e)⟩ : St)
            = run (zArr V c b qi r) (vArr V c b e) (Cert.Att.actTile qi) ((m + 1) % 8) := by
          rw [im, il, ia, hk]
        rw [hs, hrun, ← hprev]
        exact ⟨f0, f1, f2⟩
      · -- a skipped tile: nothing changes
        have h2 : ¬keyLive (grid1.coords ⟨m + 1, hn⟩) := fun h => hlive ((keyLive_iff ⟨m + 1, hn⟩).mp h)
        have hs : scAt V c (m + 1) hn = scAt V c m (Nat.lt_of_succ_lt hn) := scAt_skip V c ⟨m + 1, hn⟩ h1 h2
        have hrun : run (zArr V c b qi r) (vArr V c b e) (Cert.Att.actTile qi) ((m + 1) % 8 + 1)
            = run (zArr V c b qi r) (vArr V c b e) (Cert.Att.actTile qi) ((m + 1) % 8) :=
          run_succ_not_act (zArr V c b qi r) (vArr V c b e) (Cert.Att.actTile qi) ⟨(m + 1) % 8, Nat.mod_lt _ (by norm_num)⟩ (act_of_not_live (m + 1) qi hqi hlive)
        rw [hs, hrun, hk]
        exact ⟨im, il, ia⟩

end Ind

end Cert.KernelIdeal.HandValue

end
-- ==== Proof.KI.FlashFinal.lean ====
/-
  The result array after the attention region. At the last key tile of a query tile the pipeline writes the output block
  back: rows `1024 · (query tile)` onward of the batch, each entry the accumulator over the denominator of that row after
  all eight key steps. Those blocks tile the result array, so the array ends as one function of the three arrays the
  region reads: at (batch, query position, feature) the online-softmax recurrence over the eight key tiles, run to the
  end and normalised.
-/
import proofs.«105703_j60739427500253_2_alg».proof.Proof.KI.FlashInd

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open OnlineSoftmax

section Final
variable (V : (c : Dev nD) → (b : Ref sig .tc) → Buf (Elt Ideal) ((c : Thread nD τ).loc b)) (c : Dev nD)

/-- The result at batch `b`, query tile `qi`, row `r` of the tile, feature `e`. -/
def outRow (b : Fin 4) (qi : Fin 4) (r : Fin 1024) (e : Fin 1024) : EReal :=
  Ideal.div (run (zArr V c b qi r) (vArr V c b e) (Cert.Att.actTile qi) 8).acc (run (zArr V c b qi r) (vArr V c b e) (Cert.Att.actTile qi) 8).l

/-- The result array. -/
def outArr : S4x4096x1024.Idx → EReal := fun i =>
  outRow V c (i 0) ⟨(i 1).val / 1024, Nat.div_lt_of_lt_mul (show (i 1).val < 1024 * 4 from (i 1).isLt)⟩ ⟨(i 1).val % 1024, Nat.mod_lt _ (by norm_num)⟩ (i 2)

/-- An entry of the output block at point `t` sits at row `1024 · (query tile) + r` of batch `t / 32`. -/
theorem oblk_emb (t : Fin cfg1.N) (r : Fin 1024) (e : Fin 1024) (b : Fin 4) (s : Fin 4096)
    (hb : b.val = t.val / 32) (hs : s.val = 1024 * ((t.val / 8) % 4) + r.val) :
    ((cfg1.win 3).blk t).view.emb (ix3 (0 : Fin 1) r e) = ix3 b s e := by
  obtain ⟨e0, e1, e2⟩ := index3 t
  funext a; apply Fin.ext
  match a with
  | ⟨0, _⟩ => show win1_3.index t (0 : Fin 3) * 1 + 1 * (0 : Fin 1).val = b.val; rw [e0, hb]; simp
  | ⟨1, _⟩ => show win1_3.index t (1 : Fin 3) * 1024 + 1 * r.val = s.val; rw [e1, hs]; omega
  | ⟨2, _⟩ => show win1_3.index t (2 : Fin 3) * 1024 + 1 * e.val = e.val; rw [e2]; omega

/-- WHAT A LAST KEY TILE'S POINT WRITES BACK is its block of `outArr`. -/
theorem flushed3_eq (t : Fin cfg1.N) (hf : (cfg1.win 3).flush t = true) :
    (dat1 V c).flushed 3 t = ((cfg1.win 3).blk t).view.read (Elt Ideal) (outArr V c) := by
  have h7 : t.val % 8 = 7 := (flush1_3 t).mp hf
  have hN : t.val < 128 := lt_of_lt_of_eq t.isLt N1
  have h1 : ¬atFirstKey (grid1.coords t) := fun h => by have := (atFirstKey_iff t).mp h; omega
  have h3 : atLastKey (grid1.coords t) := (atLastKey_iff t).mpr h7
  show (cfg1.win 3).cut (grid1.coords t) ((dat1 V c).after 3 t) = _
  rw [after1_3, outAt_eq V c t h1 h3]
  funext j
  obtain ⟨z, r, e, rfl⟩ : ∃ (z : Fin 1) (r : Fin 1024) (e : Fin 1024), j = ix3 z r e := ⟨j 0, j 1, j 2, eq_ix3 j⟩
  obtain rfl : z = 0 := Subsingleton.elim _ _
  let b : Fin 4 := ⟨t.val / 32, by omega⟩
  let qi : Fin 4 := ⟨(t.val / 8) % 4, by omega⟩
  let s : Fin 4096 := ⟨1024 * ((t.val / 8) % 4) + r.val, by omega⟩
  show k1_pay6 (F := Ideal) (scAt V c t.val t.isLt).2.2 (scAt V c t.val t.isLt).2.1 (ix3 (0 : Fin 1) r e)
    = outArr V c (((cfg1.win 3).blk t).view.emb (ix3 (0 : Fin 1) r e))
  rw [oblk_emb t r e b s rfl rfl, pay_out]
  obtain ⟨hm, hl, ha⟩ := stats_eq_run V c t.val t.isLt b qi rfl rfl r e
  rw [ha, hl, show t.val % 8 + 1 = 8 from by omega]
  show _ = outRow V c b ⟨(1024 * ((t.val / 8) % 4) + r.val) / 1024, _⟩ ⟨(1024 * ((t.val / 8) % 4) + r.val) % 1024, _⟩ e
  have hq : (⟨(1024 * ((t.val / 8) % 4) + r.val) / 1024, Nat.div_lt_of_lt_mul (show (ix3 b s e 1).val < 1024 * 4 from (ix3 b s e 1).isLt)⟩ : Fin 4) = qi := Fin.ext (by show (1024 * ((t.val / 8) % 4) + r.val) / 1024 = (t.val / 8) % 4; omega)
  have hr : (⟨(1024 * ((t.val / 8) % 4) + r.val) % 1024, Nat.mod_lt _ (by norm_num)⟩ : Fin 1024) = r := Fin.ext (by show (1024 * ((t.val / 8) % 4) + r.val) % 1024 = r.val; omega)
  rw [hq, hr]
  rfl

/-- An index of the result array is in point `t`'s output block iff each coordinate is in the block's range. -/
theorem mem_blk3 (t : Fin cfg1.N) (i : S4x4096x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v8).slice (win1_3.rect t)).set ↔ _
  rw [View.set_slice_whole, Rect.mem_set_unit]
  exact Iff.rfl

/-- Every index of the result array is in the output block of its batch's and query tile's last point. -/
theorem cover3 (i : S4x4096x1024.Idx) : ∃ t : Fin cfg1.N, (cfg1.win 3).flush t = true ∧ i ∈ ((cfg1.win 3).blk t).view.set := by
  have h0 : (i 0).val < 4 := (i 0).isLt
  have h1 : (i 1).val < 4096 := (i 1).isLt
  have h2 : (i 2).val < 1024 := (i 2).isLt
  have hlt : 32 * (i 0).val + 8 * ((i 1).val / 1024) + 7 < cfg1.N := by rw [N1]; omega
  refine ⟨⟨32 * (i 0).val + 8 * ((i 1).val / 1024) + 7, hlt⟩, (flush1_3 _).mpr (by show (32 * (i 0).val + 8 * ((i 1).val / 1024) + 7) % 8 = 7; omega), ?_⟩
  rw [mem_blk3]
  obtain ⟨e0, e1, e2⟩ := index3 ⟨32 * (i 0).val + 8 * ((i 1).val / 1024) + 7, hlt⟩
  intro a
  match a with
  | ⟨0, _⟩ =>
    show win1_3.index ⟨32 * (i 0).val + 8 * ((i 1).val / 1024) + 7, hlt⟩ (0 : Fin 3) * 1 ≤ (i 0).val ∧ (i 0).val < win1_3.index ⟨32 * (i 0).val + 8 * ((i 1).val / 1024) + 7, hlt⟩ (0 : Fin 3) * 1 + 1
    rw [e0]; show (32 * (i 0).val + 8 * ((i 1).val / 1024) + 7) / 32 * 1 ≤ (i 0).val ∧ (i 0).val < (32 * (i 0).val + 8 * ((i 1).val / 1024) + 7) / 32 * 1 + 1; omega
  | ⟨1, _⟩ =>
    show win1_3.index ⟨32 * (i 0).val + 8 * ((i 1).val / 1024) + 7, hlt⟩ (1 : Fin 3) * 1024 ≤ (i 1).val ∧ (i 1).val < win1_3.index ⟨32 * (i 0).val + 8 * ((i 1).val / 1024) + 7, hlt⟩ (1 : Fin 3) * 1024 + 1024
    rw [e1]; show (32 * (i 0).val + 8 * ((i 1).val / 1024) + 7) / 8 % 4 * 1024 ≤ (i 1).val ∧ (i 1).val < (32 * (i 0).val + 8 * ((i 1).val / 1024) + 7) / 8 % 4 * 1024 + 1024; omega
  | ⟨2, _⟩ =>
    show win1_3.index ⟨32 * (i 0).val + 8 * ((i 1).val / 1024) + 7, hlt⟩ (2 : Fin 3) * 1024 ≤ (i 2).val ∧ (i 2).val < win1_3.index ⟨32 * (i 0).val + 8 * ((i 1).val / 1024) + 7, hlt⟩ (2 : Fin 3) * 1024 + 1024
    rw [e2]; omega

/-- THE RESULT ARRAY after the region. -/
theorem final3 : (dat1 V c).arrAt 3 cfg1.N = outArr V c :=
  (dat1 V c).arrAt_eq_of_cover 3 (outArr V c) (fun t hf => flushed3_eq V c t hf) (cover3)

end Final

end Cert.KernelIdeal.HandValue

end
-- ==== Proof.KI.Region0Value.lean ====
/-
  The three result blocks of the projection region at an index, on the extended reals.

  With the row block `X` (512 rows of 1024 features) and a weight matrix `W` (1024 × 1024), at row `r` and output
  feature `e`:
    * the `q` block is `(∑ d, X (r, d) * W (d, e)) * (1/32)`;
    * the `k` and `v` blocks are `∑ d, X (r, d) * W (d, e)`.
  On the extended reals a rounding to a narrower format is the identity, a whole-block read or write is the
  identity on contents, the accumulator of the product is zero, and the 32-bit word `0x3D000000` is the real
  `2⁻⁵ = 1/32`; the contraction index of the product, a one-coordinate index, is re-indexed by its coordinate.
-/
import proofs.«105703_j60739427500253_2_alg».proof.Proof.KI.Region0
import Idealize.ShloMosaic.PureOps.Ideal
import Idealize.ShloMosaic.Lib.ValueIdx
import Idealize.ShloMosaic.Lib.Pipeline.Value
import Idealize.ShloMosaic.Lib.IdealHost

set_option maxRecDepth 16384

noncomputable section

namespace Cert.KernelIdeal.HandValue

open Cert.KernelIdeal.Gen Cert.KernelIdeal.Hand
open Idealize.ShloMosaic Idealize.ShloMosaic.ValueIdx
open scoped BigOperators

/-- The 32-bit word `0x3D000000` is the real `1/32`. -/
theorem ofBits_inv32 : Ideal.ofBits .f32 0x3D000000#32 = (((1 : ℝ) / 32 : ℝ) : EReal) := by
  simp [Ideal.ofBits, Ideal.ieee, -EReal.coe_mul]; norm_num

/-! ## The product's operand indices -/

/-- The left operand of the product is read at the output's row … -/
theorem lhs_row (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- … and at the contraction position; -/
theorem lhs_contr (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
/-- the right operand at the contraction position … -/
theorem rhs_contr (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q
/-- … and at the output's column. -/
theorem rhs_col (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of a 512 × 1024 block by a 1024 × 1024 matrix, accumulated from zero, at row `r` and column `e`
    is the sum over the 1024 shared positions. -/
theorem matmul_zero_apply {φ₁ φ₂ : FTy} (a : FVec Ideal S512x1024 φ₁) (b : FVec Ideal S1024x1024 φ₂) (r : Fin 512) (e : Fin 1024) :
    (matmul (F := Ideal) dot_S512x1024_S1024x1024_S512x1024_1_0_0_1_n_n none a b (constant (F := Ideal) S512x1024 .f32 0x00000000#32)) (ix2 r e)
      = ∑ d : Fin 1024, a (ix2 r d) * b (ix2 d e) := by
  show FloatOps.matmul dot_S512x1024_S1024x1024_S512x1024_1_0_0_1_n_n none a b (constant S512x1024 .f32 0x00000000#32) (ix2 r e) = _
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r e) ((ValueIdx.contrEquiv1 dot_S512x1024_S1024x1024_S512x1024_1_0_0_1_n_n 1024 rfl rfl).symm k) = ix2 r k := funext fun a => Fin.ext (by
    match a with
    | ⟨0, _⟩ => exact lhs_row _ _
    | ⟨1, _⟩ => exact (lhs_contr _ _).trans hk)
  have er : dot_S512x1024_S1024x1024_S512x1024_1_0_0_1_n_n.rhsIdx (ix2 r e) ((ValueIdx.contrEquiv1 dot_S512x1024_S1024x1024_S512x1024_1_0_0_1_n_n 1024 rfl rfl).symm k) = ix2 k e := funext fun a => Fin.ext (by
    match a with
    | ⟨0, _⟩ => exact (rhs_contr _ _).trans hk
    | ⟨1, _⟩ => exact rhs_col _ _)
  rw [el, er]

/-! ## The blocks are their payloads -/

/-- The offsets `(0, 0)` are the zero offsets. -/
theorem zeros2 : (![0, 0] : Fin 2 → Nat) = fun _ => 0 := by
  funext a; match a with | ⟨0, _⟩ => rfl | ⟨1, _⟩ => rfl

section AnyFormat
variable {F : FTy → Type} [FloatOps F]

/-- A read through the whole-block rectangle reads the contents, and one write through it leaves its payload: so
    the `q` block is the payload of its write at the row block and the weight matrix themselves; -/
theorem out0_4_eq (x0 : Vec F S512x1024 .f32) (w : Vec F S1024x1024 .bf16) : out0_4 x0 w = k0_pay2 x0 w := by
  unfold out0_4
  have hx : View.ld (Val := Elt F) x0 rX = x0 := View.ld_unit_zero zeros2 _ x0
  have hw : View.ld (Val := Elt F) w rW = w := View.ld_unit_zero zeros2 _ w
  rw [hx, hw]
  exact View.canon_unit_zero zeros2 _ _
/-- the same of the `k` block … -/
theorem out0_5_eq (x0 : Vec F S512x1024 .f32) (w : Vec F S1024x1024 .bf16) : out0_5 x0 w = k0_pay3 x0 w := by
  unfold out0_5
  have hx : View.ld (Val := Elt F) x0 rX = x0 := View.ld_unit_zero zeros2 _ x0
  have hw : View.ld (Val := Elt F) w rW = w := View.ld_unit_zero zeros2 _ w
  rw [hx, hw]
  exact View.canon_unit_zero zeros2 _ _
/-- … and of the `v` block. -/
theorem out0_6_eq (x0 : Vec F S512x1024 .f32) (w : Vec F S1024x1024 .bf16) : out0_6 x0 w = k0_pay4 x0 w := by
  unfold out0_6
  have hx : View.ld (Val := Elt F) x0 rX = x0 := View.ld_unit_zero zeros2 _ x0
  have hw : View.ld (Val := Elt F) w rW = w := View.ld_unit_zero zeros2 _ w
  rw [hx, hw]
  exact View.canon_unit_zero zeros2 _ _

end AnyFormat

/-! ## The three blocks at an index -/

/-- The `q` block: the projection at `(r, e)`, times `1/32`. -/
theorem out0_4_apply (x0 : Vec Ideal S512x1024 .f32) (w : Vec Ideal S1024x1024 .bf16) (r : Fin 512) (e : Fin 1024) :
    out0_4 (F := Ideal) x0 w (ix2 r e) = (∑ d : Fin 1024, x0 (ix2 r d) * w (ix2 d e)) * ((((1 : ℝ) / 32 : ℝ)) : EReal) := by
  rw [out0_4_eq]
  unfold k0_pay2 k0_pay1
  simp only [shapeCast_self]
  rw [truncf_apply, mulf_apply, broadcast_apply, matmul_zero_apply]
  show (∑ d : Fin 1024, _) * Ideal.ofBits .f32 0x3D000000#32 = _
  rw [ofBits_inv32]
  simp only [truncf_apply]

/-- The `k` block: the projection at `(r, e)`. -/
theorem out0_5_apply (x0 : Vec Ideal S512x1024 .f32) (w : Vec Ideal S1024x1024 .bf16) (r : Fin 512) (e : Fin 1024) :
    out0_5 (F := Ideal) x0 w (ix2 r e) = ∑ d : Fin 1024, x0 (ix2 r d) * w (ix2 d e) := by
  rw [out0_5_eq]
  unfold k0_pay3 k0_pay1
  simp only [shapeCast_self]
  rw [truncf_apply, matmul_zero_apply]
  simp only [truncf_apply]

/-- The `v` block: the projection at `(r, e)`. -/
theorem out0_6_apply (x0 : Vec Ideal S512x1024 .f32) (w : Vec Ideal S1024x1024 .bf16) (r : Fin 512) (e : Fin 1024) :
    out0_6 (F := Ideal) x0 w (ix2 r e) = ∑ d : Fin 1024, x0 (ix2 r d) * w (ix2 d e) := by
  rw [out0_6_eq]
  unfold k0_pay4 k0_pay1
  simp only [shapeCast_self]
  rw [truncf_apply, matmul_zero_apply]
  simp only [truncf_apply]

end Cert.KernelIdeal.HandValue

end
-- ==== Proof.KI.Region0Final.lean ====
/-
  What the three result arrays hold after the projection region, as whole-array functions, on the extended reals.

  With `X` the 16384 × 1024 array of rows as the region finds it and `W` a 1024 × 1024 weight matrix as the
  region finds it, write `P X W (r, e) = ∑ d, X (r, d) * W (d, e)`. The grid's point `t` writes back, for each
  result, the 512 × 1024 block of rows `512 t … 512 t + 511`; by the previous module that block at `(p, e)` is the
  sum over the row block's row `p` and the weight matrix's column `e`, and the row block's row `p` is the array's
  row `512 t + p`. So each point writes block `t` of ONE whole-array function, the 32 blocks cover the 16384
  rows (row `r` lies in block `r / 512`), and the arrays end holding `P X W_q · (1/32)`, `P X W_k`, `P X W_v`.
-/
import proofs.«105703_j60739427500253_2_alg».proof.Proof.KI.Region0Value
import Idealize.ShloMosaic.Lib.Pipeline.Value

set_option maxRecDepth 16384

noncomputable section

namespace Cert.KernelIdeal.HandValue

open Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-- The projection of the rows `X` by the weights `W`, as a whole array: at `(r, e)` the sum over the 1024 features. -/
def projArr (X : S16384x1024.Idx → EReal) (W : S1024x1024.Idx → EReal) : S16384x1024.Idx → EReal :=
  fun i => ∑ d : Fin 1024, X (ix2 (i 0) d) * W (ix2 d (i 1))

theorem projArr_apply (X : S16384x1024.Idx → EReal) (W : S1024x1024.Idx → EReal) (r : Fin 16384) (e : Fin 1024) :
    projArr X W (ix2 r e) = ∑ d : Fin 1024, X (ix2 r d) * W (ix2 d e) := rfl

section Region0
-- the contents of every buffer when the region is entered
variable (V : (c : Dev nD) → (b : Ref sig .tc) → Buf (Elt Ideal) ((c : Thread nD τ).loc b))

/-- The 16384 × 1024 array of rows as the region finds it, as a function to the extended reals. -/
abbrev rows0 (c : Dev nD) : S16384x1024.Idx → EReal := V c main_v0
/-- The three 1024 × 1024 weight matrices as the region finds them. -/
abbrev wts1 (c : Dev nD) : S1024x1024.Idx → EReal := V c main_v1
abbrev wts2 (c : Dev nD) : S1024x1024.Idx → EReal := V c main_v2
abbrev wts3 (c : Dev nD) : S1024x1024.Idx → EReal := V c main_v3

/-! ## The `q` array (window 4, from the rows and weight matrix 1) -/

/-- A result block at a block index `j` is the whole-array projection at an array index `i`, as soon as the row
    block's row `j 0` is the rows' row `i 0` and the weight block's column `j 1` is the weights' column `i 1`. -/
theorem out0_4_block (x0 : Vec Ideal S512x1024 .f32) (w : Vec Ideal S1024x1024 .bf16)
    (X : S16384x1024.Idx → EReal) (W : S1024x1024.Idx → EReal) (j : S512x1024.Idx) (i : S16384x1024.Idx)
    (hx : ∀ d : Fin 1024, x0 (ix2 (j 0) d) = X (ix2 (i 0) d))
    (hw : ∀ d : Fin 1024, w (ix2 d (j 1)) = W (ix2 d (i 1))) :
    out0_4 (F := Ideal) x0 w j = projArr X W i * ((((1 : ℝ) / 32 : ℝ)) : EReal) :=
  (congrArg (out0_4 (F := Ideal) x0 w) (eq_ix2 j)).trans ((out0_4_apply x0 w (j 0) (j 1)).trans
    (congrArg (fun s : EReal => s * ((((1 : ℝ) / 32 : ℝ)) : EReal)) (Finset.sum_congr rfl fun d _ => congrArg₂ (· * ·) (hx d) (hw d))))

/-- The block indices over the grid: the row block of `x` and the result block sit at the same row-block index, the
    point's number, at column-block index 0; the weight matrix sits at block index (0, 0). -/
theorem idx_facts4 : ∀ t : Fin cfg0.N, win0_0.index t (0 : Fin 2) = win0_4.index t (0 : Fin 2)
    ∧ win0_0.index t (1 : Fin 2) = 0
    ∧ win0_1.index t (0 : Fin 2) = 0
    ∧ win0_1.index t (1 : Fin 2) = 0
    ∧ win0_4.index t (1 : Fin 2) = 0 :=
  (by decide +kernel : ∀ t : Fin grid0.N, _)

/-- Every one of the 32 row blocks of the result is some point's. -/
theorem idx_onto4 : ∀ q0 : Fin 32, ∃ t : Fin cfg0.N, win0_4.index t = ![q0.val, 0] :=
  (by decide +kernel : ∀ q0 : Fin 32, ∃ t : Fin grid0.N, win0_4.index t = ![q0.val, 0])

/-- What point `t` writes back is block `t` of the whole-array projection of the arrays as the region finds them:
    an entry of a block sits in its array, on each axis, at the block index times the block's extent plus the
    coordinate inside the block. -/
theorem flushed4_eq (c : Dev nD) (t : Fin cfg0.N) :
    (dat0 V c).flushed 4 t = ((cfg0.win 4).blk t).view.read (Elt Ideal) (fun i => projArr (rows0 V c) (wts1 V c) i * ((((1 : ℝ) / 32 : ℝ)) : EReal)) := by
  show (cfg0.win 4).cut (grid0.coords t) ((dat0 V c).after 4 t) = _
  rw [after0_4]
  obtain ⟨e0, e1, e2, e3, e4⟩ := idx_facts4 t
  funext j
  show out0_4 (F := Ideal) (iblk0 V c 0 t) (iblk0 V c 1 t) j = (fun i => projArr (rows0 V c) (wts1 V c) i * ((((1 : ℝ) / 32 : ℝ)) : EReal)) (((cfg0.win 4).blk t).view.emb j)
  refine out0_4_block _ _ _ _ j _ (fun d => ?_) (fun d => ?_)
  · show V c main_v0 (((cfg0.win 0).blk t).view.emb (ix2 (j 0) d)) = V c main_v0 (ix2 ((((cfg0.win 4).blk t).view.emb j) 0) d)
    refine congrArg _ (funext fun a => Fin.ext ?_)
    match a with
    | ⟨0, _⟩ => show win0_0.index t (0 : Fin 2) * 512 + 1 * (j 0).val = win0_4.index t (0 : Fin 2) * 512 + 1 * (j 0).val; omega
    | ⟨1, _⟩ => show win0_0.index t (1 : Fin 2) * 1024 + 1 * d.val = d.val; omega
  · show V c main_v1 (((cfg0.win 1).blk t).view.emb (ix2 d (j 1))) = V c main_v1 (ix2 d ((((cfg0.win 4).blk t).view.emb j) 1))
    refine congrArg _ (funext fun a => Fin.ext ?_)
    match a with
    | ⟨0, _⟩ => show win0_1.index t (0 : Fin 2) * 1024 + 1 * d.val = d.val; omega
    | ⟨1, _⟩ => show win0_1.index t (1 : Fin 2) * 1024 + 1 * (j 1).val = win0_4.index t (1 : Fin 2) * 1024 + 1 * (j 1).val; omega

/-- An index of the result array is in point `t`'s block iff each coordinate is in the block's range on its axis. -/
theorem mem_blk4 (t : Fin cfg0.N) (i : S16384x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v4_0).slice (win0_4.rect t)).set ↔ _
  rw [View.set_slice_whole, Rect.mem_set_unit]
  exact Iff.rfl

/-- Every index of the result array is in the block of a point that writes back: row `r` is in block `r / 512`. -/
theorem cover4 (i : S16384x1024.Idx) : ∃ t : Fin cfg0.N, (cfg0.win 4).flush t = true ∧ i ∈ ((cfg0.win 4).blk t).view.set := by
  have hi0 : (i 0).val < 16384 := (i 0).isLt
  have hi1 : (i 1).val < 1024 := (i 1).isLt
  obtain ⟨t, ht⟩ := idx_onto4 ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- THE `q` ARRAY after the region: the whole-array projection, times `1/32`. -/
theorem arr4_eq (c : Dev nD) : (dat0 V c).arrAt 4 cfg0.N = (fun i => projArr (rows0 V c) (wts1 V c) i * ((((1 : ℝ) / 32 : ℝ)) : EReal)) :=
  (dat0 V c).arrAt_eq_of_cover 4 _ (fun t _ => flushed4_eq V c t) (cover4)

/-- The same with the sum written out. -/
theorem arr4_eq' (c : Dev nD) : (dat0 V c).arrAt 4 cfg0.N = fun i : S16384x1024.Idx => (∑ d : Fin 1024, (rows0 V c) (ix2 (i 0) d) * (wts1 V c) (ix2 d (i 1))) * ((((1 : ℝ) / 32 : ℝ)) : EReal) :=
  arr4_eq V c

/-! ## The `k` array (window 5, from the rows and weight matrix 2) -/

/-- A result block at a block index `j` is the whole-array projection at an array index `i`, as soon as the row
    block's row `j 0` is the rows' row `i 0` and the weight block's column `j 1` is the weights' column `i 1`. -/
theorem out0_5_block (x0 : Vec Ideal S512x1024 .f32) (w : Vec Ideal S1024x1024 .bf16)
    (X : S16384x1024.Idx → EReal) (W : S1024x1024.Idx → EReal) (j : S512x1024.Idx) (i : S16384x1024.Idx)
    (hx : ∀ d : Fin 1024, x0 (ix2 (j 0) d) = X (ix2 (i 0) d))
    (hw : ∀ d : Fin 1024, w (ix2 d (j 1)) = W (ix2 d (i 1))) :
    out0_5 (F := Ideal) x0 w j = projArr X W i :=
  (congrArg (out0_5 (F := Ideal) x0 w) (eq_ix2 j)).trans ((out0_5_apply x0 w (j 0) (j 1)).trans
    (Finset.sum_congr rfl fun d _ => congrArg₂ (· * ·) (hx d) (hw d)))

/-- The block indices over the grid: the row block of `x` and the result block sit at the same row-block index, the
    point's number, at column-block index 0; the weight matrix sits at block index (0, 0). -/
theorem idx_facts5 : ∀ t : Fin cfg0.N, win0_0.index t (0 : Fin 2) = win0_5.index t (0 : Fin 2)
    ∧ win0_0.index t (1 : Fin 2) = 0
    ∧ win0_2.index t (0 : Fin 2) = 0
    ∧ win0_2.index t (1 : Fin 2) = 0
    ∧ win0_5.index t (1 : Fin 2) = 0 :=
  (by decide +kernel : ∀ t : Fin grid0.N, _)

/-- Every one of the 32 row blocks of the result is some point's. -/
theorem idx_onto5 : ∀ q0 : Fin 32, ∃ t : Fin cfg0.N, win0_5.index t = ![q0.val, 0] :=
  (by decide +kernel : ∀ q0 : Fin 32, ∃ t : Fin grid0.N, win0_5.index t = ![q0.val, 0])

/-- What point `t` writes back is block `t` of the whole-array projection of the arrays as the region finds them:
    an entry of a block sits in its array, on each axis, at the block index times the block's extent plus the
    coordinate inside the block. -/
theorem flushed5_eq (c : Dev nD) (t : Fin cfg0.N) :
    (dat0 V c).flushed 5 t = ((cfg0.win 5).blk t).view.read (Elt Ideal) (projArr (rows0 V c) (wts2 V c)) := by
  show (cfg0.win 5).cut (grid0.coords t) ((dat0 V c).after 5 t) = _
  rw [after0_5]
  obtain ⟨e0, e1, e2, e3, e4⟩ := idx_facts5 t
  funext j
  show out0_5 (F := Ideal) (iblk0 V c 0 t) (iblk0 V c 2 t) j = (projArr (rows0 V c) (wts2 V c)) (((cfg0.win 5).blk t).view.emb j)
  refine out0_5_block _ _ _ _ j _ (fun d => ?_) (fun d => ?_)
  · show V c main_v0 (((cfg0.win 0).blk t).view.emb (ix2 (j 0) d)) = V c main_v0 (ix2 ((((cfg0.win 5).blk t).view.emb j) 0) d)
    refine congrArg _ (funext fun a => Fin.ext ?_)
    match a with
    | ⟨0, _⟩ => show win0_0.index t (0 : Fin 2) * 512 + 1 * (j 0).val = win0_5.index t (0 : Fin 2) * 512 + 1 * (j 0).val; omega
    | ⟨1, _⟩ => show win0_0.index t (1 : Fin 2) * 1024 + 1 * d.val = d.val; omega
  · show V c main_v2 (((cfg0.win 2).blk t).view.emb (ix2 d (j 1))) = V c main_v2 (ix2 d ((((cfg0.win 5).blk t).view.emb j) 1))
    refine congrArg _ (funext fun a => Fin.ext ?_)
    match a with
    | ⟨0, _⟩ => show win0_2.index t (0 : Fin 2) * 1024 + 1 * d.val = d.val; omega
    | ⟨1, _⟩ => show win0_2.index t (1 : Fin 2) * 1024 + 1 * (j 1).val = win0_5.index t (1 : Fin 2) * 1024 + 1 * (j 1).val; omega

/-- An index of the result array is in point `t`'s block iff each coordinate is in the block's range on its axis. -/
theorem mem_blk5 (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4_1).slice (win0_5.rect t)).set ↔ _
  rw [View.set_slice_whole, Rect.mem_set_unit]
  exact Iff.rfl

/-- Every index of the result array is in the block of a point that writes back: row `r` is in block `r / 512`. -/
theorem cover5 (i : S16384x1024.Idx) : ∃ t : Fin cfg0.N, (cfg0.win 5).flush t = true ∧ i ∈ ((cfg0.win 5).blk t).view.set := by
  have hi0 : (i 0).val < 16384 := (i 0).isLt
  have hi1 : (i 1).val < 1024 := (i 1).isLt
  obtain ⟨t, ht⟩ := idx_onto5 ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- THE `k` ARRAY after the region: the whole-array projection. -/
theorem arr5_eq (c : Dev nD) : (dat0 V c).arrAt 5 cfg0.N = (projArr (rows0 V c) (wts2 V c)) :=
  (dat0 V c).arrAt_eq_of_cover 5 _ (fun t _ => flushed5_eq V c t) (cover5)

/-- The same with the sum written out. -/
theorem arr5_eq' (c : Dev nD) : (dat0 V c).arrAt 5 cfg0.N = fun i : S16384x1024.Idx => ∑ d : Fin 1024, (rows0 V c) (ix2 (i 0) d) * (wts2 V c) (ix2 d (i 1)) :=
  arr5_eq V c

/-! ## The `v` array (window 6, from the rows and weight matrix 3) -/

/-- A result block at a block index `j` is the whole-array projection at an array index `i`, as soon as the row
    block's row `j 0` is the rows' row `i 0` and the weight block's column `j 1` is the weights' column `i 1`. -/
theorem out0_6_block (x0 : Vec Ideal S512x1024 .f32) (w : Vec Ideal S1024x1024 .bf16)
    (X : S16384x1024.Idx → EReal) (W : S1024x1024.Idx → EReal) (j : S512x1024.Idx) (i : S16384x1024.Idx)
    (hx : ∀ d : Fin 1024, x0 (ix2 (j 0) d) = X (ix2 (i 0) d))
    (hw : ∀ d : Fin 1024, w (ix2 d (j 1)) = W (ix2 d (i 1))) :
    out0_6 (F := Ideal) x0 w j = projArr X W i :=
  (congrArg (out0_6 (F := Ideal) x0 w) (eq_ix2 j)).trans ((out0_6_apply x0 w (j 0) (j 1)).trans
    (Finset.sum_congr rfl fun d _ => congrArg₂ (· * ·) (hx d) (hw d)))

/-- The block indices over the grid: the row block of `x` and the result block sit at the same row-block index, the
    point's number, at column-block index 0; the weight matrix sits at block index (0, 0). -/
theorem idx_facts6 : ∀ t : Fin cfg0.N, win0_0.index t (0 : Fin 2) = win0_6.index t (0 : Fin 2)
    ∧ win0_0.index t (1 : Fin 2) = 0
    ∧ win0_3.index t (0 : Fin 2) = 0
    ∧ win0_3.index t (1 : Fin 2) = 0
    ∧ win0_6.index t (1 : Fin 2) = 0 :=
  (by decide +kernel : ∀ t : Fin grid0.N, _)

/-- Every one of the 32 row blocks of the result is some point's. -/
theorem idx_onto6 : ∀ q0 : Fin 32, ∃ t : Fin cfg0.N, win0_6.index t = ![q0.val, 0] :=
  (by decide +kernel : ∀ q0 : Fin 32, ∃ t : Fin grid0.N, win0_6.index t = ![q0.val, 0])

/-- What point `t` writes back is block `t` of the whole-array projection of the arrays as the region finds them:
    an entry of a block sits in its array, on each axis, at the block index times the block's extent plus the
    coordinate inside the block. -/
theorem flushed6_eq (c : Dev nD) (t : Fin cfg0.N) :
    (dat0 V c).flushed 6 t = ((cfg0.win 6).blk t).view.read (Elt Ideal) (projArr (rows0 V c) (wts3 V c)) := by
  show (cfg0.win 6).cut (grid0.coords t) ((dat0 V c).after 6 t) = _
  rw [after0_6]
  obtain ⟨e0, e1, e2, e3, e4⟩ := idx_facts6 t
  funext j
  show out0_6 (F := Ideal) (iblk0 V c 0 t) (iblk0 V c 3 t) j = (projArr (rows0 V c) (wts3 V c)) (((cfg0.win 6).blk t).view.emb j)
  refine out0_6_block _ _ _ _ j _ (fun d => ?_) (fun d => ?_)
  · show V c main_v0 (((cfg0.win 0).blk t).view.emb (ix2 (j 0) d)) = V c main_v0 (ix2 ((((cfg0.win 6).blk t).view.emb j) 0) d)
    refine congrArg _ (funext fun a => Fin.ext ?_)
    match a with
    | ⟨0, _⟩ => show win0_0.index t (0 : Fin 2) * 512 + 1 * (j 0).val = win0_6.index t (0 : Fin 2) * 512 + 1 * (j 0).val; omega
    | ⟨1, _⟩ => show win0_0.index t (1 : Fin 2) * 1024 + 1 * d.val = d.val; omega
  · show V c main_v3 (((cfg0.win 3).blk t).view.emb (ix2 d (j 1))) = V c main_v3 (ix2 d ((((cfg0.win 6).blk t).view.emb j) 1))
    refine congrArg _ (funext fun a => Fin.ext ?_)
    match a with
    | ⟨0, _⟩ => show win0_3.index t (0 : Fin 2) * 1024 + 1 * d.val = d.val; omega
    | ⟨1, _⟩ => show win0_3.index t (1 : Fin 2) * 1024 + 1 * (j 1).val = win0_6.index t (1 : Fin 2) * 1024 + 1 * (j 1).val; omega

/-- An index of the result array is in point `t`'s block iff each coordinate is in the block's range on its axis. -/
theorem mem_blk6 (t : Fin cfg0.N) (i : S16384x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v4_2).slice (win0_6.rect t)).set ↔ _
  rw [View.set_slice_whole, Rect.mem_set_unit]
  exact Iff.rfl

/-- Every index of the result array is in the block of a point that writes back: row `r` is in block `r / 512`. -/
theorem cover6 (i : S16384x1024.Idx) : ∃ t : Fin cfg0.N, (cfg0.win 6).flush t = true ∧ i ∈ ((cfg0.win 6).blk t).view.set := by
  have hi0 : (i 0).val < 16384 := (i 0).isLt
  have hi1 : (i 1).val < 1024 := (i 1).isLt
  obtain ⟨t, ht⟩ := idx_onto6 ⟨(i 0).val / 512, by omega⟩
  have q0 : win0_6.index t (0 : Fin 2) = (i 0).val / 512 := congrFun ht 0
  have q1 : win0_6.index t (1 : Fin 2) = 0 := congrFun ht 1
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- THE `v` ARRAY after the region: the whole-array projection. -/
theorem arr6_eq (c : Dev nD) : (dat0 V c).arrAt 6 cfg0.N = (projArr (rows0 V c) (wts3 V c)) :=
  (dat0 V c).arrAt_eq_of_cover 6 _ (fun t _ => flushed6_eq V c t) (cover6)

/-- The same with the sum written out. -/
theorem arr6_eq' (c : Dev nD) : (dat0 V c).arrAt 6 cfg0.N = fun i : S16384x1024.Idx => ∑ d : Fin 1024, (rows0 V c) (ix2 (i 0) d) * (wts3 V c) (ix2 d (i 1)) :=
  arr6_eq V c

end Region0

end Cert.KernelIdeal.HandValue

end
-- ==== Proof.KI.KernelArrays.lean ====
/-
  What the attention region's three operand arrays hold, in terms of the program's four argument arrays, on the
  extended reals.

  Let `x` be the input (batch 4 × 4096 positions × 1024 features) and `W_q`, `W_k`, `W_v` the three weight matrices,
  as launched. Before the projection region the host flattens `x` to 16384 rows (row `4096 b + s` is `x`'s row
  `(b, s)`) and rounds each weight matrix to the 16-bit format, which on the extended reals is the identity. The
  projection region leaves, in its three result arrays, the projections of the flattened rows: at `(r, e)`,
  `∑ d, rows (r, d) * W (d, e)`, the first one times `1/32`. The host then reshapes each result to batch × position ×
  feature, which reads row `4096 b + s` at `(b, s)`. So the three operands at `(b, s, e)` are
  `proj x W_q b s e · (1/32)`, `proj x W_k b s e` and `proj x W_v b s e`.
-/
import proofs.«105703_j60739427500253_2_alg».proof.Proof.KI.Run
import proofs.«105703_j60739427500253_2_alg».proof.Proof.KI.Region0Final
import proofs.«105703_j60739427500253_2_alg».proof.Proof.Spec

set_option maxRecDepth 16384

noncomputable section

namespace Cert.KernelIdeal.HandValue

open Cert.KernelIdeal.Gen Cert.KernelIdeal.Hand
open Idealize.ShloMosaic Idealize.ShloMosaic.TcCoe Idealize.ShloMosaic.ValueIdx Idealize.SL.Sem
open scoped BigOperators

/-! ## The two reshapes at an index -/

/-- A 16384 × 1024 array reshaped to 4 × 4096 × 1024 reads, at `(b, s, e)`, the operand at `(4096 b + s, e)`: the two
    indices have the same row-major position. -/
theorem shapeCast_rows_apply {α : Type} (x : S16384x1024.Idx → α) (h : S16384x1024.ShapeCasts S4x4096x1024)
    (b : Fin 4) (s : Fin 4096) (e : Fin 1024) :
    shapeCast S4x4096x1024 x h (ix3 b s e) = x (ix2 (⟨4096 * b.val + s.val, by omega⟩ : Fin 16384) e) :=
  shapeCast_apply x h _ _ (by
    rw [Shape.rowMajor_val_two, Shape.rowMajor_val_three]
    show (4096 * b.val + s.val) * 1024 + e.val = (b.val * 4096 + s.val) * 1024 + e.val
    omega)

/-- A 4 × 4096 × 1024 array flattened to 16384 × 1024 reads, at `(4096 b + s, e)`, the operand at `(b, s, e)`. -/
theorem shapeCast_flat_apply {α : Type} (x : S4x4096x1024.Idx → α) (h : S4x4096x1024.ShapeCasts S16384x1024)
    (b : Fin 4) (s : Fin 4096) (e : Fin 1024) :
    shapeCast S16384x1024 x h (ix2 (⟨4096 * b.val + s.val, by omega⟩ : Fin 16384) e) = x (ix3 b s e) :=
  shapeCast_apply x h _ _ (by
    rw [Shape.rowMajor_val_two, Shape.rowMajor_val_three]
    show (b.val * 4096 + s.val) * 1024 + e.val = (4096 * b.val + s.val) * 1024 + e.val
    omega)

/-! ## The arrays, as functions to the extended reals -/

section Operands
-- the contents of every buffer when a region is entered
variable (V : (c : Dev nD) → (b : Ref sig .tc) → Buf (Elt Ideal) ((c : Thread nD τ).loc b))

/-- The attention region's query, key and value operands as the region finds them. -/
abbrev qOp (c : Dev nD) : S4x4096x1024.Idx → EReal := V c main_v5
abbrev kOp (c : Dev nD) : S4x4096x1024.Idx → EReal := V c main_v6
abbrev vOp (c : Dev nD) : S4x4096x1024.Idx → EReal := V c main_v7

end Operands

variable (m : (ℓ : Loc nD τ sig) → Buf (Elt Ideal) ℓ) (ρ : Dev nD → PrngReg)

/-- The input and the three weight matrices as launched. -/
abbrev argX (c : Dev nD) : S4x4096x1024.Idx → EReal := m ((c : Thread nD τ).loc main_arg0)
abbrev argWq (c : Dev nD) : S1024x1024.Idx → EReal := m ((c : Thread nD τ).loc main_arg1)
abbrev argWk (c : Dev nD) : S1024x1024.Idx → EReal := m ((c : Thread nD τ).loc main_arg2)
abbrev argWv (c : Dev nD) : S1024x1024.Idx → EReal := m ((c : Thread nD τ).loc main_arg3)

/-! ## The three operands at an index -/

/-- The query operand at batch `b`, position `s`, feature `e`: the reshape reads row `4096 b + s` of the projection
    region's result, which is the sum over the flattened input's row `4096 b + s` — the argument's row `(b, s)` —
    and the rounded weight matrix's column `e`, the rounding being the identity on the extended reals; times `1/32`. -/
theorem qOp_apply (c : Dev nD) (b : Fin 4) (s : Fin 4096) (e : Fin 1024) :
    qOp (V3 m ρ) c (ix3 b s e) = Cert.Att.proj (argX m c) (argWq m c) b s e * ((((1 : ℝ) / 32 : ℝ)) : EReal) := by
  have e1 : qOp (V3 m ρ) c (ix3 b s e)
      = (dat0 (V1 m ρ) c).arrAt 4 cfg0.N (ix2 (⟨4096 * b.val + s.val, by omega⟩ : Fin 16384) e) :=
    (congrFun (V3_main_v5 m ρ c) (ix3 b s e)).trans (shapeCast_rows_apply _ _ b s e)
  refine e1.trans ((congrFun (arr4_eq' (V1 m ρ) c) _).trans ?_)
  show (∑ d : Fin 1024, rows0 (V1 m ρ) c (ix2 (⟨4096 * b.val + s.val, by omega⟩ : Fin 16384) d) * wts1 (V1 m ρ) c (ix2 d e)) * ((((1 : ℝ) / 32 : ℝ)) : EReal) = _
  unfold Cert.Att.proj
  refine congrArg (fun t : EReal => t * ((((1 : ℝ) / 32 : ℝ)) : EReal)) (Finset.sum_congr rfl fun d _ => ?_)
  have hx : rows0 (V1 m ρ) c (ix2 (⟨4096 * b.val + s.val, by omega⟩ : Fin 16384) d) = argX m c (ix3 b s d) :=
    (congrFun (V1_main_v0 m ρ c) _).trans (shapeCast_flat_apply _ _ b s d)
  have hw : wts1 (V1 m ρ) c (ix2 d e) = argWq m c (ix2 d e) := congrFun (V1_main_v1 m ρ c) (ix2 d e)
  exact congrArg₂ (· * ·) hx hw

/-- The key operand at batch `b`, position `s`, feature `e`: the reshape reads row `4096 b + s` of the projection
    region's result, which is the sum over the flattened input's row `4096 b + s` — the argument's row `(b, s)` —
    and the rounded weight matrix's column `e`, the rounding being the identity on the extended reals. -/
theorem kOp_apply (c : Dev nD) (b : Fin 4) (s : Fin 4096) (e : Fin 1024) :
    kOp (V3 m ρ) c (ix3 b s e) = Cert.Att.proj (argX m c) (argWk m c) b s e := by
  have e1 : kOp (V3 m ρ) c (ix3 b s e)
      = (dat0 (V1 m ρ) c).arrAt 5 cfg0.N (ix2 (⟨4096 * b.val + s.val, by omega⟩ : Fin 16384) e) :=
    (congrFun (V3_main_v6 m ρ c) (ix3 b s e)).trans (shapeCast_rows_apply _ _ b s e)
  refine e1.trans ((congrFun (arr5_eq' (V1 m ρ) c) _).trans ?_)
  show ∑ d : Fin 1024, rows0 (V1 m ρ) c (ix2 (⟨4096 * b.val + s.val, by omega⟩ : Fin 16384) d) * wts2 (V1 m ρ) c (ix2 d e) = _
  unfold Cert.Att.proj
  refine Finset.sum_congr rfl fun d _ => ?_
  have hx : rows0 (V1 m ρ) c (ix2 (⟨4096 * b.val + s.val, by omega⟩ : Fin 16384) d) = argX m c (ix3 b s d) :=
    (congrFun (V1_main_v0 m ρ c) _).trans (shapeCast_flat_apply _ _ b s d)
  have hw : wts2 (V1 m ρ) c (ix2 d e) = argWk m c (ix2 d e) := congrFun (V1_main_v2 m ρ c) (ix2 d e)
  exact congrArg₂ (· * ·) hx hw

/-- The value operand at batch `b`, position `s`, feature `e`: the reshape reads row `4096 b + s` of the projection
    region's result, which is the sum over the flattened input's row `4096 b + s` — the argument's row `(b, s)` —
    and the rounded weight matrix's column `e`, the rounding being the identity on the extended reals. -/
theorem vOp_apply (c : Dev nD) (b : Fin 4) (s : Fin 4096) (e : Fin 1024) :
    vOp (V3 m ρ) c (ix3 b s e) = Cert.Att.proj (argX m c) (argWv m c) b s e := by
  have e1 : vOp (V3 m ρ) c (ix3 b s e)
      = (dat0 (V1 m ρ) c).arrAt 6 cfg0.N (ix2 (⟨4096 * b.val + s.val, by omega⟩ : Fin 16384) e) :=
    (congrFun (V3_main_v7 m ρ c) (ix3 b s e)).trans (shapeCast_rows_apply _ _ b s e)
  refine e1.trans ((congrFun (arr6_eq' (V1 m ρ) c) _).trans ?_)
  show ∑ d : Fin 1024, rows0 (V1 m ρ) c (ix2 (⟨4096 * b.val + s.val, by omega⟩ : Fin 16384) d) * wts3 (V1 m ρ) c (ix2 d e) = _
  unfold Cert.Att.proj
  refine Finset.sum_congr rfl fun d _ => ?_
  have hx : rows0 (V1 m ρ) c (ix2 (⟨4096 * b.val + s.val, by omega⟩ : Fin 16384) d) = argX m c (ix3 b s d) :=
    (congrFun (V1_main_v0 m ρ c) _).trans (shapeCast_flat_apply _ _ b s d)
  have hw : wts3 (V1 m ρ) c (ix2 d e) = argWv m c (ix2 d e) := congrFun (V1_main_v3 m ρ c) (ix2 d e)
  exact congrArg₂ (· * ·) hx hw

end Cert.KernelIdeal.HandValue

end
-- ==== Proof.KI.KernelValue.lean ====
/-
  The kernel program's result array is causal attention of its four argument arrays. After the attention region the
  result array holds, at (batch, query position, feature), the online-softmax recurrence over the eight key tiles of
  the three arrays the region reads, normalised; those arrays are the projection region's outputs reshaped — the query
  projection already divided by 32, the key and value projections —, so the recurrence's logits and values are those of
  the specification's tiles, and for arguments all of whose entries are real numbers the recurrence's normalised end
  state is the specification's attention.
-/
import proofs.«105703_j60739427500253_2_alg».proof.Proof.KI.FlashFinal
import proofs.«105703_j60739427500253_2_alg».proof.Proof.KI.KernelArrays
import proofs.«105703_j60739427500253_2_alg».proof.Proof.AttnOnline

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open OnlineSoftmax Cert.Att

section Value
variable (m : (ℓ : Loc nD τ sig) → Buf (Elt Ideal) ℓ) (ρ : Dev nD → PrngReg) (c : Dev nD)

/-- The recurrence's logits are the specification's: the region's query array is the query projection over 32. -/
theorem zArr_eq (b : Fin 4) (qi : Fin 4) (r : Fin 1024) :
    zArr (V3 m ρ) c b qi r = zTile (argX m c) (argWq m c) (argWk m c) b qi r := by
  funext ki k
  unfold zArr zTile
  refine if_congr Iff.rfl (Finset.sum_congr rfl fun e _ => ?_) rfl
  rw [show qArr (V3 m ρ) c (ix3 b (⟨1024 * qi.val + r.val, by omega⟩ : Fin 4096) e) = _ from qOp_apply m ρ c b _ e,
    show kArr (V3 m ρ) c (ix3 b (⟨512 * ki.val + k.val, by omega⟩ : Fin 4096) e) = _ from kOp_apply m ρ c b _ e]

/-- And its values are the value projection's rows. -/
theorem vArr_eq (b : Fin 4) (e : Fin 1024) :
    vArr (V3 m ρ) c b e = vTile (argX m c) (argWv m c) b e := by
  funext ki k
  unfold vArr vTile
  exact vOp_apply m ρ c b _ e

/-- THE KERNEL'S RESULT. -/
theorem result_eq (hx : ∀ i, ∃ r : ℝ, argX m c i = (r : EReal)) (hq : ∀ i, ∃ r : ℝ, argWq m c i = (r : EReal))
    (hk : ∀ i, ∃ r : ℝ, argWk m c i = (r : EReal)) (hv : ∀ i, ∃ r : ℝ, argWv m c i = (r : EReal)) :
    ((dat1 (V3 m ρ) c).arrAt 3 cfg1.N : S4x4096x1024.Idx → EReal) = attnArr (argX m c) (argWq m c) (argWk m c) (argWv m c) := by
  rw [final3]
  funext i
  obtain ⟨b, q, e, rfl⟩ : ∃ (b : Fin 4) (q : Fin 4096) (e : Fin 1024), i = ix3 b q e := ⟨i 0, i 1, i 2, eq_ix3 i⟩
  show outRow (V3 m ρ) c b ⟨q.val / 1024, Nat.div_lt_of_lt_mul (show q.val < 1024 * 4 from q.isLt)⟩ ⟨q.val % 1024, Nat.mod_lt _ (by norm_num)⟩ e
    = attn (argX m c) (argWq m c) (argWk m c) (argWv m c) b q e
  unfold outRow
  rw [zArr_eq, vArr_eq, attn_eq_online (argX m c) (argWq m c) (argWk m c) (argWv m c) hx hq hk hv]
  congr 1
  exact Fin.ext (by show 1024 * (q.val / 1024) + q.val % 1024 = q.val; omega)

end Value

end Cert.KernelIdeal.HandValue

end
-- ==== Proof.lean ====
/-
  The certificate's claim: a tiled causal flash-attention kernel (a fused Q/K/V projection region and an online-softmax
  attention region over key tiles) against a plain causal softmax-attention reference.

  Frames: each program runs to the end, faults nowhere and leaves its arguments as launched (Proof/Frames.lean).
  Idealization: the one rewrite names the mask's finite fill as minus infinity.
  Equivalence on the extended reals, for finite inputs: the reference computes `Cert.Att.attnArr` of the arguments
  operation by operation (Proof/RefSide.lean); the kernel program's result array is the same function
  (Proof/KI/KernelValue.lean): its running maximum, denominator and rescaled accumulator over the key tiles are the
  online-softmax recurrence, whose normalised end state is the softmax-weighted sum of the value rows
  (Proof/LibOnlineSoftmax.lean), a skipped key tile being wholly masked and a masked logit weighing exp(−∞) = 0.
  Finiteness is used where a factor moves across a sum: the 1/32 across the feature sum, the rescaling of the
  accumulator, the final division.
-/
import proofs.«105703_j60739427500253_2_alg».proof.Defs
import proofs.«105703_j60739427500253_2_alg».proof.Proof.Gen.Kernel
import proofs.«105703_j60739427500253_2_alg».proof.Proof.Gen.Kernel.Skeleton
import proofs.«105703_j60739427500253_2_alg».proof.Proof.Gen.Kernel.Launch
import proofs.«105703_j60739427500253_2_alg».proof.Proof.Gen.Kernel.Regions
import proofs.«105703_j60739427500253_2_alg».proof.Proof.Gen.Kernel.Points
import proofs.«105703_j60739427500253_2_alg».proof.Proof.Gen.KernelIdeal
import proofs.«105703_j60739427500253_2_alg».proof.Proof.Gen.KernelIdeal.Skeleton
import proofs.«105703_j60739427500253_2_alg».proof.Proof.Gen.KernelIdeal.Launch
import proofs.«105703_j60739427500253_2_alg».proof.Proof.Gen.KernelIdeal.Regions
import proofs.«105703_j60739427500253_2_alg».proof.Proof.Gen.KernelIdeal.Points
import proofs.«105703_j60739427500253_2_alg».proof.Proof.Gen.ReferenceIdeal
import proofs.«105703_j60739427500253_2_alg».proof.Proof.Gen.ReferenceIdeal.Read
import proofs.«105703_j60739427500253_2_alg».proof.Proof.Gen.Pre_finite_inputs
import proofs.«105703_j60739427500253_2_alg».proof.Proof.Frames
import proofs.«105703_j60739427500253_2_alg».proof.Proof.Finite
import proofs.«105703_j60739427500253_2_alg».proof.Proof.KI.KernelValue
import Idealize.ShloMosaic.Adequacy
import Idealize.ShloMosaic.Init

noncomputable section

namespace Cert.Proof

open Idealize.ShloMosaic Idealize.SL.Sem

/-- From memories agreeing on the arguments, both idealized programs end with `Cert.Att.attnArr` of the arguments in
    their result arrays. -/
theorem algebraic : Cert.algebraic_KernelIdeal_ReferenceIdeal := by
  intro m ρ m' ρ' hpre hagree
  refine ⟨fun c => Cert.Att.attnArr (Cert.KernelIdeal.HandValue.argX m c) (Cert.KernelIdeal.HandValue.argWq m c) (Cert.KernelIdeal.HandValue.argWk m c) (Cert.KernelIdeal.HandValue.argWv m c), ?_, ?_⟩
  · refine (θ_run (Cert.KernelIdeal.defs (F := Ideal)) _ _).mono (fun r h c => ⟨(h c).1.trans ?_, (h c).2⟩)
      (Cert.KernelIdeal.Hand.run_main (F := Ideal) m ρ)
    obtain ⟨hx, hq, hk, hv⟩ := Cert.Att.Fin.real_of_pre _ _ _ _ (hpre c)
    exact Cert.KernelIdeal.HandValue.result_eq m ρ c hx hq hk hv
  · refine (θ_run (Cert.ReferenceIdeal.defs (F := Ideal)) _ _).mono (fun r h c => ⟨(h c).1.trans ?_, (h c).2⟩)
      (Cert.Att.Ref.ref_run m' ρ')
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  Parts.frame_kernel, Parts.frame_kernelIdeal, Parts.frame_reference, Parts.preserves, algebraic⟩

end Cert.Proof

end
